-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x128 : Shape := ⟨2, ![100000, 128]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg20 : FVec F S2x128x128 .f32) (main_arg21 : FVec F S128x16 .f32) (main_arg22 : FVec F S16 .f32) (main_v63 : IVec S_ 1) (main_v67 : IVec S_ 1) : IVec S_ 1 :=
  let main_v68 : IVec S_ 1 := andi main_v63 main_v67
  let main_v69 : FVec F S2x128x128 .f32 := Host.absf main_arg20
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S128x16 .f32 := Host.absf main_arg21
  let main_cst_28 : FVec F S_ .f32 := constant S_ .f32 0x7F800000#32
  let main_v75 : FVec F S128x16 .f32 := broadcastInDim S128x16 ![] bcast_S_S128x16 main_cst_28
  let main_v76 : IVec S128x16 1 := cmpf .olt main_v74 main_v75
  let main_c_29 : IVec S_ 1 := constantI S_ 1 1#1
  let main_v77 : IVec S_ 1 := (fun x v => Host.reduce IntOp.andi x v reducesTo_S128x16_S_d0_1 h_S_) main_v76 main_c_29
  let main_v78 : IVec S_ 1 := andi main_v73 main_v77
  let main_v79 : FVec F S16 .f32 := Host.absf main_arg22
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg17 : FVec F S2x128x128 .f32) (main_arg18 : FVec F S2x128x128 .f32) (main_arg19 : FVec F S2x128 .f32) (main_arg20 : FVec F S2x128x128 .f32) (main_arg21 : FVec F S128x16 .f32) (main_arg22 : FVec F S16 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128x128 .f32 := Host.absf main_arg17
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128x128 .f32 := Host.absf main_arg18
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S2x128 .f32 := Host.absf main_arg19
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg20 main_arg21 main_arg22 main_v63 main_v67

def fn_part2 {F : FTy → Type} [FloatOps F] (main_arg13 : FVec F S2x128 .f32) (main_arg14 : FVec F S2x128x128 .f32) (main_arg15 : FVec F S2x128x128 .f32) (main_arg16 : FVec F S2x128 .f32) (main_arg17 : FVec F S2x128x128 .f32) (main_arg18 : FVec F S2x128x128 .f32) (main_arg19 : FVec F S2x128 .f32) (main_arg20 : FVec F S2x128x128 .f32) (main_arg21 : FVec F S128x16 .f32) (main_arg22 : FVec F S16 .f32) (main_v33 : IVec S_ 1) : IVec S_ 1 :=
  let main_v34 : FVec F S2x128 .f32 := Host.absf main_arg13
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg14
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128x128 .f32 := Host.absf main_arg15
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg16
  let main_cst_18 : FVec F S_ .f32 := constant S_ .f32 0x7F800000#32
  let main_v50 : FVec F S2x128 .f32 := broadcastInDim S2x128 ![] bcast_S_S2x128 main_cst_18
  fn_part3 (F := F) main_arg17 main_arg18 main_arg19 main_arg20 main_arg21 main_arg22 main_v48 main_v49 main_v50

def fn_part1 {F : FTy → Type} [FloatOps F] (main_arg10 : FVec F S128x128 .f32) (main_arg11 : FVec F S128 .f32) (main_arg12 : FVec F S2x128x128 .f32) (main_arg13 : FVec F S2x128 .f32) (main_arg14 : FVec F S2x128x128 .f32) (main_arg15 : FVec F S2x128x128 .f32) (main_arg16 : FVec F S2x128 .f32) (main_arg17 : FVec F S2x128x128 .f32) (main_arg18 : FVec F S2x128x128 .f32) (main_arg19 : FVec F S2x128 .f32) (main_arg20 : FVec F S2x128x128 .f32) (main_arg21 : FVec F S128x16 .f32) (main_arg22 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg12
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S200000x64 .f32) (main_arg1 : FVec F S100000x128 .f32) (main_arg2 : IVec S1000000 32) (main_arg3 : IVec S1000000 32) (main_arg4 : IVec S1000000 32) (main_arg5 : IVec S1000000 32) (main_arg6 : IVec S1000000 32) (main_arg7 : IVec S1000000 32) (main_arg8 : FVec F S64x128 .f32) (main_arg9 : FVec F S128 .f32) (main_arg10 : FVec F S128x128 .f32) (main_arg11 : FVec F S128 .f32) (main_arg12 : FVec F S2x128x128 .f32) (main_arg13 : FVec F S2x128 .f32) (main_arg14 : FVec F S2x128x128 .f32) (main_arg15 : FVec F S2x128x128 .f32) (main_arg16 : FVec F S2x128 .f32) (main_arg17 : FVec F S2x128x128 .f32) (main_arg18 : FVec F S2x128x128 .f32) (main_arg19 : FVec F S2x128 .f32) (main_arg20 : FVec F S2x128x128 .f32) (main_arg21 : FVec F S128x16 .f32) (main_arg22 : FVec F S16 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S64x128 .f32 := Host.absf main_arg8
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_v13 main_v16
-- ==== Kernel.lean ====
abbrev S200000x64 : Shape := ⟨2, ![200000, 64]⟩
abbrev S100000x128 : Shape := ⟨2, ![100000, 128]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S1x128 : Shape := ⟨2, ![1, 128]⟩
abbrev S200000x128 : Shape := ⟨2, ![200000, 128]⟩
abbrev S4000x64 : Shape := ⟨2, ![4000, 64]⟩
abbrev S4000x128 : Shape := ⟨2, ![4000, 128]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S200000 : Shape := ⟨1, ![200000]⟩
abbrev S200000x1 : Shape := ⟨2, ![200000, 1]⟩
abbrev S1000000x128 : Shape := ⟨2, ![1000000, 128]⟩
abbrev S1x128x128 : Shape := ⟨3, ![1, 128, 128]⟩
abbrev S4000x1 : Shape := ⟨2, ![4000, 1]⟩
abbrev S1x16 : Shape := ⟨2, ![1, 16]⟩
abbrev S200000x16 : Shape := ⟨2, ![200000, 16]⟩
abbrev S4000x16 : Shape := ⟨2, ![4000, 16]⟩

abbrev nBuf : Space → Nat
  | .hbm => 175
  | .vmem => 61
  | .smem => 0
  | _ => 0

abbrev hbmTy0_0 (i : Nat) : BufTy := match i % 128 with
  | 0 => ⟨S200000x64, .f32⟩
  | 1 => ⟨S100000x128, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S64x128, .f32⟩
  | 9 => ⟨S128, .f32⟩
  | 10 => ⟨S128x128, .f32⟩
  | 11 => ⟨S128, .f32⟩
  | 12 => ⟨S2x128x128, .f32⟩
  | 13 => ⟨S2x128, .f32⟩
  | 14 => ⟨S2x128x128, .f32⟩
  | 15 => ⟨S2x128x128, .f32⟩
  | 16 => ⟨S2x128, .f32⟩
  | 17 => ⟨S2x128x128, .f32⟩
  | 18 => ⟨S2x128x128, .f32⟩
  | 19 => ⟨S2x128, .f32⟩
  | 20 => ⟨S2x128x128, .f32⟩
  | 21 => ⟨S128x16, .f32⟩
  | 22 => ⟨S16, .f32⟩
  | 23 => ⟨S1x128, .f32⟩
  | 24 => ⟨S200000x128, .bf16⟩
  | 25 => ⟨S1x128, .f32⟩
  | 26 => ⟨S100000x128, .bf16⟩
  | 27 => ⟨S_, .f32⟩
  | 28 => ⟨S1000000, .f32⟩
  | 29 => ⟨S_, .f32⟩
  | 30 => ⟨S100000, .f32⟩
  | 31 => ⟨S1000000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .f32⟩
  | 41 => ⟨S1000000, .f32⟩
  | 42 => ⟨S_, .f32⟩
  | 43 => ⟨S200000, .f32⟩
  | 44 => ⟨S1000000x1, .i32⟩
  | 45 => ⟨S200000, .f32⟩
  | 46 => ⟨S_, .f32⟩
  | 47 => ⟨S200000, .f32⟩
  | 48 => ⟨S200000, .f32⟩
  | 49 => ⟨S_, .f32⟩
  | 50 => ⟨S200000, .f32⟩
  | 51 => ⟨S200000, .f32⟩
  | 52 => ⟨S200000x1, .f32⟩
  | 53 => ⟨S_, .f32⟩
  | 54 => ⟨S1000000, .f32⟩
  | 55 => ⟨S_, .f32⟩
  | 56 => ⟨S200000, .f32⟩
  | 57 => ⟨S1000000x1, .i32⟩
  | 58 => ⟨S200000, .f32⟩
  | 59 => ⟨S_, .f32⟩
  | 60 => ⟨S200000, .f32⟩
  | 61 => ⟨S200000, .f32⟩
  | 62 => ⟨S_, .f32⟩
  | 63 => ⟨S200000, .f32⟩
  | 64 => ⟨S200000, .f32⟩
  | 65 => ⟨S200000x1, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x128, .bf16⟩
  | 75 => ⟨S1000000x128, .f32⟩
  | 76 => ⟨S_, .f32⟩
  | 77 => ⟨S100000x128, .f32⟩
  | 78 => ⟨S1000000x1, .i32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S100000x128, .bf16⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .bf16⟩
  | 97 => ⟨S1000000x128, .f32⟩
  | 98 => ⟨S_, .f32⟩
  | 99 => ⟨S200000x128, .f32⟩
  | 100 => ⟨S1000000x1, .i32⟩
  | 101 => ⟨S200000x128, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .bf16⟩
  | 111 => ⟨S1000000x128, .f32⟩
  | 112 => ⟨S_, .f32⟩
  | 113 => ⟨S200000x128, .f32⟩
  | 114 => ⟨S1000000x1, .i32⟩
  | 115 => ⟨S200000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S128, .f32⟩
  | 126 => ⟨S1x128x128, .f32⟩
  | 127 => ⟨S128x128, .f32⟩
  | _ => ⟨S200000x64, .f32⟩

abbrev hbmTy0_1 (i : Nat) : BufTy := match i % 128 with
  | 0 => ⟨S1x128, .f32⟩
  | 1 => ⟨S1x128, .f32⟩
  | 2 => ⟨S200000x128, .bf16⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x128, .bf16⟩
  | 12 => ⟨S1000000x128, .f32⟩
  | 13 => ⟨S_, .f32⟩
  | 14 => ⟨S200000x128, .f32⟩
  | 15 => ⟨S1000000x1, .i32⟩
  | 16 => ⟨S200000x128, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x128, .bf16⟩
  | 26 => ⟨S1000000x128, .f32⟩
  | 27 => ⟨S_, .f32⟩
  | 28 => ⟨S200000x128, .f32⟩
  | 29 => ⟨S1000000x1, .i32⟩
  | 30 => ⟨S200000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S1x128, .f32⟩
  | 45 => ⟨S1x16, .f32⟩
  | 46 => ⟨S200000x16, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S4000x128, .bf16⟩
  | .local _ .vmem, ⟨17, _⟩ => ⟨S4000x128, .bf16⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S4000x128, .f32⟩
  | .local _ .vmem, ⟨28, _⟩ => ⟨S4000x128, .f32⟩
  | .local _ .vmem, ⟨29, _⟩ => ⟨S4000x1, .f32⟩
  | .local _ .vmem, ⟨30, _⟩ => ⟨S4000x1, .f32⟩
  | .local _ .vmem, ⟨31, _⟩ => ⟨S4000x128, .bf16⟩
  | .local _ .vmem, ⟨32, _⟩ => ⟨S4000x128, .bf16⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S4000x128, .bf16⟩
  | .local _ .vmem, ⟨40, _⟩ => ⟨S4000x128, .bf16⟩
  | .local _ .vmem, ⟨41, _⟩ => ⟨S4000x128, .f32⟩
  | .local _ .vmem, ⟨42, _⟩ => ⟨S4000x128, .f32⟩
  | .local _ .vmem, ⟨43, _⟩ => ⟨S4000x1, .f32⟩
  | .local _ .vmem, ⟨44, _⟩ => ⟨S4000x1, .f32⟩
  | .local _ .vmem, ⟨45, _⟩ => ⟨S4000x128, .f32⟩
  | .local _ .vmem, ⟨46, _⟩ => ⟨S4000x128, .f32⟩
  | .local _ .vmem, ⟨47, _⟩ => ⟨S4000x1, .f32⟩
  | .local _ .vmem, ⟨48, _⟩ => ⟨S4000x1, .f32⟩
  | .local _ .vmem, ⟨49, _⟩ => ⟨S4000x128, .bf16⟩
  | .local _ .vmem, ⟨50, _⟩ => ⟨S4000x128, .bf16⟩
  | .local _ .vmem, ⟨51, _⟩ => ⟨S128x128, .f32⟩
  | .local _ .vmem, ⟨52, _⟩ => ⟨S1x128, .f32⟩
  | .local _ .vmem, ⟨53, _⟩ => ⟨S128x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S128x16, .f32⟩
  | .local _ .vmem, ⟨58, _⟩ => ⟨S1x16, .f32⟩
  | .local _ .vmem, ⟨59, _⟩ => ⟨S4000x16, .f32⟩
  | .local _ .vmem, ⟨60, _⟩ => ⟨S4000x16, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_cst_4 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_v18 : Ref sig .tc := ⟨.hbm, 48, rfl⟩
abbrev main_cst_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_7 : Ref sig .tc := ⟨.hbm, 53, rfl⟩
abbrev main_v22 : Ref sig .tc := ⟨.hbm, 54, rfl⟩
abbrev main_cst_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_9 : Ref sig .tc := ⟨.hbm, 59, rfl⟩
abbrev main_v26 : Ref sig .tc := ⟨.hbm, 60, rfl⟩
abbrev main_v27 : Ref sig .tc := ⟨.hbm, 61, rfl⟩
abbrev main_cst_10 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c : Ref sig .tc := ⟨.hbm, 66, rfl⟩
abbrev main_v31 : Ref sig .tc := ⟨.hbm, 67, rfl⟩
abbrev main_v32 : Ref sig .tc := ⟨.hbm, 68, rfl⟩
abbrev main_c_11 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_12 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_13 : Ref sig .tc := ⟨.hbm, 88, rfl⟩
abbrev main_v50 : Ref sig .tc := ⟨.hbm, 89, rfl⟩
abbrev main_v51 : Ref sig .tc := ⟨.hbm, 90, rfl⟩
abbrev main_c_14 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_15 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_16 : Ref sig .tc := ⟨.hbm, 102, rfl⟩
abbrev main_v61 : Ref sig .tc := ⟨.hbm, 103, rfl⟩
abbrev main_v62 : Ref sig .tc := ⟨.hbm, 104, rfl⟩
abbrev main_c_17 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_19 : Ref sig .tc := ⟨.hbm, 131, rfl⟩
abbrev main_v87 : Ref sig .tc := ⟨.hbm, 132, rfl⟩
abbrev main_v88 : Ref sig .tc := ⟨.hbm, 133, rfl⟩
abbrev main_c_20 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_22 : Ref sig .tc := ⟨.hbm, 145, rfl⟩
abbrev main_v98 : Ref sig .tc := ⟨.hbm, 146, rfl⟩
abbrev main_v99 : Ref sig .tc := ⟨.hbm, 147, rfl⟩
abbrev main_c_23 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_24 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg11_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg9_0 : Ref sig .tc := ⟨.vmem, 55, rfl⟩
abbrev cc4_stg10_0 : Ref sig .tc := ⟨.vmem, 56, rfl⟩
abbrev cc4_stg11_0 : Ref sig .tc := ⟨.vmem, 57, rfl⟩
abbrev cc4_stg12_0 : Ref sig .tc := ⟨.vmem, 58, rfl⟩
abbrev cc4_stg13_0 : Ref sig .tc := ⟨.vmem, 59, rfl⟩
abbrev cc4_stg13_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem11_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem4_1 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem11_0 : DmaSem sig := 57
abbrev cc4_sem12_0 : DmaSem sig := 58
abbrev cc4_sem13_0 : DmaSem sig := 59
abbrev cc4_sem13_1 : DmaSem sig := 60

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x128 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x16 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x16 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S4000x16 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  inb_S128x128_S128x128_0_0 : ∀ a, (![0, 0] : Fin 2 → Nat) a + S128x128.size a ≤ S128x128.size a
  h_S128x128 : 0 < S128x128.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S200000 : S_.BroadcastsInDim S200000 (![] : Fin 0 → Fin S200000.rank)
  shapeCasts_S200000_S200000x1 : S200000.ShapeCasts S200000x1
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  shapeCasts_S128x128_S128x128 : S128x128.ShapeCasts S128x128
  bcast_S_S200000x128 : S_.BroadcastsInDim S200000x128 (![] : Fin 0 → Fin S200000x128.rank)
  slices_S2x128x128_S1x128x128_1_0_0 : S2x128x128.Slices ![1, 0, 0] S1x128x128
  slices_S2x128_S1x128_1_0 : S2x128.Slices ![1, 0] S1x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  scatter_S100000_S1000000x1_S1000000_n_0_0_1_wf : ScatterDims.WF S100000 S1000000x1 S1000000 [] [0] [0] 1
  scatter_S200000_S1000000x1_S1000000_n_0_0_1_wf : ScatterDims.WF S200000 S1000000x1 S1000000 [] [0] [0] 1
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .bf16 = 32 ∨ (Rect.block (s := S200000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .bf16 = 32 ∨ (Rect.block (s := S100000x128) S4000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S200000x128.size a
  hwx3_2 : ∀ i : grid3.Coords, EltTy.bits .f32 = 32 ∨ (Rect.block (s := S200000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S200000x1.size a
  hwx3_3 : ∀ i : grid3.Coords, EltTy.bits .f32 = 32 ∨ (Rect.block (s := S200000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S200000x128.size a
  hwx3_4 : ∀ i : grid3.Coords, EltTy.bits .bf16 = 32 ∨ (Rect.block (s := S200000x128) S4000x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x128.size a ≤ S200000x128.size a
  hwx3_11 : ∀ i : grid3.Coords, EltTy.bits .bf16 = 32 ∨ (Rect.block (s := S200000x128) S4000x128.size (cc3_transform_11 i) (hinb3_11 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S200000x128.size a
  hwx4_2 : ∀ i : grid4.Coords, EltTy.bits .f32 = 32 ∨ (Rect.block (s := S200000x128) S4000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S200000x1.size a
  hwx4_3 : ∀ i : grid4.Coords, EltTy.bits .f32 = 32 ∨ (Rect.block (s := S200000x1) S4000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S200000x128.size a
  hwx4_4 : ∀ i : grid4.Coords, EltTy.bits .bf16 = 32 ∨ (Rect.block (s := S200000x128) S4000x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128x128.size a ≤ S128x128.size a
  hwx4_10 : ∀ i : grid4.Coords, EltTy.bits .f32 = 32 ∨ (Rect.block (s := S128x128) S128x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x16.size a ≤ S128x16.size a
  hwx4_11 : ∀ i : grid4.Coords, EltTy.bits .f32 = 32 ∨ (Rect.block (s := S128x16) S128x16.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x16.size a ≤ S1x16.size a
  hwx4_12 : ∀ i : grid4.Coords, EltTy.bits .f32 = 32 ∨ (Rect.block (s := S1x16) S1x16.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S4000x16.size a ≤ S200000x16.size a
  hwx4_13 : ∀ i : grid4.Coords, EltTy.bits .f32 = 32 ∨ (Rect.block (s := S200000x16) S4000x16.size (cc4_transform_13 i) (hinb4_13 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S4000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v73) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v85) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v83) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v86) S4000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v97) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v108) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v86) S4000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v110) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v121) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v114) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v116) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v122) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v120) S128x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg21) S128x16.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v123) S1x16.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v124) S4000x16.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S200000x64 : Shape := ⟨2, ![200000, 64]⟩
abbrev S100000x128 : Shape := ⟨2, ![100000, 128]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S200000x128 : Shape := ⟨2, ![200000, 128]⟩
abbrev S1x128 : Shape := ⟨2, ![1, 128]⟩
abbrev S1x128x128 : Shape := ⟨3, ![1, 128, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S200000x16 : Shape := ⟨2, ![200000, 16]⟩
abbrev S1x16 : Shape := ⟨2, ![1, 16]⟩

abbrev nBuf : Space → Nat
  | .hbm => 273
  | .vmem => 0
  | .smem => 0
  | _ => 0

abbrev hbmTy0_0 (i : Nat) : BufTy := match i % 128 with
  | 0 => ⟨S200000x64, .f32⟩
  | 1 => ⟨S100000x128, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S64x128, .f32⟩
  | 9 => ⟨S128, .f32⟩
  | 10 => ⟨S128x128, .f32⟩
  | 11 => ⟨S128, .f32⟩
  | 12 => ⟨S2x128x128, .f32⟩
  | 13 => ⟨S2x128, .f32⟩
  | 14 => ⟨S2x128x128, .f32⟩
  | 15 => ⟨S2x128x128, .f32⟩
  | 16 => ⟨S2x128, .f32⟩
  | 17 => ⟨S2x128x128, .f32⟩
  | 18 => ⟨S2x128x128, .f32⟩
  | 19 => ⟨S2x128, .f32⟩
  | 20 => ⟨S2x128x128, .f32⟩
  | 21 => ⟨S128x16, .f32⟩
  | 22 => ⟨S16, .f32⟩
  | 23 => ⟨S200000x128, .f32⟩
  | 24 => ⟨S1x128, .f32⟩
  | 25 => ⟨S200000x128, .f32⟩
  | 26 => ⟨S200000x128, .f32⟩
  | 27 => ⟨S100000x128, .f32⟩
  | 28 => ⟨S1x128, .f32⟩
  | 29 => ⟨S100000x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S_, .f32⟩
  | 47 => ⟨S100000x128, .f32⟩
  | 48 => ⟨S1000000x1, .i32⟩
  | 49 => ⟨S100000x128, .f32⟩
  | 50 => ⟨S_, .f32⟩
  | 51 => ⟨S1000000, .f32⟩
  | 52 => ⟨S_, .f32⟩
  | 53 => ⟨S100000, .f32⟩
  | 54 => ⟨S1000000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x128, .f32⟩
  | 83 => ⟨S_, .f32⟩
  | 84 => ⟨S200000x128, .f32⟩
  | 85 => ⟨S1000000x1, .i32⟩
  | 86 => ⟨S200000x128, .f32⟩
  | 87 => ⟨S_, .f32⟩
  | 88 => ⟨S1000000, .f32⟩
  | 89 => ⟨S_, .f32⟩
  | 90 => ⟨S200000, .f32⟩
  | 91 => ⟨S1000000x1, .i32⟩
  | 92 => ⟨S200000, .f32⟩
  | 93 => ⟨S_, .f32⟩
  | 94 => ⟨S200000, .f32⟩
  | 95 => ⟨S200000, .f32⟩
  | 96 => ⟨S200000x1, .f32⟩
  | 97 => ⟨S200000x128, .f32⟩
  | 98 => ⟨S200000x128, .f32⟩
  | 99 => ⟨S200000x128, .f32⟩
  | 100 => ⟨S1x128, .f32⟩
  | 101 => ⟨S200000x128, .f32⟩
  | 102 => ⟨S200000x128, .f32⟩
  | 103 => ⟨S200000x128, .f32⟩
  | 104 => ⟨S200000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x128, .f32⟩
  | 120 => ⟨S_, .f32⟩
  | 121 => ⟨S200000x128, .f32⟩
  | 122 => ⟨S1000000x1, .i32⟩
  | 123 => ⟨S200000x128, .f32⟩
  | 124 => ⟨S_, .f32⟩
  | 125 => ⟨S1000000, .f32⟩
  | 126 => ⟨S_, .f32⟩
  | 127 => ⟨S200000, .f32⟩
  | _ => ⟨S200000x64, .f32⟩

abbrev hbmTy0_1 (i : Nat) : BufTy := match i % 128 with
  | 0 => ⟨S1000000x1, .i32⟩
  | 1 => ⟨S200000, .f32⟩
  | 2 => ⟨S_, .f32⟩
  | 3 => ⟨S200000, .f32⟩
  | 4 => ⟨S200000, .f32⟩
  | 5 => ⟨S200000x1, .f32⟩
  | 6 => ⟨S200000x128, .f32⟩
  | 7 => ⟨S200000x128, .f32⟩
  | 8 => ⟨S200000x128, .f32⟩
  | 9 => ⟨S1x128, .f32⟩
  | 10 => ⟨S200000x128, .f32⟩
  | 11 => ⟨S200000x128, .f32⟩
  | 12 => ⟨S200000x128, .f32⟩
  | 13 => ⟨S200000x128, .f32⟩
  | 14 => ⟨S200000x128, .f32⟩
  | 15 => ⟨S_, .f32⟩
  | 16 => ⟨S200000x128, .f32⟩
  | 17 => ⟨S200000x128, .i1⟩
  | 18 => ⟨S_, .f32⟩
  | 19 => ⟨S200000x128, .f32⟩
  | 20 => ⟨S200000x128, .f32⟩
  | 21 => ⟨S200000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x128, .f32⟩
  | 44 => ⟨S_, .f32⟩
  | 45 => ⟨S100000x128, .f32⟩
  | 46 => ⟨S1000000x1, .i32⟩
  | 47 => ⟨S100000x128, .f32⟩
  | 48 => ⟨S_, .f32⟩
  | 49 => ⟨S1000000, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S1x128x128, .f32⟩
  | 71 => ⟨S128x128, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x128, .f32⟩
  | 81 => ⟨S_, .f32⟩
  | 82 => ⟨S200000x128, .f32⟩
  | 83 => ⟨S1000000x1, .i32⟩
  | 84 => ⟨S200000x128, .f32⟩
  | 85 => ⟨S_, .f32⟩
  | 86 => ⟨S1000000, .f32⟩
  | 87 => ⟨S_, .f32⟩
  | 88 => ⟨S200000, .f32⟩
  | 89 => ⟨S1000000x1, .i32⟩
  | 90 => ⟨S200000, .f32⟩
  | 91 => ⟨S_, .f32⟩
  | 92 => ⟨S200000, .f32⟩
  | 93 => ⟨S200000, .f32⟩
  | 94 => ⟨S200000x1, .f32⟩
  | 95 => ⟨S200000x128, .f32⟩
  | 96 => ⟨S200000x128, .f32⟩
  | 97 => ⟨S200000x128, .f32⟩
  | 98 => ⟨S1x128, .f32⟩
  | 99 => ⟨S200000x128, .f32⟩
  | 100 => ⟨S200000x128, .f32⟩
  | 101 => ⟨S200000x128, .f32⟩
  | 102 => ⟨S200000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x128, .f32⟩
  | 118 => ⟨S_, .f32⟩
  | 119 => ⟨S200000x128, .f32⟩
  | 120 => ⟨S1000000x1, .i32⟩
  | 121 => ⟨S200000x128, .f32⟩
  | 122 => ⟨S_, .f32⟩
  | 123 => ⟨S1000000, .f32⟩
  | 124 => ⟨S_, .f32⟩
  | 125 => ⟨S200000, .f32⟩
  | 126 => ⟨S1000000x1, .i32⟩
  | 127 => ⟨S200000, .f32⟩
  | _ => ⟨S200000x64, .f32⟩

abbrev hbmTy0_2 (i : Nat) : BufTy := match i % 128 with
  | 0 => ⟨S_, .f32⟩
  | 1 => ⟨S200000, .f32⟩
  | 2 => ⟨S200000, .f32⟩
  | 3 => ⟨S200000x1, .f32⟩
  | 4 => ⟨S200000x128, .f32⟩
  | 5 => ⟨S200000x128, .f32⟩
  | 6 => ⟨S200000x128, .f32⟩
  | 7 => ⟨S1x128, .f32⟩
  | 8 => ⟨S200000x128, .f32⟩
  | 9 => ⟨S200000x128, .f32⟩
  | 10 => ⟨S200000x128, .f32⟩
  | 11 => ⟨S200000x128, .f32⟩
  | 12 => ⟨S200000x128, .f32⟩
  | 13 => ⟨S200000x16, .f32⟩
  | 14 => ⟨S1x16, .f32⟩
  | 15 => ⟨S200000x16, .f32⟩
  | 16 => ⟨S200000x16, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_c_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_6 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_10 : Ref sig .tc := ⟨.hbm, 111, rfl⟩
abbrev main_v76 : Ref sig .tc := ⟨.hbm, 112, rfl⟩
abbrev main_v77 : Ref sig .tc := ⟨.hbm, 113, rfl⟩
abbrev main_c_11 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_12 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_13 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_15 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_16 : Ref sig .tc := ⟨.hbm, 143, rfl⟩
abbrev main_v102 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_18 : Ref sig .tc := ⟨.hbm, 150, rfl⟩
abbrev main_v107 : Ref sig .tc := ⟨.hbm, 151, rfl⟩
abbrev main_v108 : Ref sig .tc := ⟨.hbm, 152, rfl⟩
abbrev main_cst_19 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_20 : Ref sig .tc := ⟨.hbm, 163, rfl⟩
abbrev main_v118 : Ref sig .tc := ⟨.hbm, 164, rfl⟩
abbrev main_v119 : Ref sig .tc := ⟨.hbm, 165, rfl⟩
abbrev main_c_21 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_23 : Ref sig .tc := ⟨.hbm, 176, rfl⟩
abbrev main_v128 : Ref sig .tc := ⟨.hbm, 177, rfl⟩
abbrev main_cst_24 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_26 : Ref sig .tc := ⟨.hbm, 200, rfl⟩
abbrev main_v149 : Ref sig .tc := ⟨.hbm, 201, rfl⟩
abbrev main_v150 : Ref sig .tc := ⟨.hbm, 202, rfl⟩
abbrev main_c_27 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_28 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_29 : Ref sig .tc := ⟨.hbm, 213, rfl⟩
abbrev main_v159 : Ref sig .tc := ⟨.hbm, 214, rfl⟩
abbrev main_cst_30 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_31 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_c_32 : Ref sig .tc := ⟨.hbm, 237, rfl⟩
abbrev main_v180 : Ref sig .tc := ⟨.hbm, 238, rfl⟩
abbrev main_v181 : Ref sig .tc := ⟨.hbm, 239, rfl⟩
abbrev main_c_33 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_cst_34 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_35 : Ref sig .tc := ⟨.hbm, 250, rfl⟩
abbrev main_v190 : Ref sig .tc := ⟨.hbm, 251, rfl⟩
abbrev main_cst_36 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_37 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1x128_S100000x128_0_1 : S1x128.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S2x128x128_S1x128x128_1_0_0 : S2x128x128.Slices ![1, 0, 0] S1x128x128
  slices_S2x128_S1x128_1_0 : S2x128.Slices ![1, 0] S1x128
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  dot_S200000x64_S64x128_S200000x128_1_0_0_1_n_n_wf : DotDims.WF S200000x64 S64x128 S200000x128 [1] [0] [0] [1] [] []
  dot_S100000x128_S128x128_S100000x128_1_0_0_1_n_n_wf : DotDims.WF S100000x128 S128x128 S100000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x128_S200000x128_1_0_0_1_n_n_wf : DotDims.WF S200000x128 S128x128 S200000x128 [1] [0] [0] [1] [] []
  dot_S200000x128_S128x16_S200000x16_1_0_0_1_n_n_wf : DotDims.WF S200000x128 S128x16 S200000x16 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf

class Facts : Prop extends Facts₀ where

variable [Facts]
-- ==== Proof.KernelRun.lean ====
/-
  The idealized kernel program's run with its buffers named. @main is five pallas_call regions among stretches of
  host operations; the contents of a core's buffers at the ten segment boundaries are a fold from the launch memory
  (a host stretch rewrites the buffers its operations write; a region leaves its output array at what its write-backs
  leave and every other buffer as entered). Every weakly fair execution terminates without a fault, and every unscoped
  buffer of every core ends at the last boundary's contents.
-/
import proofs.«178608_j31610959298705_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the ten segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.RunValue

end
-- ==== Proof.KerHost.lean ====
/-
  The host operations of the kernel program between its regions, as functions: an edge list's source indices made
  non-negative (an index below zero counts from the end) and laid as a one-column index array; the neighbour
  aggregation (gather the rows the source list names, add them into the rows the destination list names, from
  zero); the in-degree count (ones added into the destination rows), clamped below by one; its reciprocal as a
  one-column array; matrix l of a stack of two weight matrices, and row l of a two-row bias array as a one-row array.
-/
import proofs.«178608_j31610959298705_2_alg».proof.Proof.Gen.KernelIdeal
import Idealize.ShloMosaic.PureOps.Ideal.Laws

noncomputable section

namespace Cert.KernelIdeal.KerHost

open Cert.KernelIdeal Cert.KernelIdeal.Gen Idealize.ShloMosaic

abbrev EIdx : Type := (⟨S1000000, .i32⟩ : BufTy).Contents (Elt Ideal)
abbrev ECol : Type := (⟨S1000000x1, .i32⟩ : BufTy).Contents (Elt Ideal)
abbrev UArr : Type := (⟨S200000x128, .bf16⟩ : BufTy).Contents (Elt Ideal)
abbrev IArr : Type := (⟨S100000x128, .bf16⟩ : BufTy).Contents (Elt Ideal)
abbrev UAgg : Type := (⟨S200000x128, .f32⟩ : BufTy).Contents (Elt Ideal)
abbrev IAgg : Type := (⟨S100000x128, .f32⟩ : BufTy).Contents (Elt Ideal)

/-- The program's twenty-three input arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- Source indices into the 200000 user rows, made non-negative, as a column. -/
def normU (x : EIdx) : ECol :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 200000#32))) x)

/-- Source indices into the 100000 item rows, made non-negative, as a column. -/
def normI (x : EIdx) : ECol :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- Destination indices as a column. -/
def dstCol (x : EIdx) : ECol := broadcastInDim S1000000x1 ![0] bcast_S1000000_S1000000x1_0 x

/-- User rows named by src, added into the item rows named by dst. -/
def aggI (src dst : EIdx) (hu : UArr) : IAgg :=
  Host.scatterAdd (F := Ideal) scatter_S100000x128_S1000000x1_S1000000x128_1_0_0_1
    (broadcastInDim S100000x128 ![] bcast_S_S100000x128 (constant (F := Ideal) S_ .f32 0x00000000#32)) (dstCol dst)
    (extf (F := Ideal) .f32 (Host.gather gather_S200000x128_S1000000x1_S1000000x128_1_0_n_n_0_1_1128 hu (normU src)) bitsLt_bf16_f32)

/-- Item rows named by src, added into the user rows named by dst. -/
def aggR (src dst : EIdx) (hi : IArr) : UAgg :=
  Host.scatterAdd (F := Ideal) scatter_S200000x128_S1000000x1_S1000000x128_1_0_0_1
    (broadcastInDim S200000x128 ![] bcast_S_S200000x128 (constant (F := Ideal) S_ .f32 0x00000000#32)) (dstCol dst)
    (extf (F := Ideal) .f32 (Host.gather gather_S100000x128_S1000000x1_S1000000x128_1_0_n_n_0_1_1128 hi (normI src)) bitsLt_bf16_f32)

/-- User rows named by src, added into the user rows named by dst. -/
def aggF (src dst : EIdx) (hu : UArr) : UAgg :=
  Host.scatterAdd (F := Ideal) scatter_S200000x128_S1000000x1_S1000000x128_1_0_0_1
    (broadcastInDim S200000x128 ![] bcast_S_S200000x128 (constant (F := Ideal) S_ .f32 0x00000000#32)) (dstCol dst)
    (extf (F := Ideal) .f32 (Host.gather gather_S200000x128_S1000000x1_S1000000x128_1_0_n_n_0_1_1128 hu (normU src)) bitsLt_bf16_f32)

/-- In-degree of the 100000 item rows, clamped below by one. -/
def cmaxI (dst : EIdx) : (⟨S100000, .f32⟩ : BufTy).Contents (Elt Ideal) :=
  maximumf (F := Ideal)
    (Host.scatterAdd (F := Ideal) scatter_S100000_S1000000x1_S1000000_n_0_0_1
      (broadcastInDim S100000 ![] bcast_S_S100000 (constant (F := Ideal) S_ .f32 0x00000000#32)) (dstCol dst)
      (broadcastInDim S1000000 ![] bcast_S_S1000000 (constant (F := Ideal) S_ .f32 0x3F800000#32)))
    (broadcastInDim S100000 ![] bcast_S_S100000 (constant (F := Ideal) S_ .f32 0x3F800000#32))

/-- In-degree of the 200000 user rows, clamped below by one. -/
def cmaxU (dst : EIdx) : (⟨S200000, .f32⟩ : BufTy).Contents (Elt Ideal) :=
  maximumf (F := Ideal)
    (Host.scatterAdd (F := Ideal) scatter_S200000_S1000000x1_S1000000_n_0_0_1
      (broadcastInDim S200000 ![] bcast_S_S200000 (constant (F := Ideal) S_ .f32 0x00000000#32)) (dstCol dst)
      (broadcastInDim S1000000 ![] bcast_S_S1000000 (constant (F := Ideal) S_ .f32 0x3F800000#32)))
    (broadcastInDim S200000 ![] bcast_S_S200000 (constant (F := Ideal) S_ .f32 0x3F800000#32))

/-- The reciprocal in-degree of the item rows, as a column. -/
def invI (dst : EIdx) : (⟨S100000x1, .f32⟩ : BufTy).Contents (Elt Ideal) :=
  shapeCast S100000x1
    (Host.divf (F := Ideal) (broadcastInDim S100000 ![] bcast_S_S100000 (constant (F := Ideal) S_ .f32 0x3F800000#32)) (cmaxI dst))
    shapeCasts_S100000_S100000x1

/-- The reciprocal in-degree of the user rows, as a column. -/
def invU (dst : EIdx) : (⟨S200000x1, .f32⟩ : BufTy).Contents (Elt Ideal) :=
  shapeCast S200000x1
    (Host.divf (F := Ideal) (broadcastInDim S200000 ![] bcast_S_S200000 (constant (F := Ideal) S_ .f32 0x3F800000#32)) (cmaxU dst))
    shapeCasts_S200000_S200000x1

/-- Matrix 0 of a stack of two. -/
def wslab0 (x : (⟨S2x128x128, .f32⟩ : BufTy).Contents (Elt Ideal)) : (⟨S128x128, .f32⟩ : BufTy).Contents (Elt Ideal) :=
  shapeCast S128x128 (extractStridedSlice S1x128x128 ![0, 0, 0] x slices_S2x128x128_S1x128x128_0_0_0) shapeCasts_S1x128x128_S128x128
/-- Matrix 1 of a stack of two. -/
def wslab1 (x : (⟨S2x128x128, .f32⟩ : BufTy).Contents (Elt Ideal)) : (⟨S128x128, .f32⟩ : BufTy).Contents (Elt Ideal) :=
  shapeCast S128x128 (extractStridedSlice S1x128x128 ![1, 0, 0] x slices_S2x128x128_S1x128x128_1_0_0) shapeCasts_S1x128x128_S128x128
/-- Row 0 of a two-row array, as a one-row array. -/
def brow0 (x : (⟨S2x128, .f32⟩ : BufTy).Contents (Elt Ideal)) : (⟨S1x128, .f32⟩ : BufTy).Contents (Elt Ideal) :=
  shapeCast S1x128 (shapeCast S128 (extractStridedSlice S1x128 ![0, 0] x slices_S2x128_S1x128_0_0) shapeCasts_S1x128_S128) shapeCasts_S128_S1x128
/-- Row 1 of a two-row array, as a one-row array. -/
def brow1 (x : (⟨S2x128, .f32⟩ : BufTy).Contents (Elt Ideal)) : (⟨S1x128, .f32⟩ : BufTy).Contents (Elt Ideal) :=
  shapeCast S1x128 (shapeCast S128 (extractStridedSlice S1x128 ![1, 0] x slices_S2x128_S1x128_1_0) shapeCasts_S1x128_S128) shapeCasts_S128_S1x128

end Cert.KernelIdeal.KerHost

end
-- ==== Proof.HostVals01.lean ====
/-
  What the buffers hold after a stretch of host operations of the kernel program, from any contents W before it:
  a buffer the stretch computes holds its operations' function of the contents read; a buffer no operation of the
  stretch writes keeps its contents.
-/
import proofs.«178608_j31610959298705_2_alg».proof.Proof.Gen.KernelIdeal.Launch
import proofs.«178608_j31610959298705_2_alg».proof.Proof.KerHost
import Idealize.ShloMosaic.Lib.StableHlo.Run

noncomputable section

namespace Cert.KernelIdeal.HostVals

open Cert.KernelIdeal Cert.KernelIdeal.Gen Cert.KernelIdeal.KerHost Idealize.ShloMosaic Idealize.ShloMosaic.StableHlo

variable (W : Valuation τ sig (Elt Ideal))

set_option quotPrecheck false in
local notation "⟪" b "⟫" => W (Proc.devRef .tc b)

theorem ops0_v0 : after (hostOps0 (F := Ideal)) W (Proc.devRef .tc main_v0) = shapeCast S1x128 ⟪main_arg9⟫ shapeCasts_S128_S1x128 := by
  dsimp only [hostOps0]; after_results; rfl
theorem ops1_v2 : after (hostOps1 (F := Ideal)) W (Proc.devRef .tc main_v2) = shapeCast S1x128 ⟪main_arg11⟫ shapeCasts_S128_S1x128 := by
  dsimp only [hostOps1]; after_results; rfl
/-- The stretch writes no input array. -/
theorem keep0 : ∀ b ∈ argRefs, after (hostOps0 (F := Ideal)) W (Proc.devRef .tc b) = W (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals (dsimp only [hostOps0]; after_results)
/-- The stretch writes no input array. -/
theorem keep1 : ∀ b ∈ argRefs, after (hostOps1 (F := Ideal)) W (Proc.devRef .tc b) = W (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals (dsimp only [hostOps1]; after_results)
/-- The stretch writes none of these buffers either. -/
theorem keep1_ext : ∀ b ∈ ([main_v1] : List (Ref sig .tc)),
    after (hostOps1 (F := Ideal)) W (Proc.devRef .tc b) = W (Proc.devRef .tc b) := by
  intro b hb
  simp only [List.mem_cons, List.mem_nil_iff, or_false] at hb
  rcases hb with rfl
  all_goals (dsimp only [hostOps1]; after_results)

end Cert.KernelIdeal.HostVals

end
-- ==== Proof.HostVals2.lean ====
/-
  What the buffers hold after a stretch of host operations of the kernel program, from any contents W before it:
  a buffer the stretch computes holds its operations' function of the contents read; a buffer no operation of the
  stretch writes keeps its contents.
-/
import proofs.«178608_j31610959298705_2_alg».proof.Proof.Gen.KernelIdeal.Launch
import proofs.«178608_j31610959298705_2_alg».proof.Proof.KerHost
import Idealize.ShloMosaic.Lib.StableHlo.Run

noncomputable section

namespace Cert.KernelIdeal.HostVals

open Cert.KernelIdeal Cert.KernelIdeal.Gen Cert.KernelIdeal.KerHost Idealize.ShloMosaic Idealize.ShloMosaic.StableHlo

variable (W : Valuation τ sig (Elt Ideal))

set_option quotPrecheck false in
local notation "⟪" b "⟫" => W (Proc.devRef .tc b)

set_option maxHeartbeats 4000000 in
theorem ops2_v41 : after (hostOps2 (F := Ideal)) W (Proc.devRef .tc main_v41) = aggI ⟪main_arg2⟫ ⟪main_arg3⟫ ⟪main_v1⟫ := by
  dsimp only [hostOps2]; after_results_simp; rfl
set_option maxHeartbeats 4000000 in
theorem ops2_v12 : after (hostOps2 (F := Ideal)) W (Proc.devRef .tc main_v12) = invI ⟪main_arg3⟫ := by
  dsimp only [hostOps2]; after_results_simp; rfl
set_option maxHeartbeats 4000000 in
theorem ops2_v21 : after (hostOps2 (F := Ideal)) W (Proc.devRef .tc main_v21) = invU ⟪main_arg5⟫ := by
  dsimp only [hostOps2]; after_results_simp; rfl
set_option maxHeartbeats 4000000 in
theorem ops2_v30 : after (hostOps2 (F := Ideal)) W (Proc.devRef .tc main_v30) = invU ⟪main_arg7⟫ := by
  dsimp only [hostOps2]; after_results_simp; rfl
set_option maxHeartbeats 4000000 in
theorem ops2_v43 : after (hostOps2 (F := Ideal)) W (Proc.devRef .tc main_v43) = wslab0 ⟪main_arg12⟫ := by
  dsimp only [hostOps2]; after_results_simp; rfl
set_option maxHeartbeats 4000000 in
theorem ops2_v48 : after (hostOps2 (F := Ideal)) W (Proc.devRef .tc main_v48) = brow0 ⟪main_arg13⟫ := by
  dsimp only [hostOps2]; after_results_simp; rfl
set_option maxHeartbeats 4000000 in
theorem ops2_v47 : after (hostOps2 (F := Ideal)) W (Proc.devRef .tc main_v47) = wslab0 ⟪main_arg14⟫ := by
  dsimp only [hostOps2]; after_results_simp; rfl
set_option maxHeartbeats 4000000 in
/-- The stretch writes no input array. -/
theorem keep2 : ∀ b ∈ argRefs, after (hostOps2 (F := Ideal)) W (Proc.devRef .tc b) = W (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
/-- The stretch writes none of these buffers either. -/
theorem keep2_ext : ∀ b ∈ ([main_v1, main_v3] : List (Ref sig .tc)),
    after (hostOps2 (F := Ideal)) W (Proc.devRef .tc b) = W (Proc.devRef .tc b) := by
  intro b hb
  simp only [List.mem_cons, List.mem_nil_iff, or_false] at hb
  rcases hb with rfl | rfl
  all_goals exact StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostVals

end
-- ==== Proof.HostVals3.lean ====
/-
  What the buffers hold after a stretch of host operations of the kernel program, from any contents W before it:
  a buffer the stretch computes holds its operations' function of the contents read; a buffer no operation of the
  stretch writes keeps its contents.
-/
import proofs.«178608_j31610959298705_2_alg».proof.Proof.Gen.KernelIdeal.Launch
import proofs.«178608_j31610959298705_2_alg».proof.Proof.KerHost
import Idealize.ShloMosaic.Lib.StableHlo.Run

noncomputable section

namespace Cert.KernelIdeal.HostVals

open Cert.KernelIdeal Cert.KernelIdeal.Gen Cert.KernelIdeal.KerHost Idealize.ShloMosaic Idealize.ShloMosaic.StableHlo

variable (W : Valuation τ sig (Elt Ideal))

set_option quotPrecheck false in
local notation "⟪" b "⟫" => W (Proc.devRef .tc b)

set_option maxHeartbeats 4000000 in
theorem ops3_v60 : after (hostOps3 (F := Ideal)) W (Proc.devRef .tc main_v60) = aggR ⟪main_arg4⟫ ⟪main_arg5⟫ ⟪main_v3⟫ := by
  dsimp only [hostOps3]; after_results_simp; rfl
set_option maxHeartbeats 4000000 in
theorem ops3_v71 : after (hostOps3 (F := Ideal)) W (Proc.devRef .tc main_v71) = aggF ⟪main_arg6⟫ ⟪main_arg7⟫ ⟪main_v1⟫ := by
  dsimp only [hostOps3]; after_results_simp; rfl
set_option maxHeartbeats 4000000 in
theorem ops3_v73 : after (hostOps3 (F := Ideal)) W (Proc.devRef .tc main_v73) = wslab0 ⟪main_arg15⟫ := by
  dsimp only [hostOps3]; after_results_simp; rfl
set_option maxHeartbeats 4000000 in
theorem ops3_v84 : after (hostOps3 (F := Ideal)) W (Proc.devRef .tc main_v84) = brow0 ⟪main_arg16⟫ := by
  dsimp only [hostOps3]; after_results_simp; rfl
set_option maxHeartbeats 4000000 in
theorem ops3_v77 : after (hostOps3 (F := Ideal)) W (Proc.devRef .tc main_v77) = wslab0 ⟪main_arg17⟫ := by
  dsimp only [hostOps3]; after_results_simp; rfl
set_option maxHeartbeats 4000000 in
theorem ops3_v79 : after (hostOps3 (F := Ideal)) W (Proc.devRef .tc main_v79) = wslab0 ⟪main_arg18⟫ := by
  dsimp only [hostOps3]; after_results_simp; rfl
set_option maxHeartbeats 4000000 in
theorem ops3_v85 : after (hostOps3 (F := Ideal)) W (Proc.devRef .tc main_v85) = brow0 ⟪main_arg19⟫ := by
  dsimp only [hostOps3]; after_results_simp; rfl
set_option maxHeartbeats 4000000 in
theorem ops3_v83 : after (hostOps3 (F := Ideal)) W (Proc.devRef .tc main_v83) = wslab0 ⟪main_arg20⟫ := by
  dsimp only [hostOps3]; after_results_simp; rfl
set_option maxHeartbeats 4000000 in
/-- The stretch writes no input array. -/
theorem keep3 : ∀ b ∈ argRefs, after (hostOps3 (F := Ideal)) W (Proc.devRef .tc b) = W (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
/-- The stretch writes none of these buffers either. -/
theorem keep3_ext : ∀ b ∈ ([main_v1, main_v21, main_v30, main_v49] : List (Ref sig .tc)),
    after (hostOps3 (F := Ideal)) W (Proc.devRef .tc b) = W (Proc.devRef .tc b) := by
  intro b hb
  simp only [List.mem_cons, List.mem_nil_iff, or_false] at hb
  rcases hb with rfl | rfl | rfl | rfl
  all_goals exact StableHlo.after_of_forall_not_mem _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostVals

end
-- ==== Proof.HostVals4.lean ====
/-
  What the buffers hold after a stretch of host operations of the kernel program, from any contents W before it:
  a buffer the stretch computes holds its operations' function of the contents read; a buffer no operation of the
  stretch writes keeps its contents.
-/
import proofs.«178608_j31610959298705_2_alg».proof.Proof.Gen.KernelIdeal.Launch
import proofs.«178608_j31610959298705_2_alg».proof.Proof.KerHost
import Idealize.ShloMosaic.Lib.StableHlo.Run

noncomputable section

namespace Cert.KernelIdeal.HostVals

open Cert.KernelIdeal Cert.KernelIdeal.Gen Cert.KernelIdeal.KerHost Idealize.ShloMosaic Idealize.ShloMosaic.StableHlo

variable (W : Valuation τ sig (Elt Ideal))

set_option quotPrecheck false in
local notation "⟪" b "⟫" => W (Proc.devRef .tc b)

set_option maxHeartbeats 4000000 in
theorem ops4_v97 : after (hostOps4 (F := Ideal)) W (Proc.devRef .tc main_v97) = aggR ⟪main_arg4⟫ ⟪main_arg5⟫ ⟪main_v49⟫ := by
  dsimp only [hostOps4]; after_results_simp; rfl
set_option maxHeartbeats 4000000 in
theorem ops4_v108 : after (hostOps4 (F := Ideal)) W (Proc.devRef .tc main_v108) = aggF ⟪main_arg6⟫ ⟪main_arg7⟫ ⟪main_v86⟫ := by
  dsimp only [hostOps4]; after_results_simp; rfl
set_option maxHeartbeats 4000000 in
theorem ops4_v110 : after (hostOps4 (F := Ideal)) W (Proc.devRef .tc main_v110) = wslab1 ⟪main_arg15⟫ := by
  dsimp only [hostOps4]; after_results_simp; rfl
set_option maxHeartbeats 4000000 in
theorem ops4_v121 : after (hostOps4 (F := Ideal)) W (Proc.devRef .tc main_v121) = brow1 ⟪main_arg16⟫ := by
  dsimp only [hostOps4]; after_results_simp; rfl
set_option maxHeartbeats 4000000 in
theorem ops4_v114 : after (hostOps4 (F := Ideal)) W (Proc.devRef .tc main_v114) = wslab1 ⟪main_arg17⟫ := by
  dsimp only [hostOps4]; after_results_simp; rfl
set_option maxHeartbeats 4000000 in
theorem ops4_v116 : after (hostOps4 (F := Ideal)) W (Proc.devRef .tc main_v116) = wslab1 ⟪main_arg18⟫ := by
  dsimp only [hostOps4]; after_results_simp; rfl
set_option maxHeartbeats 4000000 in
theorem ops4_v122 : after (hostOps4 (F := Ideal)) W (Proc.devRef .tc main_v122) = brow1 ⟪main_arg19⟫ := by
  dsimp only [hostOps4]; after_results_simp; rfl
set_option maxHeartbeats 4000000 in
theorem ops4_v120 : after (hostOps4 (F := Ideal)) W (Proc.devRef .tc main_v120) = wslab1 ⟪main_arg20⟫ := by
  dsimp only [hostOps4]; after_results_simp; rfl
set_option maxHeartbeats 4000000 in
theorem ops4_v123 : after (hostOps4 (F := Ideal)) W (Proc.devRef .tc main_v123) = shapeCast S1x16 ⟪main_arg22⟫ shapeCasts_S16_S1x16 := by
  dsimp only [hostOps4]; after_results_simp; rfl
set_option maxHeartbeats 4000000 in
/-- The stretch writes no input array. -/
theorem keep4 : ∀ b ∈ argRefs, after (hostOps4 (F := Ideal)) W (Proc.devRef .tc b) = W (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
/-- The stretch writes none of these buffers either. -/
theorem keep4_ext : ∀ b ∈ ([main_v21, main_v30, main_v86] : List (Ref sig .tc)),
    after (hostOps4 (F := Ideal)) W (Proc.devRef .tc b) = W (Proc.devRef .tc b) := by
  intro b hb
  simp only [List.mem_cons, List.mem_nil_iff, or_false] at hb
  rcases hb with rfl | rfl | rfl
  all_goals exact StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostVals

end
-- ==== Proof.Spec.lean ====
/-
  The network's dense stages as functions of whole arrays of extended reals, read index by index.

  An a×b array is a function on the two-axis index set. A linear stage takes row p of its left operand against
  column q of a weight matrix: lin x w p q = Σₖ x(p,k)·w(k,q). The input projection adds a bias row
  (dense). One SAGE convolution scales the summed neighbour features of row p by that row's reciprocal degree
  (scaled: agg(p,k)·inv(p,0)), applies the neighbour weights, adds the bias row, and adds the root weights applied
  to the destination node's own features (sageAt). A two-relation layer is the sum of two such convolutions on
  the same destination features (sage2At); the hidden layers apply the leaky rectifier x ↦ x if x ≥ 0 else
  0.01·x, with 0.01 the single-precision literal, elementwise; the last layer feeds the output projection.
  Dividing by c = max(count, 1) is multiplying by 1/c, for every extended real, because c ≥ 1 is not zero.
-/
import Idealize.ShloMosaic.Lib.ValueIdx
import Idealize.ShloMosaic.PureOps.Ideal.Laws

noncomputable section

namespace Cert.Spec

open Idealize.ShloMosaic Idealize.ShloMosaic.ValueIdx

/-- An a×b array of extended reals. -/
abbrev Arr (a b : ℕ) : Type := (⟨2, ![a, b]⟩ : Shape).Idx → EReal
/-- A length-a vector of extended reals. -/
abbrev Vec1 (a : ℕ) : Type := (⟨1, ![a]⟩ : Shape).Idx → EReal
/-- A stack of l matrices a×b. -/
abbrev Arr3 (l a b : ℕ) : Type := (⟨3, ![l, a, b]⟩ : Shape).Idx → EReal

variable {N K M H O L : ℕ}

/-- The row of a two-axis index, below the literal extent. -/
abbrev row (i : (⟨2, ![N, M]⟩ : Shape).Idx) : Fin N := ⟨(i 0).val, idx2_lt0 i⟩
/-- The column of a two-axis index, below the literal extent. -/
abbrev col (i : (⟨2, ![N, M]⟩ : Shape).Idx) : Fin M := ⟨(i 1).val, idx2_lt1 i⟩

theorem row_ix2 (p : Fin N) (q : Fin M) : row (ix2 p q) = p := rfl
theorem col_ix2 (p : Fin N) (q : Fin M) : col (ix2 p q) = q := rfl

/-- Row p of x against column q of w. -/
def lin (x : Arr N K) (w : Arr K M) (p : Fin N) (q : Fin M) : EReal := ∑ k : Fin K, x (ix2 p k) * w (ix2 k q)

/-- x·w plus the bias row b, at every index. -/
def dense (x : Arr N K) (w : Arr K M) (b : Arr 1 M) : Arr N M :=
  fun i => lin x w (row i) (col i) + b (ix2 (0 : Fin 1) (col i))

theorem dense_ix2 (x : Arr N K) (w : Arr K M) (b : Arr 1 M) (p : Fin N) (q : Fin M) :
    dense x w b (ix2 p q) = lin x w p q + b (ix2 (0 : Fin 1) q) := rfl

/-- Each row of agg scaled by that row's entry of the one-column array inv. -/
def scaled (agg : Arr N H) (inv : Arr N 1) : Arr N H := fun i => agg i * inv (ix2 (row i) (0 : Fin 1))

theorem scaled_ix2 (agg : Arr N H) (inv : Arr N 1) (p : Fin N) (k : Fin H) :
    scaled agg inv (ix2 p k) = agg (ix2 p k) * inv (ix2 p (0 : Fin 1)) := rfl

/-- One SAGE convolution at (p, q): (scaled aggregate)·wl + bias row + (destination features)·wr. -/
def sageAt (agg : Arr N H) (inv : Arr N 1) (xd : Arr N H) (wl : Arr H M) (bl : Arr 1 M) (wr : Arr H M)
    (p : Fin N) (q : Fin M) : EReal :=
  (lin (scaled agg inv) wl p q + bl (ix2 (0 : Fin 1) q)) + lin xd wr p q

/-- The leaky rectifier with the single-precision slope literal. -/
def leaky (x : EReal) : EReal :=
  Scalar.select (FloatOps.cmpf (F := Ideal) .oge x (Ideal.ofBits .f32 0x00000000#32)) x (Ideal.ofBits .f32 0x3C23D70A#32 * x)

/-- A one-relation layer with the rectifier. -/
def sage1Act (agg : Arr N H) (inv : Arr N 1) (xd : Arr N H) (wl : Arr H M) (bl : Arr 1 M) (wr : Arr H M) : Arr N M :=
  fun i => leaky (sageAt agg inv xd wl bl wr (row i) (col i))

/-- Two relations into the same destination nodes, summed, at (p, q). -/
def sage2At (a1 : Arr N H) (i1 : Arr N 1) (a2 : Arr N H) (i2 : Arr N 1) (xd : Arr N H)
    (wl1 : Arr H M) (bl1 : Arr 1 M) (wr1 : Arr H M) (wl2 : Arr H M) (bl2 : Arr 1 M) (wr2 : Arr H M)
    (p : Fin N) (q : Fin M) : EReal :=
  sageAt a1 i1 xd wl1 bl1 wr1 p q + sageAt a2 i2 xd wl2 bl2 wr2 p q

/-- A two-relation layer with the rectifier. -/
def sage2Act (a1 : Arr N H) (i1 : Arr N 1) (a2 : Arr N H) (i2 : Arr N 1) (xd : Arr N H)
    (wl1 : Arr H M) (bl1 : Arr 1 M) (wr1 : Arr H M) (wl2 : Arr H M) (bl2 : Arr 1 M) (wr2 : Arr H M) : Arr N M :=
  fun i => leaky (sage2At a1 i1 a2 i2 xd wl1 bl1 wr1 wl2 bl2 wr2 (row i) (col i))

/-- A two-relation layer without the rectifier. -/
def sage2Lin (a1 : Arr N H) (i1 : Arr N 1) (a2 : Arr N H) (i2 : Arr N 1) (xd : Arr N H)
    (wl1 : Arr H M) (bl1 : Arr 1 M) (wr1 : Arr H M) (wl2 : Arr H M) (bl2 : Arr 1 M) (wr2 : Arr H M) : Arr N M :=
  fun i => sage2At a1 i1 a2 i2 xd wl1 bl1 wr1 wl2 bl2 wr2 (row i) (col i)

/-- The last layer and the output projection. -/
def sage2Head (a1 : Arr N H) (i1 : Arr N 1) (a2 : Arr N H) (i2 : Arr N 1) (xd : Arr N H)
    (wl1 : Arr H M) (bl1 : Arr 1 M) (wr1 : Arr H M) (wl2 : Arr H M) (bl2 : Arr 1 M) (wr2 : Arr H M)
    (wo : Arr M O) (bo : Arr 1 O) : Arr N O :=
  dense (sage2Lin a1 i1 a2 i2 xd wl1 bl1 wr1 wl2 bl2 wr2) wo bo

/-- Matrix l of a stack. -/
def slab (l : Fin L) (x : Arr3 L H M) : Arr H M := fun i => x (ix3 l (row i) (col i))
/-- Row l of a matrix, as a one-row array. -/
def rowL (l : Fin L) (x : Arr L M) : Arr 1 M := fun i => x (ix2 l (col i))

theorem slab_ix2 (l : Fin L) (x : Arr3 L H M) (p : Fin H) (q : Fin M) : slab l x (ix2 p q) = x (ix3 l p q) := rfl
theorem rowL_ix2 (l : Fin L) (x : Arr L M) (u : Fin 1) (q : Fin M) : rowL l x (ix2 u q) = x (ix2 l q) := rfl

/-- The reciprocal column of a vector of clamped counts: 1 / c(p) at (p, 0), with 1 the single-precision literal. -/
def invCol (c : Vec1 N) : Arr N 1 := fun i => Ideal.div (Ideal.ofBits .f32 0x3F800000#32) (c (ix1 (row i)))

theorem invCol_ix2 (c : Vec1 N) (p : Fin N) (u : Fin 1) :
    invCol c (ix2 p u) = Ideal.div (Ideal.ofBits .f32 0x3F800000#32) (c (ix1 p)) := rfl

/-- For y ≥ 1 (so y ≠ 0): x·(1/y) = x/y on the extended reals. -/
theorem mul_div_one (x y : EReal) (hy : 1 ≤ y) : x * Ideal.div 1 y = Ideal.div x y := by
  have h0 : y ≠ 0 := fun h => by
    rw [h] at hy
    exact absurd hy (by norm_num)
  unfold Ideal.div
  rw [if_neg h0, if_neg h0, one_mul]

/-- The single-precision word of 1.0 is the extended real 1. -/
theorem ofBits_one : Ideal.ofBits .f32 0x3F800000#32 = 1 := by
  simp [Ideal.ofBits, Ideal.ieee]
  rw [← EReal.coe_mul]
  norm_num

/-- Scaling row p by the reciprocal of c(p) ≥ 1 is dividing row p by c(p). -/
theorem scaled_invCol (agg : Arr N H) (c : Vec1 N) (hc : ∀ j, 1 ≤ c j) (p : Fin N) (k : Fin H) :
    scaled agg (invCol c) (ix2 p k) = Ideal.div (agg (ix2 p k)) (c (ix1 p)) := by
  rw [scaled_ix2, invCol_ix2, ofBits_one, mul_div_one _ _ (hc _)]

end Cert.Spec

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.KerHostSpec.lean ====
/-
  The kernel program's host-side layout operations read index by index: the reciprocal in-degree column is the
  reciprocal of the clamped count at each row; matrix l of a stack of two, sliced out and reshaped, is that matrix;
  row l of a two-row bias array, sliced out and reshaped twice, is that row as a one-row array.
-/
import proofs.«178608_j31610959298705_2_alg».proof.Proof.KerHost
import proofs.«178608_j31610959298705_2_alg».proof.Proof.Spec
import proofs.«178608_j31610959298705_2_alg».proof.Proof.LibColBcast
import Idealize.ShloMosaic.Lib.ValueLayout
import Idealize.ShloMosaic.Lib.Pipeline.Value

noncomputable section

namespace Cert.KernelIdeal.KerHostSpec

open Cert.KernelIdeal Cert.KernelIdeal.Gen Cert.KernelIdeal.KerHost Cert.Spec Idealize.ShloMosaic Idealize.ShloMosaic.ValueIdx

/-- The quotient of a vector of ones by a vector c, laid as a column, is the reciprocal column of c (any length). -/
theorem invCol_of_reshape {N : ℕ} (one c : (⟨1, ![N]⟩ : Shape).Idx → EReal)
    (hone : ∀ j, one j = Ideal.ofBits .f32 0x3F800000#32)
    (h : (⟨1, ![N]⟩ : Shape).ShapeCasts ⟨2, ![N, 1]⟩) :
    shapeCast ⟨2, ![N, 1]⟩ (Host.divf (F := Ideal) (φ := .f32) one c) h = invCol c := by
  funext i
  obtain ⟨p, u, rfl⟩ : ∃ (p : Fin N) (u : Fin 1), i = ix2 p u := ⟨i 0, i 1, eq_ix2 i⟩
  rw [Cert.LibColBcast.shapeCast_a_a1_apply, invCol_ix2, ← hone (ix1 p)]
  rfl

theorem invI_eq (d : EIdx) : invI d = invCol (N := 100000) (cmaxI d) :=
  invCol_of_reshape _ _ (fun _ => rfl) _

theorem invU_eq (d : EIdx) : invU d = invCol (N := 200000) (cmaxU d) :=
  invCol_of_reshape _ _ (fun _ => rfl) _

theorem wslab0_eq (x : (⟨S2x128x128, .f32⟩ : BufTy).Contents (Elt Ideal)) : wslab0 x = slab (L := 2) (H := 128) (M := 128) 0 x := by
  funext i
  obtain ⟨p, q, rfl⟩ : ∃ (p : Fin 128) (q : Fin 128), i = ix2 p q := ⟨i 0, i 1, eq_ix2 i⟩
  unfold wslab0
  rw [shapeCast_1ab_ab_apply, slab_ix2]
  exact extractStridedSlice_apply _ x _ _ (ix3 (0 : Fin 2) p q) fun a => match a with
    | ⟨0, _⟩ => rfl
    | ⟨1, _⟩ => (Nat.zero_add _).symm
    | ⟨2, _⟩ => (Nat.zero_add _).symm

theorem wslab1_eq (x : (⟨S2x128x128, .f32⟩ : BufTy).Contents (Elt Ideal)) : wslab1 x = slab (L := 2) (H := 128) (M := 128) 1 x := by
  funext i
  obtain ⟨p, q, rfl⟩ : ∃ (p : Fin 128) (q : Fin 128), i = ix2 p q := ⟨i 0, i 1, eq_ix2 i⟩
  unfold wslab1
  rw [shapeCast_1ab_ab_apply, slab_ix2]
  exact extractStridedSlice_apply _ x _ _ (ix3 (1 : Fin 2) p q) fun a => match a with
    | ⟨0, _⟩ => rfl
    | ⟨1, _⟩ => (Nat.zero_add _).symm
    | ⟨2, _⟩ => (Nat.zero_add _).symm

theorem brow0_eq (x : (⟨S2x128, .f32⟩ : BufTy).Contents (Elt Ideal)) : brow0 x = rowL (L := 2) (M := 128) 0 x := by
  funext i
  obtain ⟨u, q, rfl⟩ : ∃ (u : Fin 1) (q : Fin 128), i = ix2 u q := ⟨i 0, i 1, eq_ix2 i⟩
  unfold brow0
  rw [shapeCast_a_1a_apply, shapeCast_1a_a_apply, rowL_ix2]
  exact extractStridedSlice_apply _ x _ _ (ix2 (0 : Fin 2) q) fun a => match a with
    | ⟨0, _⟩ => rfl
    | ⟨1, _⟩ => (Nat.zero_add _).symm

theorem brow1_eq (x : (⟨S2x128, .f32⟩ : BufTy).Contents (Elt Ideal)) : brow1 x = rowL (L := 2) (M := 128) 1 x := by
  funext i
  obtain ⟨u, q, rfl⟩ : ∃ (u : Fin 1) (q : Fin 128), i = ix2 u q := ⟨i 0, i 1, eq_ix2 i⟩
  unfold brow1
  rw [shapeCast_a_1a_apply, shapeCast_1a_a_apply, rowL_ix2]
  exact extractStridedSlice_apply _ x _ _ (ix2 (1 : Fin 2) q) fun a => match a with
    | ⟨0, _⟩ => rfl
    | ⟨1, _⟩ => (Nat.zero_add _).symm

end Cert.KernelIdeal.KerHostSpec

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.Model.lean ====
/-
  The whole network as one function of its inputs. The three neighbour aggregations (gather the source rows an edge
  list names, add them into the destination rows) enter as functions of the feature array they read, and the three
  clamped in-degree vectors max(count, 1) as vectors: both programs compute them by the same host operations, so the
  model never opens them. Layer 0: the two input projections, then the item update (one relation) and the user
  update (two relations), both rectified; layer 1: the user update of the updated features, then the output
  projection. The item update of layer 1 feeds nothing.
-/
import proofs.«178608_j31610959298705_2_alg».proof.Proof.Spec
import proofs.«178608_j31610959298705_2_alg».proof.Proof.LibRowBias

noncomputable section

namespace Cert.Model

open Idealize.ShloMosaic Idealize.ShloMosaic.ValueIdx Cert.Spec Cert.LibRowBias

variable (aggI : Arr 200000 128 → Arr 100000 128) (aggR : Arr 100000 128 → Arr 200000 128) (aggF : Arr 200000 128 → Arr 200000 128)
  (cI : Vec1 100000) (cR cF : Vec1 200000)
  (x0 : Arr 200000 64) (x1 : Arr 100000 128) (x8 : Arr 64 128) (x9 : Vec1 128) (x10 : Arr 128 128) (x11 : Vec1 128)
  (x12 : Arr3 2 128 128) (x13 : Arr 2 128) (x14 x15 : Arr3 2 128 128) (x16 : Arr 2 128) (x17 x18 : Arr3 2 128 128)
  (x19 : Arr 2 128) (x20 : Arr3 2 128 128) (x21 : Arr 128 16) (x22 : Vec1 16)

/-- User features after the input projection. -/
def hu0 : Arr 200000 128 := dense x0 x8 (rowOf x9)
/-- Item features after the input projection. -/
def hi0 : Arr 100000 128 := dense x1 x10 (rowOf x11)
/-- Item features after layer 0. -/
def hi1 : Arr 100000 128 :=
  sage1Act (aggI (hu0 x0 x8 x9)) (invCol cI) (hi0 x1 x10 x11) (slab 0 x12) (rowL 0 x13) (slab 0 x14)
/-- User features after layer 0. -/
def hu1 : Arr 200000 128 :=
  sage2Act (aggR (hi0 x1 x10 x11)) (invCol cR) (aggF (hu0 x0 x8 x9)) (invCol cF) (hu0 x0 x8 x9)
    (slab 0 x15) (rowL 0 x16) (slab 0 x17) (slab 0 x18) (rowL 0 x19) (slab 0 x20)
/-- The network's output. -/
def out : Arr 200000 16 :=
  sage2Head (aggR (hi1 aggI cI x0 x1 x8 x9 x10 x11 x12 x13 x14)) (invCol cR)
    (aggF (hu1 aggR aggF cR cF x0 x1 x8 x9 x10 x11 x15 x16 x17 x18 x19 x20)) (invCol cF)
    (hu1 aggR aggF cR cF x0 x1 x8 x9 x10 x11 x15 x16 x17 x18 x19 x20)
    (slab 1 x15) (rowL 1 x16) (slab 1 x17) (slab 1 x18) (rowL 1 x19) (slab 1 x20) x21 (rowOf x22)

end Cert.Model

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.PayLib.lean ====
/-
  The matrix products of the five regions read at an index, at the exact instance, and the two ways a small array is
  laid against a 4000-row block: a one-row array repeated down the rows (a bias), a one-column array repeated along
  the columns (a per-row scale). Changes of float format are the identity on extended reals, and the leaky rectifier
  is applied entry by entry.
-/
import proofs.«178608_j31610959298705_2_alg».proof.Proof.Gen.KernelIdeal
import proofs.«178608_j31610959298705_2_alg».proof.Proof.LibDense
import proofs.«178608_j31610959298705_2_alg».proof.Proof.LibColBcast
import proofs.«178608_j31610959298705_2_alg».proof.Proof.Spec
import Idealize.ShloMosaic.Lib.ValueLayout

noncomputable section

namespace Cert.KernelIdeal.RegionValue

open Idealize.ShloMosaic Idealize.ShloMosaic.ValueIdx
open Cert.KernelIdeal Cert.KernelIdeal.Gen

variable {α : Type}

/-- The zero offsets of a whole-block access, however they are spelt. -/
theorem hz : (![0, 0] : Fin 2 → Nat) = fun _ => 0 := funext fun a => by fin_cases a <;> rfl

/-- The 4000×64 by 64×128 product into the zero accumulator at (p, q). -/
theorem matmul64_apply (x : FVec Ideal S4000x64 .bf16) (w : FVec Ideal S64x128 .bf16) (p : Fin 4000) (q : Fin 128) :
    matmul dot_S4000x64_S64x128_S4000x128_1_0_0_1_n_n none x w (constant (F := Ideal) S4000x128 .f32 0x00000000#32) (ix2 p q)
      = ∑ k : Fin 64, x (ix2 p k) * w (ix2 k q) :=
  Cert.LibDense.plain_matmul_apply (M := 4000) (K := 64) (N := 128) none x w p q

/-- The 4000×128 by 128×128 product into the zero accumulator at (p, q). -/
theorem matmul128_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) :=
  Cert.LibDense.plain_matmul_apply (M := 4000) (K := 128) (N := 128) none x w p q

/-- The 4000×128 by 128×16 product into the zero accumulator at (p, q). -/
theorem matmul16_apply (x : FVec Ideal S4000x128 .bf16) (w : FVec Ideal S128x16 .bf16) (p : Fin 4000) (q : Fin 16) :
    matmul dot_S4000x128_S128x16_S4000x16_1_0_0_1_n_n none x w (constant (F := Ideal) S4000x16 .f32 0x00000000#32) (ix2 p q)
      = ∑ k : Fin 128, x (ix2 p k) * w (ix2 k q) :=
  Cert.LibDense.plain_matmul_apply (M := 4000) (K := 128) (N := 16) none x w p q

/-- A one-row array of 128 columns laid down the 4000 rows, at (p, q). -/
theorem bias128_apply (b : S1x128.Idx → α) (h1 : S1x128.ShapeCasts S1x128) (h2 : S1x128.Broadcasts S4000x128)
    (p : Fin 4000) (q : Fin 128) :
    broadcastTo S4000x128 (shapeCast S1x128 b h1) h2 (ix2 p q) = b (ix2 (0 : Fin 1) q) := by
  rw [shapeCast_self]
  exact broadcastTo_1b_ab_apply b h2 p q

/-- A one-row array of 16 columns laid down the 4000 rows, at (p, q). -/
theorem bias16_apply (b : S1x16.Idx → α) (h1 : S1x16.ShapeCasts S1x16) (h2 : S1x16.Broadcasts S4000x16)
    (p : Fin 4000) (q : Fin 16) :
    broadcastTo S4000x16 (shapeCast S1x16 b h1) h2 (ix2 p q) = b (ix2 (0 : Fin 1) q) := by
  rw [shapeCast_self]
  exact broadcastTo_1b_ab_apply b h2 p q

/-- A one-column array of 4000 rows laid along the 128 columns, at (p, k). -/
theorem colscale_apply (v : S4000x1.Idx → α) (h1 : S4000x1.ShapeCasts S4000x1) (h2 : S4000x1.Broadcasts S4000x128)
    (p : Fin 4000) (k : Fin 128) :
    broadcastTo S4000x128 (shapeCast S4000x1 v h1) h2 (ix2 p k) = v (ix2 p (0 : Fin 1)) := by
  rw [shapeCast_self]
  exact Cert.LibColBcast.broadcastTo_a1_ab_apply v h2 p k

/-- The summed neighbour features of a block scaled row by row, then against a weight: entry (p, q) of the product of
    (agg · inv laid along the columns) with w is the linear stage of the scaled block. -/
theorem scaledLin_apply (agg : Vec Ideal S4000x128 .f32) (inv : Vec Ideal S4000x1 .f32) (w : Vec Ideal S128x128 .f32)
    (hc : S4000x128.ShapeCasts S4000x128) (h1 : S4000x1.ShapeCasts S4000x1) (h2 : S4000x1.Broadcasts S4000x128)
    (hw : S128x128.ShapeCasts S128x128) (hb : FTy.bits .bf16 < FTy.bits .f32) (p : Fin 4000) (q : Fin 128) :
    matmul dot_S4000x128_S128x128_S4000x128_1_0_0_1_n_n none
        (truncf .bf16 (mulf (shapeCast S4000x128 agg hc) (broadcastTo S4000x128 (shapeCast S4000x1 inv h1) h2)) hb)
        (truncf .bf16 (shapeCast S128x128 w hw) hb) (constant (F := Ideal) S4000x128 .f32 0x00000000#32) (ix2 p q)
      = Cert.Spec.lin (N := 4000) (K := 128) (M := 128) (Cert.Spec.scaled (N := 4000) (H := 128) agg inv) w p q := by
  refine (matmul128_apply _ _ p q).trans ?_
  unfold Cert.Spec.lin
  refine Finset.sum_congr rfl fun k _ => ?_
  rw [Cert.Spec.scaled_ix2]
  refine congrArg₂ (· * ·) (congrArg₂ (· * ·) ?_ (colscale_apply inv h1 h2 p k)) ?_
  · rw [shapeCast_self]
  · rw [shapeCast_self]; rfl

/-- The destination features against the root weight: entry (p, q). -/
theorem rootLin_apply (xd : FVec Ideal S4000x128 .bf16) (w : Vec Ideal S128x128 .f32)
    (hc : S4000x128.ShapeCasts S4000x128) (hw : S128x128.ShapeCasts S128x128) (hb : FTy.bits .bf16 < FTy.bits .f32)
    (p : Fin 4000) (q : Fin 128) :
    matmul dot_S4000x128_S128x128_S4000x128_1_0_0_1_n_n none (shapeCast S4000x128 xd hc)
        (truncf .bf16 (shapeCast S128x128 w hw) hb) (constant (F := Ideal) S4000x128 .f32 0x00000000#32) (ix2 p q)
      = Cert.Spec.lin (N := 4000) (K := 128) (M := 128) xd w p q := by
  refine (matmul128_apply _ _ p q).trans ?_
  unfold Cert.Spec.lin
  refine Finset.sum_congr rfl fun k _ => ?_
  simp only [shapeCast_self]; rfl

/-- The leaky rectifier applied to a block, entry by entry. -/
theorem leaky_apply (X : FVec Ideal S4000x128 .f32) (hb : FTy.bits .bf16 < FTy.bits .f32) (i : S4000x128.Idx) :
    (truncf .bf16 (select (cmpf .oge X (broadcast S4000x128 (Scalar.ofBits (F := Ideal) .f32 0x00000000#32))) X
      (mulf (broadcast S4000x128 (Scalar.ofBits (F := Ideal) .f32 0x3C23D70A#32)) X)) hb : FVec Ideal S4000x128 .bf16) i
      = Cert.Spec.leaky (X i) := rfl

end Cert.KernelIdeal.RegionValue

end
-- ==== Proof.Pay0.lean ====
/-
  The first input projection's block arithmetic at an index: the stored block of the first region is, at (p, q), row p
  of its 4000×64 input block against column q of the 64×128 weight, plus the bias row at q. The two changes of float
  format are the identity on extended reals, and the product into the zero accumulator is the plain sum over k.
-/
import proofs.«178608_j31610959298705_2_alg».proof.Proof.Gen.KernelIdeal.Skeleton
import proofs.«178608_j31610959298705_2_alg».proof.Proof.PayLib

noncomputable section

namespace Cert.KernelIdeal.RegionValue

open Idealize.ShloMosaic Idealize.ShloMosaic.ValueIdx
open Cert.KernelIdeal Cert.KernelIdeal.Gen

/-- The first region's stored block at (p, q): x·w + b. -/
theorem pay0_apply (x0 : Vec Ideal S4000x64 .f32) (x1 : Vec Ideal S64x128 .f32) (x2 : Vec Ideal S1x128 .f32)
    (p : Fin 4000) (q : Fin 128) :
    k0_pay1 x0 x1 x2 (ix2 p q) = Cert.Spec.dense (N := 4000) (K := 64) (M := 128) x0 x1 x2 (ix2 p q) := by
  rw [Cert.Spec.dense_ix2]
  unfold Cert.Spec.lin k0_pay1
  exact congrArg₂ (· + ·) (matmul64_apply _ _ p q) (bias128_apply x2 _ _ p q)

end Cert.KernelIdeal.RegionValue

end
-- ==== Proof.Region0.lean ====
/-
  The first region's output array after its fifty grid points. Point t reads rows 4000·t … 4000·t + 3999 of the
  200000×64 input, the whole weight and the whole bias row, and writes back rows 4000·t … 4000·t + 3999 of the
  200000×128 output; the fifty row blocks tile the output, so the array ends as the dense stage x·w + b of the three
  arrays as the region found them.
-/
import proofs.«178608_j31610959298705_2_alg».proof.Proof.Gen.KernelIdeal.Frame
import proofs.«178608_j31610959298705_2_alg».proof.Proof.Pay0
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps over the grid: the input and output blocks move with the point along the rows; the weight and the
    bias stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t is rows 4000·t … of the input array. -/
theorem iblk0_0_apply (c : Dev nD) (t : Fin cfg0.N) (x : S4000x64.Idx) (i : S200000x64.Idx)
    (h0 : (i 0).val = t.val * 4000 + (x 0).val) (h1 : (i 1).val = (x 1).val) :
    (iblk0 V c 0 t : Vec Ideal S4000x64 .f32) x = (V c (Pipeline.arrRef spec0 0) : S200000x64.Idx → EReal) i := by
  obtain ⟨e0, e1, -⟩ := idx_facts0 t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 4000 + 1 * (x 0).val = (i 0).val; rw [e0, h0]; omega
  | ⟨1, _⟩ => show win0_0.index t (1 : Fin 2) * 64 + 1 * (x 1).val = (i 1).val; rw [e1, h1]; omega

/-- The weight block at every point is the weight array. -/
theorem iblk0_1_eq (c : Dev nD) (t : Fin cfg0.N) :
    (iblk0 V c 1 t : Vec Ideal S64x128 .f32) = (V c (Pipeline.arrRef spec0 1) : S64x128.Idx → EReal) := by
  obtain ⟨-, -, e0, e1, -⟩ := idx_facts0 t
  funext x
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 64 + 1 * (x 0).val = (x 0).val; rw [e0]; omega
  | ⟨1, _⟩ => show win0_1.index t (1 : Fin 2) * 128 + 1 * (x 1).val = (x 1).val; rw [e1]; omega

/-- The bias block at every point is the bias row. -/
theorem iblk0_2_eq (c : Dev nD) (t : Fin cfg0.N) :
    (iblk0 V c 2 t : Vec Ideal S1x128 .f32) = (V c (Pipeline.arrRef spec0 2) : S1x128.Idx → EReal) := by
  obtain ⟨-, -, -, -, e0, e1, -⟩ := idx_facts0 t
  funext x
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The dense stage of the three arrays as the region finds them. -/
abbrev G0 (c : Dev nD) : Arr 200000 128 :=
  dense (N := 200000) (K := 64) (M := 128) (V c (Pipeline.arrRef spec0 0)) (V c (Pipeline.arrRef spec0 1)) (V c (Pipeline.arrRef spec0 2))

/-- What point t stores, entry by entry: the dense stage at the entry's place in the output array. -/
theorem stored0 (c : Dev nD) (t : Fin cfg0.N) (j : S4000x128.Idx) :
    k0_pay1 (iblk0 V c 0 t) (iblk0 V c 1 t) (iblk0 V c 2 t) j = G0 V c (((cfg0.win 3).blk t).view.emb j) := by
  obtain ⟨p, q, rfl⟩ : ∃ (p : Fin 4000) (q : Fin 128), j = ix2 p q := ⟨j 0, j 1, eq_ix2 j⟩
  obtain ⟨-, -, -, -, -, -, e0, e1⟩ := idx_facts0 t
  have hN : cfg0.N = 50 := N_0
  have ht : t.val < 50 := hN ▸ t.isLt
  have he : ((cfg0.win 3).blk t).view.emb (ix2 p q)
      = ix2 (n0 := 200000) (n1 := 128) ⟨t.val * 4000 + p.val, by omega⟩ q := by
    funext a
    apply Fin.ext
    match a with
    | ⟨0, _⟩ => show win0_3.index t (0 : Fin 2) * 4000 + 1 * p.val = t.val * 4000 + p.val; rw [e0]; omega
    | ⟨1, _⟩ => show win0_3.index t (1 : Fin 2) * 128 + 1 * q.val = q.val; rw [e1]; omega
  refine (pay0_apply (iblk0 V c 0 t) (iblk0 V c 1 t) (iblk0 V c 2 t) p q).trans ?_
  rw [he, iblk0_1_eq, iblk0_2_eq]
  unfold G0
  rw [dense_ix2, dense_ix2]
  unfold lin
  refine congrArg₂ (· + ·) (Finset.sum_congr rfl fun k _ => congrArg₂ (· * ·) ?_ rfl) rfl
  exact iblk0_0_apply V c t (ix2 p k) _ rfl rfl

/-- What point t writes back is block t of the dense stage. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S4000x64) hz, View.ld_unit_zero (S := S64x128) hz, View.ld_unit_zero (S := S1x128) hz]
  funext j
  exact stored0 V c t j

/-- An index of the output array is in point t's block iff each coordinate is in the block's range on its axis. -/
theorem mem_blk0 (t : Fin cfg0.N) (i : S200000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1).slice (win0_3.rect t)).set ↔ _
  rw [View.set_slice_whole, Rect.mem_set_unit]
  exact Iff.rfl

/-- Every index of the output array is in the block of the point its row falls in. -/
theorem cover0 (i : S200000x128.Idx) :
    ∃ t : Fin cfg0.N, (cfg0.win 3).flush t = true ∧ i ∈ ((cfg0.win 3).blk t).view.set := by
  have hN : cfg0.N = 50 := N_0
  have h0 : (i 0).val < 200000 := (i 0).isLt
  have h1 : (i 1).val < 128 := (i 1).isLt
  obtain ⟨t, ht⟩ : ∃ t : Fin cfg0.N, t.val = (i 0).val / 4000 := ⟨⟨(i 0).val / 4000, by rw [hN]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 128 ≤ (i 1).val ∧ (i 1).val < win0_3.index t (1 : Fin 2) * 128 + 128; rw [e1]; omega

/-- The output array after the region: the dense stage of the three arrays as the region found them. -/
theorem final0 (c : Dev nD) :
    (dat0 V c).arrAt 3 cfg0.N
      = dense (N := 200000) (K := 64) (M := 128) (V c (Pipeline.arrRef spec0 0)) (V c (Pipeline.arrRef spec0 1)) (V c (Pipeline.arrRef spec0 2)) :=
  (dat0 V c).arrAt_eq_of_cover 3 (G0 V c) (fun t _ => flushed0_eq V c t) cover0

end Cert.KernelIdeal.RegionValue

end
-- ==== Proof.Pay1.lean ====
/-
  The second input projection's block arithmetic at an index: the stored block of the second region is, at (p, q),
  row p of its 4000×128 input block against column q of the 128×128 weight, plus the bias row at q.
-/
import proofs.«178608_j31610959298705_2_alg».proof.Proof.Gen.KernelIdeal.Skeleton
import proofs.«178608_j31610959298705_2_alg».proof.Proof.PayLib

noncomputable section

namespace Cert.KernelIdeal.RegionValue

open Idealize.ShloMosaic Idealize.ShloMosaic.ValueIdx
open Cert.KernelIdeal Cert.KernelIdeal.Gen

/-- The second region's stored block at (p, q): x·w + b. -/
theorem pay1_apply (x0 : Vec Ideal S4000x128 .f32) (x1 : Vec Ideal S128x128 .f32) (x2 : Vec Ideal S1x128 .f32)
    (p : Fin 4000) (q : Fin 128) :
    k1_pay1 x0 x1 x2 (ix2 p q) = Cert.Spec.dense (N := 4000) (K := 128) (M := 128) x0 x1 x2 (ix2 p q) := by
  rw [Cert.Spec.dense_ix2]
  unfold Cert.Spec.lin k1_pay1
  exact congrArg₂ (· + ·) (matmul128_apply _ _ p q) (bias128_apply x2 _ _ p q)

end Cert.KernelIdeal.RegionValue

end
-- ==== Proof.Region1.lean ====
/-
  The second region's output array after its twenty-five grid points. Point t reads rows 4000·t … 4000·t + 3999 of
  the 100000×128 input, the whole weight and the whole bias row, and writes back rows 4000·t … 4000·t + 3999 of the
  100000×128 output; the twenty-five row blocks tile the output, so the array ends as the dense stage x·w + b of the
  three arrays as the region found them.
-/
import proofs.«178608_j31610959298705_2_alg».proof.Proof.Gen.KernelIdeal.Frame
import proofs.«178608_j31610959298705_2_alg».proof.Proof.Pay1
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps over the grid: the input and output blocks move with the point along the rows; the weight and the
    bias stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t is rows 4000·t … of the input array. -/
theorem iblk1_0_apply (c : Dev nD) (t : Fin cfg1.N) (x : S4000x128.Idx) (i : S100000x128.Idx)
    (h0 : (i 0).val = t.val * 4000 + (x 0).val) (h1 : (i 1).val = (x 1).val) :
    (iblk1 V c 0 t : Vec Ideal S4000x128 .f32) x = (V c (Pipeline.arrRef spec1 0) : S100000x128.Idx → EReal) i := by
  obtain ⟨e0, e1, -⟩ := idx_facts1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 4000 + 1 * (x 0).val = (i 0).val; rw [e0, h0]; omega
  | ⟨1, _⟩ => show win1_0.index t (1 : Fin 2) * 128 + 1 * (x 1).val = (i 1).val; rw [e1, h1]; omega

/-- The weight block at every point is the weight array. -/
theorem iblk1_1_eq (c : Dev nD) (t : Fin cfg1.N) :
    (iblk1 V c 1 t : Vec Ideal S128x128 .f32) = (V c (Pipeline.arrRef spec1 1) : S128x128.Idx → EReal) := by
  obtain ⟨-, -, e0, e1, -⟩ := idx_facts1 t
  funext x
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 128 + 1 * (x 0).val = (x 0).val; rw [e0]; omega
  | ⟨1, _⟩ => show win1_1.index t (1 : Fin 2) * 128 + 1 * (x 1).val = (x 1).val; rw [e1]; omega

/-- The bias block at every point is the bias row. -/
theorem iblk1_2_eq (c : Dev nD) (t : Fin cfg1.N) :
    (iblk1 V c 2 t : Vec Ideal S1x128 .f32) = (V c (Pipeline.arrRef spec1 2) : S1x128.Idx → EReal) := by
  obtain ⟨-, -, -, -, e0, e1, -⟩ := idx_facts1 t
  funext x
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The dense stage of the three arrays as the region finds them. -/
abbrev G1 (c : Dev nD) : Arr 100000 128 :=
  dense (N := 100000) (K := 128) (M := 128) (V c (Pipeline.arrRef spec1 0)) (V c (Pipeline.arrRef spec1 1)) (V c (Pipeline.arrRef spec1 2))

/-- What point t stores, entry by entry: the dense stage at the entry's place in the output array. -/
theorem stored1 (c : Dev nD) (t : Fin cfg1.N) (j : S4000x128.Idx) :
    k1_pay1 (iblk1 V c 0 t) (iblk1 V c 1 t) (iblk1 V c 2 t) j = G1 V c (((cfg1.win 3).blk t).view.emb j) := by
  obtain ⟨p, q, rfl⟩ : ∃ (p : Fin 4000) (q : Fin 128), j = ix2 p q := ⟨j 0, j 1, eq_ix2 j⟩
  obtain ⟨-, -, -, -, -, -, e0, e1⟩ := idx_facts1 t
  have hN : cfg1.N = 25 := N_1
  have ht : t.val < 25 := hN ▸ t.isLt
  have he : ((cfg1.win 3).blk t).view.emb (ix2 p q)
      = ix2 (n0 := 100000) (n1 := 128) ⟨t.val * 4000 + p.val, by omega⟩ q := by
    funext a
    apply Fin.ext
    match a with
    | ⟨0, _⟩ => show win1_3.index t (0 : Fin 2) * 4000 + 1 * p.val = t.val * 4000 + p.val; rw [e0]; omega
    | ⟨1, _⟩ => show win1_3.index t (1 : Fin 2) * 128 + 1 * q.val = q.val; rw [e1]; omega
  refine (pay1_apply (iblk1 V c 0 t) (iblk1 V c 1 t) (iblk1 V c 2 t) p q).trans ?_
  rw [he, iblk1_1_eq, iblk1_2_eq]
  unfold G1
  rw [dense_ix2, dense_ix2]
  unfold lin
  refine congrArg₂ (· + ·) (Finset.sum_congr rfl fun k _ => congrArg₂ (· * ·) ?_ rfl) rfl
  exact iblk1_0_apply V c t (ix2 p k) _ rfl rfl

/-- What point t writes back is block t of the dense stage. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  funext j
  exact stored1 V c t j

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v3).slice (win1_3.rect t)).set ↔ _
  rw [View.set_slice_whole, Rect.mem_set_unit]
  exact Iff.rfl

/-- Every index of the output array is in the block of the point its row falls in. -/
theorem cover1 (i : S100000x128.Idx) :
    ∃ t : Fin cfg1.N, (cfg1.win 3).flush t = true ∧ i ∈ ((cfg1.win 3).blk t).view.set := by
  have hN : cfg1.N = 25 := N_1
  have h0 : (i 0).val < 100000 := (i 0).isLt
  have h1 : (i 1).val < 128 := (i 1).isLt
  obtain ⟨t, ht⟩ : ∃ t : Fin cfg1.N, t.val = (i 0).val / 4000 := ⟨⟨(i 0).val / 4000, by rw [hN]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; rw [e0, ht]; omega
  | ⟨1, _⟩ => show win1_3.index t (1 : Fin 2) * 128 ≤ (i 1).val ∧ (i 1).val < win1_3.index t (1 : Fin 2) * 128 + 128; rw [e1]; omega

/-- The output array after the region: the dense stage of the three arrays as the region found them. -/
theorem final1 (c : Dev nD) :
    (dat1 V c).arrAt 3 cfg1.N
      = dense (N := 100000) (K := 128) (M := 128) (V c (Pipeline.arrRef spec1 0)) (V c (Pipeline.arrRef spec1 1)) (V c (Pipeline.arrRef spec1 2)) :=
  (dat1 V c).arrAt_eq_of_cover 3 (G1 V c) (fun t _ => flushed1_eq V c t) cover1

end Cert.KernelIdeal.RegionValue

end
-- ==== Proof.Pay2.lean ====
/-
  The one-relation layer's block arithmetic at an index: the stored block of the third region is, at (p, q), the leaky
  rectifier of (agg·inv)·wl + bl + xd·wr, where agg·inv scales row p of the summed neighbour features by that row's
  entry of the one-column array inv.
-/
import proofs.«178608_j31610959298705_2_alg».proof.Proof.Gen.KernelIdeal.Skeleton
import proofs.«178608_j31610959298705_2_alg».proof.Proof.PayLib

noncomputable section

namespace Cert.KernelIdeal.RegionValue

open Idealize.ShloMosaic Idealize.ShloMosaic.ValueIdx
open Cert.KernelIdeal Cert.KernelIdeal.Gen

/-- The third region's stored block at (p, q). -/
theorem pay2_apply (v0 : Vec Ideal S4000x128 .f32) (v2 : Vec Ideal S4000x1 .f32) (v7 : Vec Ideal S4000x128 .bf16)
    (v9 : Vec Ideal S128x128 .f32) (v12 : Vec Ideal S128x128 .f32) (v16 : Vec Ideal S1x128 .f32)
    (p : Fin 4000) (q : Fin 128) :
    k2_pay1 v0 v2 v7 v9 v12 v16 (ix2 p q)
      = Cert.Spec.sage1Act (N := 4000) (H := 128) (M := 128) v0 v2 v7 v9 v16 v12 (ix2 p q) := by
  unfold k2_pay1
  refine (leaky_apply _ _ (ix2 p q)).trans ?_
  show Cert.Spec.leaky _ = Cert.Spec.leaky (Cert.Spec.sageAt (N := 4000) (H := 128) (M := 128) v0 v2 v7 v9 v16 v12 p q)
  refine congrArg Cert.Spec.leaky ?_
  unfold Cert.Spec.sageAt
  exact congrArg₂ (· + ·) (congrArg₂ (· + ·) (scaledLin_apply v0 v2 v9 _ _ _ _ _ p q) (bias128_apply v16 _ _ p q))
    (rootLin_apply v7 v12 _ _ _ p q)

end Cert.KernelIdeal.RegionValue

end
-- ==== Proof.SpecRows.lean ====
/-
  The dense stages depend on their row operands only through the row they are read at: if row p of one operand is row
  P of another, the linear stage, the SAGE convolution and their sums agree at (p, q) and (P, q). This is what lets a
  4000-row block of a stage be read as 4000 rows of the stage of the whole arrays.
-/
import proofs.«178608_j31610959298705_2_alg».proof.Proof.Spec

noncomputable section

namespace Cert.SpecRows

open Idealize.ShloMosaic Idealize.ShloMosaic.ValueIdx Cert.Spec

variable {N N' K M H : ℕ}

/-- The linear stage reads its left operand along one row. -/
theorem lin_rows (x : Arr N K) (x' : Arr N' K) (w : Arr K M) (p : Fin N) (P : Fin N')
    (h : ∀ k, x (ix2 p k) = x' (ix2 P k)) (q : Fin M) : lin x w p q = lin x' w P q := by
  unfold lin
  exact Finset.sum_congr rfl fun k _ => congrArg (· * w (ix2 k q)) (h k)

/-- One SAGE convolution reads its three row operands along one row. -/
theorem sageAt_rows (agg : Arr N H) (inv : Arr N 1) (xd : Arr N H) (agg' : Arr N' H) (inv' : Arr N' 1) (xd' : Arr N' H)
    (wl : Arr H M) (bl : Arr 1 M) (wr : Arr H M) (p : Fin N) (P : Fin N')
    (h0 : ∀ k, agg (ix2 p k) = agg' (ix2 P k)) (h1 : inv (ix2 p (0 : Fin 1)) = inv' (ix2 P (0 : Fin 1)))
    (h2 : ∀ k, xd (ix2 p k) = xd' (ix2 P k)) (q : Fin M) :
    sageAt agg inv xd wl bl wr p q = sageAt agg' inv' xd' wl bl wr P q := by
  unfold sageAt
  refine congrArg₂ (· + ·) (congrArg₂ (· + ·) (lin_rows _ _ wl p P (fun k => ?_) q) rfl) (lin_rows xd xd' wr p P h2 q)
  rw [scaled_ix2, scaled_ix2, h0 k, h1]

/-- The sum of two convolutions into the same destination rows reads its five row operands along one row. -/
theorem sage2At_rows (a1 : Arr N H) (i1 : Arr N 1) (a2 : Arr N H) (i2 : Arr N 1) (xd : Arr N H)
    (a1' : Arr N' H) (i1' : Arr N' 1) (a2' : Arr N' H) (i2' : Arr N' 1) (xd' : Arr N' H)
    (wl1 : Arr H M) (bl1 : Arr 1 M) (wr1 : Arr H M) (wl2 : Arr H M) (bl2 : Arr 1 M) (wr2 : Arr H M) (p : Fin N) (P : Fin N')
    (h0 : ∀ k, a1 (ix2 p k) = a1' (ix2 P k)) (h1 : i1 (ix2 p (0 : Fin 1)) = i1' (ix2 P (0 : Fin 1)))
    (h2 : ∀ k, a2 (ix2 p k) = a2' (ix2 P k)) (h3 : i2 (ix2 p (0 : Fin 1)) = i2' (ix2 P (0 : Fin 1)))
    (h4 : ∀ k, xd (ix2 p k) = xd' (ix2 P k)) (q : Fin M) :
    sage2At a1 i1 a2 i2 xd wl1 bl1 wr1 wl2 bl2 wr2 p q = sage2At a1' i1' a2' i2' xd' wl1 bl1 wr1 wl2 bl2 wr2 P q := by
  unfold sage2At
  exact congrArg₂ (· + ·) (sageAt_rows a1 i1 xd a1' i1' xd' wl1 bl1 wr1 p P h0 h1 h4 q)
    (sageAt_rows a2 i2 xd a2' i2' xd' wl2 bl2 wr2 p P h2 h3 h4 q)

end Cert.SpecRows

end
-- ==== Proof.Region2.lean ====
/-
  The third region's output array after its twenty-five grid points: the one-relation SAGE layer with the leaky
  rectifier. Point t reads rows 4000·t … 4000·t + 3999 of the summed neighbour features (100000×128), of the
  one-column reciprocal degrees (100000×1) and of the destination features (100000×128), and the whole of the two
  weights and the bias row; it writes back rows 4000·t … 4000·t + 3999 of the 100000×128 output. Each output entry
  depends on its own row of the three row operands only, and the twenty-five row blocks tile the output.
-/
import proofs.«178608_j31610959298705_2_alg».proof.Proof.Gen.KernelIdeal.Frame
import proofs.«178608_j31610959298705_2_alg».proof.Proof.Pay2
import proofs.«178608_j31610959298705_2_alg».proof.Proof.SpecRows
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps over the grid: the three row operands and the output move with the point along the rows; the
    weights and the bias stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The block of summed neighbour features at point t is rows 4000·t … of its array. -/
theorem iblk2_0_apply (c : Dev nD) (t : Fin cfg2.N) (x : S4000x128.Idx) (i : S100000x128.Idx)
    (h0 : (i 0).val = t.val * 4000 + (x 0).val) (h1 : (i 1).val = (x 1).val) :
    (iblk2 V c 0 t : Vec Ideal S4000x128 .f32) x = (V c (Pipeline.arrRef spec2 0) : S100000x128.Idx → EReal) i := by
  obtain ⟨e0, e1, -⟩ := idx_facts2 t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 4000 + 1 * (x 0).val = (i 0).val; rw [e0, h0]; omega
  | ⟨1, _⟩ => show win2_0.index t (1 : Fin 2) * 128 + 1 * (x 1).val = (i 1).val; rw [e1, h1]; omega

/-- The block of reciprocal degrees at point t is rows 4000·t … of its one-column array. -/
theorem iblk2_1_apply (c : Dev nD) (t : Fin cfg2.N) (x : S4000x1.Idx) (i : S100000x1.Idx)
    (h0 : (i 0).val = t.val * 4000 + (x 0).val) (h1 : (i 1).val = (x 1).val) :
    (iblk2 V c 1 t : Vec Ideal S4000x1 .f32) x = (V c (Pipeline.arrRef spec2 1) : S100000x1.Idx → EReal) i := by
  obtain ⟨-, -, e0, e1, -⟩ := idx_facts2 t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 4000 + 1 * (x 0).val = (i 0).val; rw [e0, h0]; omega
  | ⟨1, _⟩ => show win2_1.index t (1 : Fin 2) * 1 + 1 * (x 1).val = (i 1).val; rw [e1, h1]; omega

/-- The block of destination features at point t is rows 4000·t … of its array. -/
theorem iblk2_2_apply (c : Dev nD) (t : Fin cfg2.N) (x : S4000x128.Idx) (i : S100000x128.Idx)
    (h0 : (i 0).val = t.val * 4000 + (x 0).val) (h1 : (i 1).val = (x 1).val) :
    (iblk2 V c 2 t : Vec Ideal S4000x128 .bf16) x = (V c (Pipeline.arrRef spec2 2) : S100000x128.Idx → EReal) i := by
  obtain ⟨-, -, -, -, e0, e1, -⟩ := idx_facts2 t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 4000 + 1 * (x 0).val = (i 0).val; rw [e0, h0]; omega
  | ⟨1, _⟩ => show win2_2.index t (1 : Fin 2) * 128 + 1 * (x 1).val = (i 1).val; rw [e1, h1]; omega

/-- The neighbour-weight block at every point is the weight array. -/
theorem iblk2_3_eq (c : Dev nD) (t : Fin cfg2.N) :
    (iblk2 V c 3 t : Vec Ideal S128x128 .f32) = (V c (Pipeline.arrRef spec2 3) : S128x128.Idx → EReal) := by
  obtain ⟨-, -, -, -, -, -, e0, e1, -⟩ := idx_facts2 t
  funext x
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- The bias block at every point is the bias row. -/
theorem iblk2_4_eq (c : Dev nD) (t : Fin cfg2.N) :
    (iblk2 V c 4 t : Vec Ideal S1x128 .f32) = (V c (Pipeline.arrRef spec2 4) : S1x128.Idx → EReal) := by
  obtain ⟨-, -, -, -, -, -, -, -, e0, e1, -⟩ := idx_facts2 t
  funext x
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The root-weight block at every point is the weight array. -/
theorem iblk2_5_eq (c : Dev nD) (t : Fin cfg2.N) :
    (iblk2 V c 5 t : Vec Ideal S128x128 .f32) = (V c (Pipeline.arrRef spec2 5) : S128x128.Idx → EReal) := by
  obtain ⟨-, -, -, -, -, -, -, -, -, -, e0, e1, -⟩ := idx_facts2 t
  funext x
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The one-relation layer of the six arrays as the region finds them. -/
abbrev G2 (c : Dev nD) : Arr 100000 128 :=
  sage1Act (N := 100000) (H := 128) (M := 128) (V c (Pipeline.arrRef spec2 0)) (V c (Pipeline.arrRef spec2 1))
    (V c (Pipeline.arrRef spec2 2)) (V c (Pipeline.arrRef spec2 3)) (V c (Pipeline.arrRef spec2 4)) (V c (Pipeline.arrRef spec2 5))

/-- What point t stores, entry by entry: the layer at the entry's place in the output array. -/
theorem stored2 (c : Dev nD) (t : Fin cfg2.N) (j : S4000x128.Idx) :
    k2_pay1 (iblk2 V c 0 t) (iblk2 V c 1 t) (iblk2 V c 2 t) (iblk2 V c 3 t) (iblk2 V c 5 t) (iblk2 V c 4 t) j
      = G2 V c (((cfg2.win 6).blk t).view.emb j) := by
  obtain ⟨p, q, rfl⟩ : ∃ (p : Fin 4000) (q : Fin 128), j = ix2 p q := ⟨j 0, j 1, eq_ix2 j⟩
  obtain ⟨-, -, -, -, -, -, -, -, -, -, -, -, e0, e1⟩ := idx_facts2 t
  have hN : cfg2.N = 25 := N_2
  have ht : t.val < 25 := hN ▸ t.isLt
  have he : ((cfg2.win 6).blk t).view.emb (ix2 p q)
      = ix2 (n0 := 100000) (n1 := 128) ⟨t.val * 4000 + p.val, by omega⟩ q := by
    funext a
    apply Fin.ext
    match a with
    | ⟨0, _⟩ => show win2_6.index t (0 : Fin 2) * 4000 + 1 * p.val = t.val * 4000 + p.val; rw [e0]; omega
    | ⟨1, _⟩ => show win2_6.index t (1 : Fin 2) * 128 + 1 * q.val = q.val; rw [e1]; omega
  refine (pay2_apply (iblk2 V c 0 t) (iblk2 V c 1 t) (iblk2 V c 2 t) (iblk2 V c 3 t) (iblk2 V c 5 t) (iblk2 V c 4 t) p q).trans ?_
  rw [he, iblk2_3_eq, iblk2_4_eq, iblk2_5_eq]
  unfold G2 sage1Act
  exact congrArg leaky (Cert.SpecRows.sageAt_rows _ _ _ _ _ _ _ _ _ p ⟨t.val * 4000 + p.val, by omega⟩
    (fun k => iblk2_0_apply V c t (ix2 p k) _ rfl rfl) (iblk2_1_apply V c t (ix2 p (0 : Fin 1)) _ rfl rfl)
    (fun k => iblk2_2_apply V c t (ix2 p k) _ rfl rfl) q)

/-- What point t writes back is block t of the layer. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S4000x128) hz, View.ld_unit_zero (S := S4000x1) hz, View.ld_unit_zero (S := S128x128) hz,
    View.ld_unit_zero (S := S1x128) hz]
  funext j
  exact stored2 V c t j

/-- An index of the output array is in point t's block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v49).slice (win2_6.rect t)).set ↔ _
  rw [View.set_slice_whole, Rect.mem_set_unit]
  exact Iff.rfl

/-- Every index of the output array is in the block of the point its row falls in. -/
theorem cover2 (i : S100000x128.Idx) :
    ∃ t : Fin cfg2.N, (cfg2.win 6).flush t = true ∧ i ∈ ((cfg2.win 6).blk t).view.set := by
  have hN : cfg2.N = 25 := N_2
  have h0 : (i 0).val < 100000 := (i 0).isLt
  have h1 : (i 1).val < 128 := (i 1).isLt
  obtain ⟨t, ht⟩ : ∃ t : Fin cfg2.N, t.val = (i 0).val / 4000 := ⟨⟨(i 0).val / 4000, by rw [hN]; omega⟩, rfl⟩
  obtain ⟨-, -, -, -, -, -, -, -, -, -, -, -, e0, e1⟩ := idx_facts2 t
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

/-- The output array after the region: the one-relation layer of the six arrays as the region found them. -/
theorem final2 (c : Dev nD) :
    (dat2 V c).arrAt 6 cfg2.N
      = sage1Act (N := 100000) (H := 128) (M := 128) (V c (Pipeline.arrRef spec2 0)) (V c (Pipeline.arrRef spec2 1))
          (V c (Pipeline.arrRef spec2 2)) (V c (Pipeline.arrRef spec2 3)) (V c (Pipeline.arrRef spec2 4)) (V c (Pipeline.arrRef spec2 5)) :=
  (dat2 V c).arrAt_eq_of_cover 6 (G2 V c) (fun t _ => flushed2_eq V c t) cover2

end Cert.KernelIdeal.RegionValue

end
-- ==== Proof.Pay3.lean ====
/-
  The two-relation hidden layer's block arithmetic at an index. The body computes, for the first relation, the whole
  convolution (agg1·inv1)·wl1 + bl1 + xd·wr1, for the second the neighbour term (agg2·inv2)·wl2, then adds the second
  bias row and the second root term xd·wr2, sums the two relations and applies the leaky rectifier.
-/
import proofs.«178608_j31610959298705_2_alg».proof.Proof.Gen.KernelIdeal.Skeleton
import proofs.«178608_j31610959298705_2_alg».proof.Proof.PayLib

noncomputable section

namespace Cert.KernelIdeal.RegionValue

open Idealize.ShloMosaic Idealize.ShloMosaic.ValueIdx
open Cert.KernelIdeal Cert.KernelIdeal.Gen

/-- The first relation's convolution at (p, q). -/
theorem pay3_4_apply (v0 : Vec Ideal S4000x128 .f32) (v2 : Vec Ideal S4000x1 .f32) (v14 : Vec Ideal S4000x128 .bf16)
    (v16 : Vec Ideal S128x128 .f32) (v19 : Vec Ideal S128x128 .f32) (v29 : Vec Ideal S1x128 .f32)
    (p : Fin 4000) (q : Fin 128) :
    k3_pay4 v0 v2 v14 v16 v19 v29 (ix2 p q)
      = Cert.Spec.sageAt (N := 4000) (H := 128) (M := 128) v0 v2 v14 v16 v29 v19 p q := by
  unfold k3_pay4 k3_pay2 Cert.Spec.sageAt
  exact congrArg₂ (· + ·) (congrArg₂ (· + ·) (scaledLin_apply v0 v2 v16 _ _ _ _ _ p q) (bias128_apply v29 _ _ p q))
    (rootLin_apply v14 v19 _ _ _ p q)

/-- The second relation's neighbour term at (p, q). -/
theorem pay3_5_apply (v6 : Vec Ideal S4000x128 .f32) (v8 : Vec Ideal S4000x1 .f32) (v22 : Vec Ideal S128x128 .f32)
    (p : Fin 4000) (q : Fin 128) :
    k3_pay5 v6 v8 v22 (ix2 p q)
      = Cert.Spec.lin (N := 4000) (K := 128) (M := 128) (Cert.Spec.scaled (N := 4000) (H := 128) v6 v8) v22 p q := by
  unfold k3_pay5
  exact scaledLin_apply v6 v8 v22 _ _ _ _ _ p q

/-- The fourth region's stored block at (p, q). -/
theorem pay3_apply (x0 : Vec Ideal S4000x128 .f32) (x1 : Vec Ideal S4000x1 .f32) (x2 : Vec Ideal S4000x128 .f32)
    (x3 : Vec Ideal S4000x1 .f32) (x4 : Vec Ideal S4000x128 .bf16) (x5 : Vec Ideal S128x128 .f32)
    (x6 : Vec Ideal S1x128 .f32) (x7 : Vec Ideal S128x128 .f32) (x8 : Vec Ideal S128x128 .f32)
    (x9 : Vec Ideal S1x128 .f32) (x10 : Vec Ideal S128x128 .f32) (p : Fin 4000) (q : Fin 128) :
    k3_pay1 (k3_pay2 x4) (k3_pay3 x10) (k3_pay4 x0 x1 x4 x5 x7 x6) (k3_pay5 x2 x3 x8) x9 (ix2 p q)
      = Cert.Spec.sage2Act (N := 4000) (H := 128) (M := 128) x0 x1 x2 x3 x4 x5 x6 x7 x8 x9 x10 (ix2 p q) := by
  unfold k3_pay1
  refine (leaky_apply _ _ (ix2 p q)).trans ?_
  show Cert.Spec.leaky _ = Cert.Spec.leaky (Cert.Spec.sageAt (N := 4000) (H := 128) (M := 128) x0 x1 x4 x5 x6 x7 p q
    + Cert.Spec.sageAt (N := 4000) (H := 128) (M := 128) x2 x3 x4 x8 x9 x10 p q)
  refine congrArg Cert.Spec.leaky (congrArg₂ (· + ·) (pay3_4_apply x0 x1 x4 x5 x7 x6 p q) ?_)
  unfold Cert.Spec.sageAt
  refine congrArg₂ (· + ·) (congrArg₂ (· + ·) (pay3_5_apply x2 x3 x8 p q) (bias128_apply x9 _ _ p q)) ?_
  unfold k3_pay2 k3_pay3
  exact rootLin_apply x4 x10 _ _ _ p q

end Cert.KernelIdeal.RegionValue

end
-- ==== Proof.Region3.lean ====
/-
  The fourth region's output array after its fifty grid points: the two-relation SAGE layer with the leaky
  rectifier. Point t reads rows 4000·t … 4000·t + 3999 of the two arrays of summed neighbour features (200000×128),
  of the two one-column arrays of reciprocal degrees (200000×1) and of the destination features (200000×128), and the
  whole of the four weights and the two bias rows; it writes back rows 4000·t … 4000·t + 3999 of the 200000×128
  output. Each output entry depends on its own row of the five row operands only, and the fifty row blocks tile the
  output.
-/
import proofs.«178608_j31610959298705_2_alg».proof.Proof.Gen.KernelIdeal.Frame
import proofs.«178608_j31610959298705_2_alg».proof.Proof.Pay3
import proofs.«178608_j31610959298705_2_alg».proof.Proof.SpecRows
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps over the grid: the five row operands and the output move with the point along the rows; the
    weights and the bias rows stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = t.val ∧ win3_11.index t (1 : Fin 2) = 0 :=
  (by decide +kernel : ∀ t : Fin grid3.N, _)

/-- The first relation's block of summed neighbour features at point t is rows 4000·t … of its array. -/
theorem iblk3_0_apply (c : Dev nD) (t : Fin cfg3.N) (x : S4000x128.Idx) (i : S200000x128.Idx)
    (h0 : (i 0).val = t.val * 4000 + (x 0).val) (h1 : (i 1).val = (x 1).val) :
    (iblk3 V c 0 t : Vec Ideal S4000x128 .f32) x = (V c (Pipeline.arrRef spec3 0) : S200000x128.Idx → EReal) i := by
  obtain ⟨e0, e1, -⟩ := idx_facts3 t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 4000 + 1 * (x 0).val = (i 0).val; rw [e0, h0]; omega
  | ⟨1, _⟩ => show win3_0.index t (1 : Fin 2) * 128 + 1 * (x 1).val = (i 1).val; rw [e1, h1]; omega

/-- The first relation's block of reciprocal degrees at point t is rows 4000·t … of its one-column array. -/
theorem iblk3_1_apply (c : Dev nD) (t : Fin cfg3.N) (x : S4000x1.Idx) (i : S200000x1.Idx)
    (h0 : (i 0).val = t.val * 4000 + (x 0).val) (h1 : (i 1).val = (x 1).val) :
    (iblk3 V c 1 t : Vec Ideal S4000x1 .f32) x = (V c (Pipeline.arrRef spec3 1) : S200000x1.Idx → EReal) i := by
  obtain ⟨-, -, e0, e1, -⟩ := idx_facts3 t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 4000 + 1 * (x 0).val = (i 0).val; rw [e0, h0]; omega
  | ⟨1, _⟩ => show win3_1.index t (1 : Fin 2) * 1 + 1 * (x 1).val = (i 1).val; rw [e1, h1]; omega

/-- The second relation's block of summed neighbour features at point t is rows 4000·t … of its array. -/
theorem iblk3_2_apply (c : Dev nD) (t : Fin cfg3.N) (x : S4000x128.Idx) (i : S200000x128.Idx)
    (h0 : (i 0).val = t.val * 4000 + (x 0).val) (h1 : (i 1).val = (x 1).val) :
    (iblk3 V c 2 t : Vec Ideal S4000x128 .f32) x = (V c (Pipeline.arrRef spec3 2) : S200000x128.Idx → EReal) i := by
  obtain ⟨-, -, -, -, e0, e1, -⟩ := idx_facts3 t
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 4000 + 1 * (x 0).val = (i 0).val; rw [e0, h0]; omega
  | ⟨1, _⟩ => show win3_2.index t (1 : Fin 2) * 128 + 1 * (x 1).val = (i 1).val; rw [e1, h1]; omega

/-- The second relation's block of reciprocal degrees at point t is rows 4000·t … of its one-column array. -/
theorem iblk3_3_apply (c : Dev nD) (t : Fin cfg3.N) (x : S4000x1.Idx) (i : S200000x1.Idx)
    (h0 : (i 0).val = t.val * 4000 + (x 0).val) (h1 : (i 1).val = (x 1).val) :
    (iblk3 V c 3 t : Vec Ideal S4000x1 .f32) x = (V c (Pipeline.arrRef spec3 3) : S200000x1.Idx → EReal) i := by
  obtain ⟨-, -, -, -, -, -, e0, e1, -⟩ := idx_facts3 t
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 4000 + 1 * (x 0).val = (i 0).val; rw [e0, h0]; omega
  | ⟨1, _⟩ => show win3_3.index t (1 : Fin 2) * 1 + 1 * (x 1).val = (i 1).val; rw [e1, h1]; omega

/-- The block of destination features at point t is rows 4000·t … of its array. -/
theorem iblk3_4_apply (c : Dev nD) (t : Fin cfg3.N) (x : S4000x128.Idx) (i : S200000x128.Idx)
    (h0 : (i 0).val = t.val * 4000 + (x 0).val) (h1 : (i 1).val = (x 1).val) :
    (iblk3 V c 4 t : Vec Ideal S4000x128 .bf16) x = (V c (Pipeline.arrRef spec3 4) : S200000x128.Idx → EReal) i := by
  obtain ⟨-, -, -, -, -, -, -, -, e0, e1, -⟩ := idx_facts3 t
  unfold iblk3
  rw [View.read_apply]
  show V c (Pipeline.arrRef spec3 4) _ = V c (Pipeline.arrRef spec3 4) _
  refine congrArg _ (funext fun a => Fin.ext ?_)
  match a with
  | ⟨0, _⟩ => show win3_4.index t (0 : Fin 2) * 4000 + 1 * (x 0).val = (i 0).val; rw [e0, h0]; omega
  | ⟨1, _⟩ => show win3_4.index t (1 : Fin 2) * 128 + 1 * (x 1).val = (i 1).val; rw [e1, h1]; omega

/-- The first neighbour-weight block at every point is its array. -/
theorem iblk3_5_eq (c : Dev nD) (t : Fin cfg3.N) :
    (iblk3 V c 5 t : Vec Ideal S128x128 .f32) = (V c (Pipeline.arrRef spec3 5) : S128x128.Idx → EReal) := by
  obtain ⟨-, -, -, -, -, -, -, -, -, -, e0, e1, -⟩ := idx_facts3 t
  funext x
  unfold iblk3
  rw [View.read_apply]
  show V c (Pipeline.arrRef spec3 5) _ = V c (Pipeline.arrRef spec3 5) _
  refine congrArg _ (funext fun a => Fin.ext ?_)
  match a with
  | ⟨0, _⟩ => show win3_5.index t (0 : Fin 2) * 128 + 1 * (x 0).val = (x 0).val; rw [e0]; omega
  | ⟨1, _⟩ => show win3_5.index t (1 : Fin 2) * 128 + 1 * (x 1).val = (x 1).val; rw [e1]; omega

/-- The first bias block at every point is its row. -/
theorem iblk3_6_eq (c : Dev nD) (t : Fin cfg3.N) :
    (iblk3 V c 6 t : Vec Ideal S1x128 .f32) = (V c (Pipeline.arrRef spec3 6) : S1x128.Idx → EReal) := by
  obtain ⟨-, -, -, -, -, -, -, -, -, -, -, -, e0, e1, -⟩ := idx_facts3 t
  funext x
  unfold iblk3
  rw [View.read_apply]
  show V c (Pipeline.arrRef spec3 6) _ = V c (Pipeline.arrRef spec3 6) _
  refine congrArg _ (funext fun a => Fin.ext ?_)
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-- The first root-weight block at every point is its array. -/
theorem iblk3_7_eq (c : Dev nD) (t : Fin cfg3.N) :
    (iblk3 V c 7 t : Vec Ideal S128x128 .f32) = (V c (Pipeline.arrRef spec3 7) : S128x128.Idx → EReal) := by
  obtain ⟨-, -, -, -, -, -, -, -, -, -, -, -, -, -, e0, e1, -⟩ := idx_facts3 t
  funext x
  unfold iblk3
  rw [View.read_apply]
  show V c (Pipeline.arrRef spec3 7) _ = V c (Pipeline.arrRef spec3 7) _
  refine congrArg _ (funext fun a => Fin.ext ?_)
  match a with
  | ⟨0, _⟩ => show win3_7.index t (0 : Fin 2) * 128 + 1 * (x 0).val = (x 0).val; rw [e0]; omega
  | ⟨1, _⟩ => show win3_7.index t (1 : Fin 2) * 128 + 1 * (x 1).val = (x 1).val; rw [e1]; omega

/-- The second neighbour-weight block at every point is its array. -/
theorem iblk3_8_eq (c : Dev nD) (t : Fin cfg3.N) :
    (iblk3 V c 8 t : Vec Ideal S128x128 .f32) = (V c (Pipeline.arrRef spec3 8) : S128x128.Idx → EReal) := by
  obtain ⟨-, -, -, -, -, -, -, -, -, -, -, -, -, -, -, -, e0, e1, -⟩ := idx_facts3 t
  funext x
  unfold iblk3
  rw [View.read_apply]
  show V c (Pipeline.arrRef spec3 8) _ = V c (Pipeline.arrRef spec3 8) _
  refine congrArg _ (funext fun a => Fin.ext ?_)
  match a with
  | ⟨0, _⟩ => show win3_8.index t (0 : Fin 2) * 128 + 1 * (x 0).val = (x 0).val; rw [e0]; omega
  | ⟨1, _⟩ => show win3_8.index t (1 : Fin 2) * 128 + 1 * (x 1).val = (x 1).val; rw [e1]; omega

/-- The second bias block at every point is its row. -/
theorem iblk3_9_eq (c : Dev nD) (t : Fin cfg3.N) :
    (iblk3 V c 9 t : Vec Ideal S1x128 .f32) = (V c (Pipeline.arrRef spec3 9) : S1x128.Idx → EReal) := by
  obtain ⟨-, -, -, -, -, -, -, -, -, -, -, -, -, -, -, -, -, -, e0, e1, -⟩ := idx_facts3 t
  funext x
  unfold iblk3
  rw [View.read_apply]
  show V c (Pipeline.arrRef spec3 9) _ = V c (Pipeline.arrRef spec3 9) _
  refine congrArg _ (funext fun a => Fin.ext ?_)
  match a with
  | ⟨0, _⟩ => show win3_9.index t (0 : Fin 2) * 1 + 1 * (x 0).val = (x 0).val; rw [e0]; omega
  | ⟨1, _⟩ => show win3_9.index t (1 : Fin 2) * 128 + 1 * (x 1).val = (x 1).val; rw [e1]; omega

/-- The second root-weight block at every point is its array. -/
theorem iblk3_10_eq (c : Dev nD) (t : Fin cfg3.N) :
    (iblk3 V c 10 t : Vec Ideal S128x128 .f32) = (V c (Pipeline.arrRef spec3 10) : S128x128.Idx → EReal) := by
  obtain ⟨-, -, -, -, -, -, -, -, -, -, -, -, -, -, -, -, -, -, -, -, e0, e1, -⟩ := idx_facts3 t
  funext x
  unfold iblk3
  rw [View.read_apply]
  show V c (Pipeline.arrRef spec3 10) _ = V c (Pipeline.arrRef spec3 10) _
  refine congrArg _ (funext fun a => Fin.ext ?_)
  match a with
  | ⟨0, _⟩ => show win3_10.index t (0 : Fin 2) * 128 + 1 * (x 0).val = (x 0).val; rw [e0]; omega
  | ⟨1, _⟩ => show win3_10.index t (1 : Fin 2) * 128 + 1 * (x 1).val = (x 1).val; rw [e1]; omega

/-- The two-relation layer of the eleven arrays as the region finds them. -/
abbrev G3 (c : Dev nD) : Arr 200000 128 :=
  sage2Act (N := 200000) (H := 128) (M := 128) (V c (Pipeline.arrRef spec3 0)) (V c (Pipeline.arrRef spec3 1))
    (V c (Pipeline.arrRef spec3 2)) (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8)) (V c (Pipeline.arrRef spec3 9))
    (V c (Pipeline.arrRef spec3 10))

/-- What point t stores, entry by entry: the layer at the entry's place in the output array. -/
theorem stored3 (c : Dev nD) (t : Fin cfg3.N) (j : S4000x128.Idx) :
    k3_pay1 (k3_pay2 (iblk3 V c 4 t)) (k3_pay3 (iblk3 V c 10 t))
        (k3_pay4 (iblk3 V c 0 t) (iblk3 V c 1 t) (iblk3 V c 4 t) (iblk3 V c 5 t) (iblk3 V c 7 t) (iblk3 V c 6 t))
        (k3_pay5 (iblk3 V c 2 t) (iblk3 V c 3 t) (iblk3 V c 8 t)) (iblk3 V c 9 t) j
      = G3 V c (((cfg3.win 11).blk t).view.emb j) := by
  obtain ⟨p, q, rfl⟩ : ∃ (p : Fin 4000) (q : Fin 128), j = ix2 p q := ⟨j 0, j 1, eq_ix2 j⟩
  obtain ⟨-, -, -, -, -, -, -, -, -, -, -, -, -, -, -, -, -, -, -, -, -, -, e0, e1⟩ := idx_facts3 t
  have hN : cfg3.N = 50 := N_3
  have ht : t.val < 50 := hN ▸ t.isLt
  have he : ((cfg3.win 11).blk t).view.emb (ix2 p q)
      = ix2 (n0 := 200000) (n1 := 128) ⟨t.val * 4000 + p.val, by omega⟩ q := by
    funext a
    apply Fin.ext
    match a with
    | ⟨0, _⟩ => show win3_11.index t (0 : Fin 2) * 4000 + 1 * p.val = t.val * 4000 + p.val; rw [e0]; omega
    | ⟨1, _⟩ => show win3_11.index t (1 : Fin 2) * 128 + 1 * q.val = q.val; rw [e1]; omega
  refine (pay3_apply (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) p q).trans ?_
  rw [he, iblk3_5_eq, iblk3_6_eq, iblk3_7_eq, iblk3_8_eq, iblk3_9_eq, iblk3_10_eq]
  unfold G3 sage2Act
  exact congrArg leaky (Cert.SpecRows.sage2At_rows _ _ _ _ _ _ _ _ _ _ _ _ _ _ _ _ p ⟨t.val * 4000 + p.val, by omega⟩
    (fun k => iblk3_0_apply V c t (ix2 p k) _ rfl rfl) (iblk3_1_apply V c t (ix2 p (0 : Fin 1)) _ rfl rfl)
    (fun k => iblk3_2_apply V c t (ix2 p k) _ rfl rfl) (iblk3_3_apply V c t (ix2 p (0 : Fin 1)) _ rfl rfl)
    (fun k => iblk3_4_apply V c t (ix2 p k) _ rfl rfl) q)

/-- What point t writes back is block t of the layer. -/
theorem flushed3_eq (c : Dev nD) (t : Fin cfg3.N) :
    (dat3 V c).flushed 11 t = ((cfg3.win 11).blk t).view.read (Elt Ideal) (G3 V c) := by
  show (cfg3.win 11).cut (grid3.coords t) ((dat3 V c).after 11 t) = _
  rw [after3_11]
  unfold out3_11
  rw [View.canon_unit_zero hz]
  simp only [View.ld_unit_zero (S := S4000x128) hz, View.ld_unit_zero (S := S4000x1) hz, View.ld_unit_zero (S := S128x128) hz,
    View.ld_unit_zero (S := S1x128) hz]
  funext j
  exact stored3 V c t j

/-- An index of the output array is in point t's block iff each coordinate is in the block's range on its axis. -/
theorem mem_blk3 (t : Fin cfg3.N) (i : S200000x128.Idx) :
    i ∈ ((cfg3.win 11).blk t).view.set ↔ ∀ a : Fin 2, win3_11.index t a * S4000x128.size a ≤ (i a).val ∧ (i a).val < win3_11.index t a * S4000x128.size a + S4000x128.size a := by
  show i ∈ ((View.whole main_v86).slice (win3_11.rect t)).set ↔ _
  rw [View.set_slice_whole, Rect.mem_set_unit]
  exact Iff.rfl

/-- Every index of the output array is in the block of the point its row falls in. -/
theorem cover3 (i : S200000x128.Idx) :
    ∃ t : Fin cfg3.N, (cfg3.win 11).flush t = true ∧ i ∈ ((cfg3.win 11).blk t).view.set := by
  have hN : cfg3.N = 50 := N_3
  have h0 : (i 0).val < 200000 := (i 0).isLt
  have h1 : (i 1).val < 128 := (i 1).isLt
  obtain ⟨t, ht⟩ : ∃ t : Fin cfg3.N, t.val = (i 0).val / 4000 := ⟨⟨(i 0).val / 4000, by rw [hN]; omega⟩, rfl⟩
  obtain ⟨-, -, -, -, -, -, -, -, -, -, -, -, -, -, -, -, -, -, -, -, -, -, e0, e1⟩ := idx_facts3 t
  refine ⟨t, flush3_11 t, ?_⟩
  rw [mem_blk3]
  intro a
  match a with
  | ⟨0, _⟩ => show win3_11.index t (0 : Fin 2) * 4000 ≤ (i 0).val ∧ (i 0).val < win3_11.index t (0 : Fin 2) * 4000 + 4000; rw [e0, ht]; omega
  | ⟨1, _⟩ => show win3_11.index t (1 : Fin 2) * 128 ≤ (i 1).val ∧ (i 1).val < win3_11.index t (1 : Fin 2) * 128 + 128; rw [e1]; omega

/-- The output array after the region: the two-relation layer of the eleven arrays as the region found them. -/
theorem final3 (c : Dev nD) :
    (dat3 V c).arrAt 11 cfg3.N
      = sage2Act (N := 200000) (H := 128) (M := 128) (V c (Pipeline.arrRef spec3 0)) (V c (Pipeline.arrRef spec3 1))
          (V c (Pipeline.arrRef spec3 2)) (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8)) (V c (Pipeline.arrRef spec3 9))
          (V c (Pipeline.arrRef spec3 10)) :=
  (dat3 V c).arrAt_eq_of_cover 11 (G3 V c) (fun t _ => flushed3_eq V c t) cover3

end Cert.KernelIdeal.RegionValue

end
-- ==== Proof.Pay4.lean ====
/-
  The last layer's block arithmetic at an index. The body computes the two-relation sum as in the hidden layer,
  without the rectifier, and feeds it to the output projection: entry (p, q) of the stored 4000×16 block is row p of
  the two-relation sum against column q of the 128×16 output weight, plus the output bias row at q.
-/
import proofs.«178608_j31610959298705_2_alg».proof.Proof.Gen.KernelIdeal.Skeleton
import proofs.«178608_j31610959298705_2_alg».proof.Proof.PayLib

noncomputable section

namespace Cert.KernelIdeal.RegionValue

open Idealize.ShloMosaic Idealize.ShloMosaic.ValueIdx
open Cert.KernelIdeal Cert.KernelIdeal.Gen

/-- The first relation's convolution at (p, k). -/
theorem pay4_4_apply (v0 : Vec Ideal S4000x128 .f32) (v2 : Vec Ideal S4000x1 .f32) (v14 : Vec Ideal S4000x128 .bf16)
    (v16 : Vec Ideal S128x128 .f32) (v19 : Vec Ideal S128x128 .f32) (v29 : Vec Ideal S1x128 .f32)
    (p : Fin 4000) (q : Fin 128) :
    k4_pay4 v0 v2 v14 v16 v19 v29 (ix2 p q)
      = Cert.Spec.sageAt (N := 4000) (H := 128) (M := 128) v0 v2 v14 v16 v29 v19 p q := by
  unfold k4_pay4 k4_pay2 Cert.Spec.sageAt
  exact congrArg₂ (· + ·) (congrArg₂ (· + ·) (scaledLin_apply v0 v2 v16 _ _ _ _ _ p q) (bias128_apply v29 _ _ p q))
    (rootLin_apply v14 v19 _ _ _ p q)

/-- The second relation's neighbour term at (p, k). -/
theorem pay4_5_apply (v6 : Vec Ideal S4000x128 .f32) (v8 : Vec Ideal S4000x1 .f32) (v22 : Vec Ideal S128x128 .f32)
    (p : Fin 4000) (q : Fin 128) :
    k4_pay5 v6 v8 v22 (ix2 p q)
      = Cert.Spec.lin (N := 4000) (K := 128) (M := 128) (Cert.Spec.scaled (N := 4000) (H := 128) v6 v8) v22 p q := by
  unfold k4_pay5
  exact scaledLin_apply v6 v8 v22 _ _ _ _ _ p q

/-- The fifth region's stored block at (p, q). -/
theorem pay4_apply (x0 : Vec Ideal S4000x128 .f32) (x1 : Vec Ideal S4000x1 .f32) (x2 : Vec Ideal S4000x128 .f32)
    (x3 : Vec Ideal S4000x1 .f32) (x4 : Vec Ideal S4000x128 .bf16) (x5 : Vec Ideal S128x128 .f32)
    (x6 : Vec Ideal S1x128 .f32) (x7 : Vec Ideal S128x128 .f32) (x8 : Vec Ideal S128x128 .f32)
    (x9 : Vec Ideal S1x128 .f32) (x10 : Vec Ideal S128x128 .f32) (x11 : Vec Ideal S128x16 .f32)
    (x12 : Vec Ideal S1x16 .f32) (p : Fin 4000) (q : Fin 16) :
    k4_pay1 (k4_pay2 x4) (k4_pay3 x10) (k4_pay4 x0 x1 x4 x5 x7 x6) (k4_pay5 x2 x3 x8) x9 x11 x12 (ix2 p q)
      = Cert.Spec.sage2Head (N := 4000) (H := 128) (M := 128) (O := 16) x0 x1 x2 x3 x4 x5 x6 x7 x8 x9 x10 x11 x12 (ix2 p q) := by
  unfold k4_pay1 Cert.Spec.sage2Head
  rw [Cert.Spec.dense_ix2]
  unfold Cert.Spec.lin
  refine congrArg₂ (· + ·) ((matmul16_apply _ _ p q).trans (Finset.sum_congr rfl fun k _ => congrArg₂ (· * ·) ?_ rfl))
    (bias16_apply x12 _ _ p q)
  show _ = Cert.Spec.sageAt (N := 4000) (H := 128) (M := 128) x0 x1 x4 x5 x6 x7 p k
    + Cert.Spec.sageAt (N := 4000) (H := 128) (M := 128) x2 x3 x4 x8 x9 x10 p k
  refine congrArg₂ (· + ·) (pay4_4_apply x0 x1 x4 x5 x7 x6 p k) ?_
  unfold Cert.Spec.sageAt
  refine congrArg₂ (· + ·) (congrArg₂ (· + ·) (pay4_5_apply x2 x3 x8 p k) (bias128_apply x9 _ _ p k)) ?_
  unfold k4_pay2 k4_pay3
  exact rootLin_apply x4 x10 _ _ _ p k

end Cert.KernelIdeal.RegionValue

end
-- ==== Proof.Region4.lean ====
/-
  The fifth region's output array after its fifty grid points: the last two-relation SAGE layer, without the
  rectifier, fed to the output projection. Point t reads rows 4000·t … 4000·t + 3999 of the two arrays of summed
  neighbour features (200000×128), of the two one-column arrays of reciprocal degrees (200000×1) and of the
  destination features (200000×128), and the whole of the four layer weights, the two bias rows, the 128×16 output
  weight and the output bias row; it writes back rows 4000·t … 4000·t + 3999 of the 200000×16 output. Each output
  entry depends on its own row of the five row operands only, and the fifty row blocks tile the output.
-/
import proofs.«178608_j31610959298705_2_alg».proof.Proof.Gen.KernelIdeal.Frame
import proofs.«178608_j31610959298705_2_alg».proof.Proof.Pay4
import proofs.«178608_j31610959298705_2_alg».proof.Proof.SpecRows
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The index maps over the grid: the five row operands and the output move with the point along the rows; the
    weights and the bias rows stay at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = t.val ∧ win4_13.index t (1 : Fin 2) = 0 :=
  (by decide +kernel : ∀ t : Fin grid4.N, _)

/-- The first relation's block of summed neighbour features at point t is rows 4000·t … of its array. -/
theorem iblk4_0_apply (c : Dev nD) (t : Fin cfg4.N) (x : S4000x128.Idx) (i : S200000x128.Idx)
    (h0 : (i 0).val = t.val * 4000 + (x 0).val) (h1 : (i 1).val = (x 1).val) :
    (iblk4 V c 0 t : Vec Ideal S4000x128 .f32) x = (V c (Pipeline.arrRef spec4 0) : S200000x128.Idx → EReal) i := by
  obtain ⟨e0, e1, -⟩ := idx_facts4 t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 4000 + 1 * (x 0).val = (i 0).val; rw [e0, h0]; omega
  | ⟨1, _⟩ => show win4_0.index t (1 : Fin 2) * 128 + 1 * (x 1).val = (i 1).val; rw [e1, h1]; omega

/-- The first relation's block of reciprocal degrees at point t is rows 4000·t … of its one-column array. -/
theorem iblk4_1_apply (c : Dev nD) (t : Fin cfg4.N) (x : S4000x1.Idx) (i : S200000x1.Idx)
    (h0 : (i 0).val = t.val * 4000 + (x 0).val) (h1 : (i 1).val = (x 1).val) :
    (iblk4 V c 1 t : Vec Ideal S4000x1 .f32) x = (V c (Pipeline.arrRef spec4 1) : S200000x1.Idx → EReal) i := by
  obtain ⟨-, -, e0, e1, -⟩ := idx_facts4 t
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 4000 + 1 * (x 0).val = (i 0).val; rw [e0, h0]; omega
  | ⟨1, _⟩ => show win4_1.index t (1 : Fin 2) * 1 + 1 * (x 1).val = (i 1).val; rw [e1, h1]; omega

/-- The second relation's block of summed neighbour features at point t is rows 4000·t … of its array. -/
theorem iblk4_2_apply (c : Dev nD) (t : Fin cfg4.N) (x : S4000x128.Idx) (i : S200000x128.Idx)
    (h0 : (i 0).val = t.val * 4000 + (x 0).val) (h1 : (i 1).val = (x 1).val) :
    (iblk4 V c 2 t : Vec Ideal S4000x128 .f32) x = (V c (Pipeline.arrRef spec4 2) : S200000x128.Idx → EReal) i := by
  obtain ⟨-, -, -, -, e0, e1, -⟩ := idx_facts4 t
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 4000 + 1 * (x 0).val = (i 0).val; rw [e0, h0]; omega
  | ⟨1, _⟩ => show win4_2.index t (1 : Fin 2) * 128 + 1 * (x 1).val = (i 1).val; rw [e1, h1]; omega

/-- The second relation's block of reciprocal degrees at point t is rows 4000·t … of its one-column array. -/
theorem iblk4_3_apply (c : Dev nD) (t : Fin cfg4.N) (x : S4000x1.Idx) (i : S200000x1.Idx)
    (h0 : (i 0).val = t.val * 4000 + (x 0).val) (h1 : (i 1).val = (x 1).val) :
    (iblk4 V c 3 t : Vec Ideal S4000x1 .f32) x = (V c (Pipeline.arrRef spec4 3) : S200000x1.Idx → EReal) i := by
  obtain ⟨-, -, -, -, -, -, e0, e1, -⟩ := idx_facts4 t
  unfold iblk4
  rw [View.read_apply]
  show V c (Pipeline.arrRef spec4 3) _ = V c (Pipeline.arrRef spec4 3) _
  refine congrArg _ (funext fun a => Fin.ext ?_)
  match a with
  | ⟨0, _⟩ => show win4_3.index t (0 : Fin 2) * 4000 + 1 * (x 0).val = (i 0).val; rw [e0, h0]; omega
  | ⟨1, _⟩ => show win4_3.index t (1 : Fin 2) * 1 + 1 * (x 1).val = (i 1).val; rw [e1, h1]; omega

/-- The block of destination features at point t is rows 4000·t … of its array. -/
theorem iblk4_4_apply (c : Dev nD) (t : Fin cfg4.N) (x : S4000x128.Idx) (i : S200000x128.Idx)
    (h0 : (i 0).val = t.val * 4000 + (x 0).val) (h1 : (i 1).val = (x 1).val) :
    (iblk4 V c 4 t : Vec Ideal S4000x128 .bf16) x = (V c (Pipeline.arrRef spec4 4) : S200000x128.Idx → EReal) i := by
  obtain ⟨-, -, -, -, -, -, -, -, e0, e1, -⟩ := idx_facts4 t
  unfold iblk4
  rw [View.read_apply]
  show V c (Pipeline.arrRef spec4 4) _ = V c (Pipeline.arrRef spec4 4) _
  refine congrArg _ (funext fun a => Fin.ext ?_)
  match a with
  | ⟨0, _⟩ => show win4_4.index t (0 : Fin 2) * 4000 + 1 * (x 0).val = (i 0).val; rw [e0, h0]; omega
  | ⟨1, _⟩ => show win4_4.index t (1 : Fin 2) * 128 + 1 * (x 1).val = (i 1).val; rw [e1, h1]; omega

/-- The first neighbour-weight block at every point is its array. -/
theorem iblk4_5_eq (c : Dev nD) (t : Fin cfg4.N) :
    (iblk4 V c 5 t : Vec Ideal S128x128 .f32) = (V c (Pipeline.arrRef spec4 5) : S128x128.Idx → EReal) := by
  obtain ⟨-, -, -, -, -, -, -, -, -, -, e0, e1, -⟩ := idx_facts4 t
  funext x
  unfold iblk4
  rw [View.read_apply]
  show V c (Pipeline.arrRef spec4 5) _ = V c (Pipeline.arrRef spec4 5) _
  refine congrArg _ (funext fun a => Fin.ext ?_)
  match a with
  | ⟨0, _⟩ => show win4_5.index t (0 : Fin 2) * 128 + 1 * (x 0).val = (x 0).val; rw [e0]; omega
  | ⟨1, _⟩ => show win4_5.index t (1 : Fin 2) * 128 + 1 * (x 1).val = (x 1).val; rw [e1]; omega

/-- The first bias block at every point is its row. -/
theorem iblk4_6_eq (c : Dev nD) (t : Fin cfg4.N) :
    (iblk4 V c 6 t : Vec Ideal S1x128 .f32) = (V c (Pipeline.arrRef spec4 6) : S1x128.Idx → EReal) := by
  obtain ⟨-, -, -, -, -, -, -, -, -, -, -, -, e0, e1, -⟩ := idx_facts4 t
  funext x
  unfold iblk4
  rw [View.read_apply]
  show V c (Pipeline.arrRef spec4 6) _ = V c (Pipeline.arrRef spec4 6) _
  refine congrArg _ (funext fun a => Fin.ext ?_)
  match a with
  | ⟨0, _⟩ => show win4_6.index t (0 : Fin 2) * 1 + 1 * (x 0).val = (x 0).val; rw [e0]; omega
  | ⟨1, _⟩ => show win4_6.index t (1 : Fin 2) * 128 + 1 * (x 1).val = (x 1).val; rw [e1]; omega

/-- The first root-weight block at every point is its array. -/
theorem iblk4_7_eq (c : Dev nD) (t : Fin cfg4.N) :
    (iblk4 V c 7 t : Vec Ideal S128x128 .f32) = (V c (Pipeline.arrRef spec4 7) : S128x128.Idx → EReal) := by
  obtain ⟨-, -, -, -, -, -, -, -, -, -, -, -, -, -, e0, e1, -⟩ := idx_facts4 t
  funext x
  unfold iblk4
  rw [View.read_apply]
  show V c (Pipeline.arrRef spec4 7) _ = V c (Pipeline.arrRef spec4 7) _
  refine congrArg _ (funext fun a => Fin.ext ?_)
  match a with
  | ⟨0, _⟩ => show win4_7.index t (0 : Fin 2) * 128 + 1 * (x 0).val = (x 0).val; rw [e0]; omega
  | ⟨1, _⟩ => show win4_7.index t (1 : Fin 2) * 128 + 1 * (x 1).val = (x 1).val; rw [e1]; omega

/-- The second neighbour-weight block at every point is its array. -/
theorem iblk4_8_eq (c : Dev nD) (t : Fin cfg4.N) :
    (iblk4 V c 8 t : Vec Ideal S128x128 .f32) = (V c (Pipeline.arrRef spec4 8) : S128x128.Idx → EReal) := by
  obtain ⟨-, -, -, -, -, -, -, -, -, -, -, -, -, -, -, -, e0, e1, -⟩ := idx_facts4 t
  funext x
  unfold iblk4
  rw [View.read_apply]
  show V c (Pipeline.arrRef spec4 8) _ = V c (Pipeline.arrRef spec4 8) _
  refine congrArg _ (funext fun a => Fin.ext ?_)
  match a with
  | ⟨0, _⟩ => show win4_8.index t (0 : Fin 2) * 128 + 1 * (x 0).val = (x 0).val; rw [e0]; omega
  | ⟨1, _⟩ => show win4_8.index t (1 : Fin 2) * 128 + 1 * (x 1).val = (x 1).val; rw [e1]; omega

/-- The second bias block at every point is its row. -/
theorem iblk4_9_eq (c : Dev nD) (t : Fin cfg4.N) :
    (iblk4 V c 9 t : Vec Ideal S1x128 .f32) = (V c (Pipeline.arrRef spec4 9) : S1x128.Idx → EReal) := by
  obtain ⟨-, -, -, -, -, -, -, -, -, -, -, -, -, -, -, -, -, -, e0, e1, -⟩ := idx_facts4 t
  funext x
  unfold iblk4
  rw [View.read_apply]
  show V c (Pipeline.arrRef spec4 9) _ = V c (Pipeline.arrRef spec4 9) _
  refine congrArg _ (funext fun a => Fin.ext ?_)
  match a with
  | ⟨0, _⟩ => show win4_9.index t (0 : Fin 2) * 1 + 1 * (x 0).val = (x 0).val; rw [e0]; omega
  | ⟨1, _⟩ => show win4_9.index t (1 : Fin 2) * 128 + 1 * (x 1).val = (x 1).val; rw [e1]; omega

/-- The second root-weight block at every point is its array. -/
theorem iblk4_10_eq (c : Dev nD) (t : Fin cfg4.N) :
    (iblk4 V c 10 t : Vec Ideal S128x128 .f32) = (V c (Pipeline.arrRef spec4 10) : S128x128.Idx → EReal) := by
  obtain ⟨-, -, -, -, -, -, -, -, -, -, -, -, -, -, -, -, -, -, -, -, e0, e1, -⟩ := idx_facts4 t
  funext x
  unfold iblk4
  rw [View.read_apply]
  show V c (Pipeline.arrRef spec4 10) _ = V c (Pipeline.arrRef spec4 10) _
  refine congrArg _ (funext fun a => Fin.ext ?_)
  match a with
  | ⟨0, _⟩ => show win4_10.index t (0 : Fin 2) * 128 + 1 * (x 0).val = (x 0).val; rw [e0]; omega
  | ⟨1, _⟩ => show win4_10.index t (1 : Fin 2) * 128 + 1 * (x 1).val = (x 1).val; rw [e1]; omega

/-- The output-weight block at every point is its array. -/
theorem iblk4_11_eq (c : Dev nD) (t : Fin cfg4.N) :
    (iblk4 V c 11 t : Vec Ideal S128x16 .f32) = (V c (Pipeline.arrRef spec4 11) : S128x16.Idx → EReal) := by
  obtain ⟨-, -, -, -, -, -, -, -, -, -, -, -, -, -, -, -, -, -, -, -, -, -, e0, e1, -⟩ := idx_facts4 t
  funext x
  unfold iblk4
  rw [View.read_apply]
  show V c (Pipeline.arrRef spec4 11) _ = V c (Pipeline.arrRef spec4 11) _
  refine congrArg _ (funext fun a => Fin.ext ?_)
  match a with
  | ⟨0, _⟩ => show win4_11.index t (0 : Fin 2) * 128 + 1 * (x 0).val = (x 0).val; rw [e0]; omega
  | ⟨1, _⟩ => show win4_11.index t (1 : Fin 2) * 16 + 1 * (x 1).val = (x 1).val; rw [e1]; omega

/-- The output-bias block at every point is its row. -/
theorem iblk4_12_eq (c : Dev nD) (t : Fin cfg4.N) :
    (iblk4 V c 12 t : Vec Ideal S1x16 .f32) = (V c (Pipeline.arrRef spec4 12) : S1x16.Idx → EReal) := by
  obtain ⟨-, -, -, -, -, -, -, -, -, -, -, -, -, -, -, -, -, -, -, -, -, -, -, -, e0, e1, -⟩ := idx_facts4 t
  funext x
  unfold iblk4
  rw [View.read_apply]
  show V c (Pipeline.arrRef spec4 12) _ = V c (Pipeline.arrRef spec4 12) _
  refine congrArg _ (funext fun a => Fin.ext ?_)
  match a with
  | ⟨0, _⟩ => show win4_12.index t (0 : Fin 2) * 1 + 1 * (x 0).val = (x 0).val; rw [e0]; omega
  | ⟨1, _⟩ => show win4_12.index t (1 : Fin 2) * 16 + 1 * (x 1).val = (x 1).val; rw [e1]; omega

/-- The last layer and the output projection of the thirteen arrays as the region finds them. -/
abbrev G4 (c : Dev nD) : Arr 200000 16 :=
  sage2Head (N := 200000) (H := 128) (M := 128) (O := 16) (V c (Pipeline.arrRef spec4 0)) (V c (Pipeline.arrRef spec4 1))
    (V c (Pipeline.arrRef spec4 2)) (V c (Pipeline.arrRef spec4 3)) (V c (Pipeline.arrRef spec4 4)) (V c (Pipeline.arrRef spec4 5))
    (V c (Pipeline.arrRef spec4 6)) (V c (Pipeline.arrRef spec4 7)) (V c (Pipeline.arrRef spec4 8)) (V c (Pipeline.arrRef spec4 9))
    (V c (Pipeline.arrRef spec4 10)) (V c (Pipeline.arrRef spec4 11)) (V c (Pipeline.arrRef spec4 12))

/-- What point t stores, entry by entry: the projected layer at the entry's place in the output array. -/
theorem stored4 (c : Dev nD) (t : Fin cfg4.N) (j : S4000x16.Idx) :
    k4_pay1 (k4_pay2 (iblk4 V c 4 t)) (k4_pay3 (iblk4 V c 10 t))
        (k4_pay4 (iblk4 V c 0 t) (iblk4 V c 1 t) (iblk4 V c 4 t) (iblk4 V c 5 t) (iblk4 V c 7 t) (iblk4 V c 6 t))
        (k4_pay5 (iblk4 V c 2 t) (iblk4 V c 3 t) (iblk4 V c 8 t)) (iblk4 V c 9 t) (iblk4 V c 11 t) (iblk4 V c 12 t) j
      = G4 V c (((cfg4.win 13).blk t).view.emb j) := by
  obtain ⟨p, q, rfl⟩ : ∃ (p : Fin 4000) (q : Fin 16), j = ix2 p q := ⟨j 0, j 1, eq_ix2 j⟩
  obtain ⟨-, -, -, -, -, -, -, -, -, -, -, -, -, -, -, -, -, -, -, -, -, -, -, -, -, -, e0, e1⟩ := idx_facts4 t
  have hN : cfg4.N = 50 := N_4
  have ht : t.val < 50 := hN ▸ t.isLt
  have he : ((cfg4.win 13).blk t).view.emb (ix2 p q)
      = ix2 (n0 := 200000) (n1 := 16) ⟨t.val * 4000 + p.val, by omega⟩ q := by
    funext a
    apply Fin.ext
    match a with
    | ⟨0, _⟩ => show win4_13.index t (0 : Fin 2) * 4000 + 1 * p.val = t.val * 4000 + p.val; rw [e0]; omega
    | ⟨1, _⟩ => show win4_13.index t (1 : Fin 2) * 16 + 1 * q.val = q.val; rw [e1]; omega
  refine (pay4_apply (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) (iblk4 V c 11 t) (iblk4 V c 12 t) p q).trans ?_
  rw [he, iblk4_5_eq, iblk4_6_eq, iblk4_7_eq, iblk4_8_eq, iblk4_9_eq, iblk4_10_eq, iblk4_11_eq, iblk4_12_eq]
  unfold G4 sage2Head
  rw [dense_ix2, dense_ix2]
  refine congrArg₂ (· + ·) (Cert.SpecRows.lin_rows _ _ _ p ⟨t.val * 4000 + p.val, by omega⟩ (fun k => ?_) q) rfl
  unfold sage2Lin
  exact Cert.SpecRows.sage2At_rows _ _ _ _ _ _ _ _ _ _ _ _ _ _ _ _ p ⟨t.val * 4000 + p.val, by omega⟩
    (fun k => iblk4_0_apply V c t (ix2 p k) _ rfl rfl) (iblk4_1_apply V c t (ix2 p (0 : Fin 1)) _ rfl rfl)
    (fun k => iblk4_2_apply V c t (ix2 p k) _ rfl rfl) (iblk4_3_apply V c t (ix2 p (0 : Fin 1)) _ rfl rfl)
    (fun k => iblk4_4_apply V c t (ix2 p k) _ rfl rfl) k

/-- What point t writes back is block t of the projected layer. -/
theorem flushed4_eq (c : Dev nD) (t : Fin cfg4.N) :
    (dat4 V c).flushed 13 t = ((cfg4.win 13).blk t).view.read (Elt Ideal) (G4 V c) := by
  show (cfg4.win 13).cut (grid4.coords t) ((dat4 V c).after 13 t) = _
  rw [after4_13]
  unfold out4_13
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x16) hz, View.ld_unit_zero (S := S1x16) hz]
  funext j
  exact stored4 V c t j

/-- An index of the output array is in point t's block iff each coordinate is in the block's range on its axis. -/
theorem mem_blk4 (t : Fin cfg4.N) (i : S200000x16.Idx) :
    i ∈ ((cfg4.win 13).blk t).view.set ↔ ∀ a : Fin 2, win4_13.index t a * S4000x16.size a ≤ (i a).val ∧ (i a).val < win4_13.index t a * S4000x16.size a + S4000x16.size a := by
  show i ∈ ((View.whole main_v124).slice (win4_13.rect t)).set ↔ _
  rw [View.set_slice_whole, Rect.mem_set_unit]
  exact Iff.rfl

/-- Every index of the output array is in the block of the point its row falls in. -/
theorem cover4 (i : S200000x16.Idx) :
    ∃ t : Fin cfg4.N, (cfg4.win 13).flush t = true ∧ i ∈ ((cfg4.win 13).blk t).view.set := by
  have hN : cfg4.N = 50 := N_4
  have h0 : (i 0).val < 200000 := (i 0).isLt
  have h1 : (i 1).val < 16 := (i 1).isLt
  obtain ⟨t, ht⟩ : ∃ t : Fin cfg4.N, t.val = (i 0).val / 4000 := ⟨⟨(i 0).val / 4000, by rw [hN]; omega⟩, rfl⟩
  obtain ⟨-, -, -, -, -, -, -, -, -, -, -, -, -, -, -, -, -, -, -, -, -, -, -, -, -, -, e0, e1⟩ := idx_facts4 t
  refine ⟨t, flush4_13 t, ?_⟩
  rw [mem_blk4]
  intro a
  match a with
  | ⟨0, _⟩ => show win4_13.index t (0 : Fin 2) * 4000 ≤ (i 0).val ∧ (i 0).val < win4_13.index t (0 : Fin 2) * 4000 + 4000; rw [e0, ht]; omega
  | ⟨1, _⟩ => show win4_13.index t (1 : Fin 2) * 16 ≤ (i 1).val ∧ (i 1).val < win4_13.index t (1 : Fin 2) * 16 + 16; rw [e1]; omega

/-- The output array after the region: the last layer and the output projection of the thirteen arrays as the region
    found them. -/
theorem final4 (c : Dev nD) :
    (dat4 V c).arrAt 13 cfg4.N
      = sage2Head (N := 200000) (H := 128) (M := 128) (O := 16) (V c (Pipeline.arrRef spec4 0)) (V c (Pipeline.arrRef spec4 1))
          (V c (Pipeline.arrRef spec4 2)) (V c (Pipeline.arrRef spec4 3)) (V c (Pipeline.arrRef spec4 4)) (V c (Pipeline.arrRef spec4 5))
          (V c (Pipeline.arrRef spec4 6)) (V c (Pipeline.arrRef spec4 7)) (V c (Pipeline.arrRef spec4 8)) (V c (Pipeline.arrRef spec4 9))
          (V c (Pipeline.arrRef spec4 10)) (V c (Pipeline.arrRef spec4 11)) (V c (Pipeline.arrRef spec4 12)) :=
  (dat4 V c).arrAt_eq_of_cover 13 (G4 V c) (fun t _ => flushed4_eq V c t) cover4

end Cert.KernelIdeal.RegionValue

end
-- ==== Proof.Chain.lean ====
/-
  The kernel program's result as the network model of its inputs. The contents of a core's buffers are followed
  through the ten segment boundaries: an input array is never written, so it holds its launch contents at every
  boundary; each region leaves in its output array the region's stage of the arrays it was entered with; each host
  stretch leaves in the buffers it computes the aggregation, reciprocal in-degree, weight matrix or bias row of the
  contents before it. Composed: the last region's output array is the model's output.
-/
import proofs.«178608_j31610959298705_2_alg».proof.Proof.KernelRun
import proofs.«178608_j31610959298705_2_alg».proof.Proof.HostVals01
import proofs.«178608_j31610959298705_2_alg».proof.Proof.HostVals2
import proofs.«178608_j31610959298705_2_alg».proof.Proof.HostVals3
import proofs.«178608_j31610959298705_2_alg».proof.Proof.HostVals4
import proofs.«178608_j31610959298705_2_alg».proof.Proof.KerHostSpec
import proofs.«178608_j31610959298705_2_alg».proof.Proof.Model
import proofs.«178608_j31610959298705_2_alg».proof.Proof.Region0
import proofs.«178608_j31610959298705_2_alg».proof.Proof.Region1
import proofs.«178608_j31610959298705_2_alg».proof.Proof.Region2
import proofs.«178608_j31610959298705_2_alg».proof.Proof.Region3
import proofs.«178608_j31610959298705_2_alg».proof.Proof.Region4

set_option maxRecDepth 16384

noncomputable section

namespace Cert.KernelIdeal.Chain

open Cert.KernelIdeal Cert.KernelIdeal.Gen Cert.KernelIdeal.KerHost Cert.KernelIdeal.HostVals Cert.KernelIdeal.KerHostSpec
open Cert.KernelIdeal.RegionValue Cert.Spec Cert.LibRowBias
open Idealize.ShloMosaic Idealize.ShloMosaic.TcCoe Idealize.SL.Sem

variable (m : (ℓ : Loc nD τ sig) → Buf (Elt Ideal) ℓ) (ρ : Dev nD → PrngReg) (c : Dev nD)

set_option quotPrecheck false in
local notation "↥" b => Proc.devRef .tc b
set_option quotPrecheck false in
local notation "𝔞" j => m ((c : Thread nD τ).loc j)

/-! ## A region's stage at named entry arrays -/

section Named
variable (V : (c : Dev nD) → (b : Ref sig .tc) → Buf (Elt Ideal) ((c : Thread nD τ).loc b))

theorem final2_named (x0 : Arr 100000 128) (x1 : Arr 100000 1) (x2 : Arr 100000 128) (x3 : Arr 128 128) (x4 : Arr 1 128) (x5 : Arr 128 128)
    (h0 : V c (Pipeline.arrRef spec2 0) = x0) (h1 : V c (Pipeline.arrRef spec2 1) = x1) (h2 : V c (Pipeline.arrRef spec2 2) = x2)
    (h3 : V c (Pipeline.arrRef spec2 3) = x3) (h4 : V c (Pipeline.arrRef spec2 4) = x4) (h5 : V c (Pipeline.arrRef spec2 5) = x5) :
    (dat2 V c).arrAt 6 cfg2.N = sage1Act x0 x1 x2 x3 x4 x5 := by
  subst h0 h1 h2 h3 h4 h5
  exact final2 V c

theorem final3_named (x0 : Arr 200000 128) (x1 : Arr 200000 1) (x2 : Arr 200000 128) (x3 : Arr 200000 1) (x4 : Arr 200000 128)
    (x5 : Arr 128 128) (x6 : Arr 1 128) (x7 x8 : Arr 128 128) (x9 : Arr 1 128) (x10 : Arr 128 128)
    (h0 : V c (Pipeline.arrRef spec3 0) = x0) (h1 : V c (Pipeline.arrRef spec3 1) = x1) (h2 : V c (Pipeline.arrRef spec3 2) = x2)
    (h3 : V c (Pipeline.arrRef spec3 3) = x3) (h4 : V c (Pipeline.arrRef spec3 4) = x4) (h5 : V c (Pipeline.arrRef spec3 5) = x5)
    (h6 : V c (Pipeline.arrRef spec3 6) = x6) (h7 : V c (Pipeline.arrRef spec3 7) = x7) (h8 : V c (Pipeline.arrRef spec3 8) = x8)
    (h9 : V c (Pipeline.arrRef spec3 9) = x9) (h10 : V c (Pipeline.arrRef spec3 10) = x10) :
    (dat3 V c).arrAt 11 cfg3.N = sage2Act x0 x1 x2 x3 x4 x5 x6 x7 x8 x9 x10 := by
  subst h0 h1 h2 h3 h4 h5 h6 h7 h8 h9 h10
  exact final3 V c

theorem final4_named (x0 : Arr 200000 128) (x1 : Arr 200000 1) (x2 : Arr 200000 128) (x3 : Arr 200000 1) (x4 : Arr 200000 128)
    (x5 : Arr 128 128) (x6 : Arr 1 128) (x7 x8 : Arr 128 128) (x9 : Arr 1 128) (x10 : Arr 128 128) (x11 : Arr 128 16) (x12 : Arr 1 16)
    (h0 : V c (Pipeline.arrRef spec4 0) = x0) (h1 : V c (Pipeline.arrRef spec4 1) = x1) (h2 : V c (Pipeline.arrRef spec4 2) = x2)
    (h3 : V c (Pipeline.arrRef spec4 3) = x3) (h4 : V c (Pipeline.arrRef spec4 4) = x4) (h5 : V c (Pipeline.arrRef spec4 5) = x5)
    (h6 : V c (Pipeline.arrRef spec4 6) = x6) (h7 : V c (Pipeline.arrRef spec4 7) = x7) (h8 : V c (Pipeline.arrRef spec4 8) = x8)
    (h9 : V c (Pipeline.arrRef spec4 9) = x9) (h10 : V c (Pipeline.arrRef spec4 10) = x10) (h11 : V c (Pipeline.arrRef spec4 11) = x11)
    (h12 : V c (Pipeline.arrRef spec4 12) = x12) :
    (dat4 V c).arrAt 13 cfg4.N = sage2Head x0 x1 x2 x3 x4 x5 x6 x7 x8 x9 x10 x11 x12 := by
  subst h0 h1 h2 h3 h4 h5 h6 h7 h8 h9 h10 h11 h12
  exact final4 V c

end Named

/-! ## The input arrays at every boundary -/

theorem reg0_args : ∀ b ∈ argRefs, W2 m ρ c (↥b) = W1 m ρ c (↥b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2))

theorem reg1_args : ∀ b ∈ argRefs, W4 m ρ c (↥b) = W3 m ρ c (↥b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))

theorem reg2_args : ∀ b ∈ argRefs, W6 m ρ c (↥b) = W5 m ρ c (↥b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals exact W6_of_ne m ρ c _ (by decide)

theorem reg3_args : ∀ b ∈ argRefs, W8 m ρ c (↥b) = W7 m ρ c (↥b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals exact W8_of_ne m ρ c _ (by decide)

theorem kept1 (b : Ref sig .tc) (hb : b ∈ argRefs) : W1 m ρ c (↥b) = m ((c : Thread nD τ).loc b) := keep0 (W0 m ρ c) b hb
theorem kept2 (b : Ref sig .tc) (hb : b ∈ argRefs) : W2 m ρ c (↥b) = m ((c : Thread nD τ).loc b) := (reg0_args m ρ c b hb).trans (kept1 m ρ c b hb)
theorem kept3 (b : Ref sig .tc) (hb : b ∈ argRefs) : W3 m ρ c (↥b) = m ((c : Thread nD τ).loc b) := (keep1 (W2 m ρ c) b hb).trans (kept2 m ρ c b hb)
theorem kept4 (b : Ref sig .tc) (hb : b ∈ argRefs) : W4 m ρ c (↥b) = m ((c : Thread nD τ).loc b) := (reg1_args m ρ c b hb).trans (kept3 m ρ c b hb)
theorem kept5 (b : Ref sig .tc) (hb : b ∈ argRefs) : W5 m ρ c (↥b) = m ((c : Thread nD τ).loc b) := (keep2 (W4 m ρ c) b hb).trans (kept4 m ρ c b hb)
theorem kept6 (b : Ref sig .tc) (hb : b ∈ argRefs) : W6 m ρ c (↥b) = m ((c : Thread nD τ).loc b) := (reg2_args m ρ c b hb).trans (kept5 m ρ c b hb)
theorem kept7 (b : Ref sig .tc) (hb : b ∈ argRefs) : W7 m ρ c (↥b) = m ((c : Thread nD τ).loc b) := (keep3 (W6 m ρ c) b hb).trans (kept6 m ρ c b hb)
theorem kept8 (b : Ref sig .tc) (hb : b ∈ argRefs) : W8 m ρ c (↥b) = m ((c : Thread nD τ).loc b) := (reg3_args m ρ c b hb).trans (kept7 m ρ c b hb)
theorem kept9 (b : Ref sig .tc) (hb : b ∈ argRefs) : W9 m ρ c (↥b) = m ((c : Thread nD τ).loc b) := (keep4 (W8 m ρ c) b hb).trans (kept8 m ρ c b hb)

/-! ## Layer 0: the input projections -/

/-- Region 0 leaves the user projection in its output array. -/
theorem hu0_at2 : W2 m ρ c (↥main_v1) = Cert.Model.hu0 (𝔞 main_arg0) (𝔞 main_arg8) (𝔞 main_arg9) := by
  have e0 : V1 m ρ c (Pipeline.arrRef spec0 0) = 𝔞 main_arg0 := kept1 m ρ c main_arg0 (by decide)
  have e1 : V1 m ρ c (Pipeline.arrRef spec0 1) = 𝔞 main_arg8 := kept1 m ρ c main_arg8 (by decide)
  have e2 : V1 m ρ c (Pipeline.arrRef spec0 2) = rowOf (𝔞 main_arg9) :=
    (ops0_v0 (W0 m ρ c)).trans (reshape_eq_rowOf _ _)
  refine (W2_arr m ρ c 3).trans ((final0 (V1 m ρ) c).trans ?_)
  rw [e0, e1, e2]; rfl

/-- Region 1 leaves the item projection in its output array. -/
theorem hi0_at4 : W4 m ρ c (↥main_v3) = Cert.Model.hi0 (𝔞 main_arg1) (𝔞 main_arg10) (𝔞 main_arg11) := by
  have e0 : V3 m ρ c (Pipeline.arrRef spec1 0) = 𝔞 main_arg1 := kept3 m ρ c main_arg1 (by decide)
  have e1 : V3 m ρ c (Pipeline.arrRef spec1 1) = 𝔞 main_arg10 := kept3 m ρ c main_arg10 (by decide)
  have e2 : V3 m ρ c (Pipeline.arrRef spec1 2) = rowOf (𝔞 main_arg11) := by
    refine (ops1_v2 (W2 m ρ c)).trans ?_
    rw [kept2 m ρ c main_arg11 (by decide)]
    exact reshape_eq_rowOf _ _
  refine (W4_arr m ρ c 3).trans ((final1 (V3 m ρ) c).trans ?_)
  rw [e0, e1, e2]; rfl

/-- The user projection is still there when the aggregations read it. -/
theorem hu0_at4 : W4 m ρ c (↥main_v1) = Cert.Model.hu0 (𝔞 main_arg0) (𝔞 main_arg8) (𝔞 main_arg9) :=
  (W4_of_ne m ρ c main_v1 (by decide)).trans ((keep1_ext (W2 m ρ c) main_v1 (by decide)).trans (hu0_at2 m ρ c))
theorem hu0_at6 : W6 m ρ c (↥main_v1) = Cert.Model.hu0 (𝔞 main_arg0) (𝔞 main_arg8) (𝔞 main_arg9) :=
  (W6_of_ne m ρ c main_v1 (by decide)).trans ((keep2_ext (W4 m ρ c) main_v1 (by decide)).trans (hu0_at4 m ρ c))
theorem hu0_at7 : W7 m ρ c (↥main_v1) = Cert.Model.hu0 (𝔞 main_arg0) (𝔞 main_arg8) (𝔞 main_arg9) :=
  (keep3_ext (W6 m ρ c) main_v1 (by decide)).trans (hu0_at6 m ρ c)
theorem hi0_at5 : W5 m ρ c (↥main_v3) = Cert.Model.hi0 (𝔞 main_arg1) (𝔞 main_arg10) (𝔞 main_arg11) :=
  (keep2_ext (W4 m ρ c) main_v3 (by decide)).trans (hi0_at4 m ρ c)
theorem hi0_at6 : W6 m ρ c (↥main_v3) = Cert.Model.hi0 (𝔞 main_arg1) (𝔞 main_arg10) (𝔞 main_arg11) :=
  ((W6_arr m ρ c 2).trans (((dat2 (V5 m ρ) c).arrAt_in 2 rfl _).trans (A_eq2 (V5 m ρ) c 2))).trans (hi0_at5 m ρ c)

/-! ## The reciprocal in-degree columns of the user rows, at the boundaries that read them -/

theorem invR_at5 : W5 m ρ c (↥main_v21) = invCol (N := 200000) (cmaxU (𝔞 main_arg5)) := by
  refine (ops2_v21 (W4 m ρ c)).trans ?_
  rw [kept4 m ρ c main_arg5 (by decide)]
  exact invU_eq _
theorem invF_at5 : W5 m ρ c (↥main_v30) = invCol (N := 200000) (cmaxU (𝔞 main_arg7)) := by
  refine (ops2_v30 (W4 m ρ c)).trans ?_
  rw [kept4 m ρ c main_arg7 (by decide)]
  exact invU_eq _
theorem invR_at7 : W7 m ρ c (↥main_v21) = invCol (N := 200000) (cmaxU (𝔞 main_arg5)) :=
  (keep3_ext (W6 m ρ c) main_v21 (by decide)).trans ((W6_of_ne m ρ c main_v21 (by decide)).trans (invR_at5 m ρ c))
theorem invF_at7 : W7 m ρ c (↥main_v30) = invCol (N := 200000) (cmaxU (𝔞 main_arg7)) :=
  (keep3_ext (W6 m ρ c) main_v30 (by decide)).trans ((W6_of_ne m ρ c main_v30 (by decide)).trans (invF_at5 m ρ c))
theorem invR_at9 : W9 m ρ c (↥main_v21) = invCol (N := 200000) (cmaxU (𝔞 main_arg5)) :=
  (keep4_ext (W8 m ρ c) main_v21 (by decide)).trans
    (((W8_arr m ρ c 1).trans (((dat3 (V7 m ρ) c).arrAt_in 1 rfl _).trans (A_eq3 (V7 m ρ) c 1))).trans (invR_at7 m ρ c))
theorem invF_at9 : W9 m ρ c (↥main_v30) = invCol (N := 200000) (cmaxU (𝔞 main_arg7)) :=
  (keep4_ext (W8 m ρ c) main_v30 (by decide)).trans
    (((W8_arr m ρ c 3).trans (((dat3 (V7 m ρ) c).arrAt_in 3 rfl _).trans (A_eq3 (V7 m ρ) c 3))).trans (invF_at7 m ρ c))

/-! ## Layer 0: the item update -/

theorem hi1_at6 : W6 m ρ c (↥main_v49) = Cert.Model.hi1 (aggI (𝔞 main_arg2) (𝔞 main_arg3)) (cmaxI (𝔞 main_arg3))
    (𝔞 main_arg0) (𝔞 main_arg1) (𝔞 main_arg8) (𝔞 main_arg9) (𝔞 main_arg10) (𝔞 main_arg11) (𝔞 main_arg12) (𝔞 main_arg13) (𝔞 main_arg14) := by
  have e0 : V5 m ρ c (Pipeline.arrRef spec2 0) = aggI (𝔞 main_arg2) (𝔞 main_arg3) (Cert.Model.hu0 (𝔞 main_arg0) (𝔞 main_arg8) (𝔞 main_arg9)) := by
    refine (ops2_v41 (W4 m ρ c)).trans ?_
    rw [kept4 m ρ c main_arg2 (by decide), kept4 m ρ c main_arg3 (by decide), hu0_at4 m ρ c]
  have e1 : V5 m ρ c (Pipeline.arrRef spec2 1) = invCol (N := 100000) (cmaxI (𝔞 main_arg3)) := by
    refine (ops2_v12 (W4 m ρ c)).trans ?_
    rw [kept4 m ρ c main_arg3 (by decide)]
    exact invI_eq _
  have e2 : V5 m ρ c (Pipeline.arrRef spec2 2) = Cert.Model.hi0 (𝔞 main_arg1) (𝔞 main_arg10) (𝔞 main_arg11) := hi0_at5 m ρ c
  have e3 : V5 m ρ c (Pipeline.arrRef spec2 3) = slab (L := 2) (H := 128) (M := 128) 0 (𝔞 main_arg12) := by
    refine (ops2_v43 (W4 m ρ c)).trans ?_
    rw [kept4 m ρ c main_arg12 (by decide)]
    exact wslab0_eq _
  have e4 : V5 m ρ c (Pipeline.arrRef spec2 4) = rowL (L := 2) (M := 128) 0 (𝔞 main_arg13) := by
    refine (ops2_v48 (W4 m ρ c)).trans ?_
    rw [kept4 m ρ c main_arg13 (by decide)]
    exact brow0_eq _
  have e5 : V5 m ρ c (Pipeline.arrRef spec2 5) = slab (L := 2) (H := 128) (M := 128) 0 (𝔞 main_arg14) := by
    refine (ops2_v47 (W4 m ρ c)).trans ?_
    rw [kept4 m ρ c main_arg14 (by decide)]
    exact wslab0_eq _
  exact (W6_arr m ρ c 6).trans (final2_named c (V5 m ρ) _ _ _ _ _ _ e0 e1 e2 e3 e4 e5)

theorem hi1_at8 : W8 m ρ c (↥main_v49) = Cert.Model.hi1 (aggI (𝔞 main_arg2) (𝔞 main_arg3)) (cmaxI (𝔞 main_arg3))
    (𝔞 main_arg0) (𝔞 main_arg1) (𝔞 main_arg8) (𝔞 main_arg9) (𝔞 main_arg10) (𝔞 main_arg11) (𝔞 main_arg12) (𝔞 main_arg13) (𝔞 main_arg14) :=
  (W8_of_ne m ρ c main_v49 (by decide)).trans ((keep3_ext (W6 m ρ c) main_v49 (by decide)).trans (hi1_at6 m ρ c))

/-! ## Layer 0: the user update -/

set_option maxHeartbeats 2000000 in
theorem hu1_at8 : W8 m ρ c (↥main_v86) = Cert.Model.hu1 (aggR (𝔞 main_arg4) (𝔞 main_arg5)) (aggF (𝔞 main_arg6) (𝔞 main_arg7))
    (cmaxU (𝔞 main_arg5)) (cmaxU (𝔞 main_arg7))
    (𝔞 main_arg0) (𝔞 main_arg1) (𝔞 main_arg8) (𝔞 main_arg9) (𝔞 main_arg10) (𝔞 main_arg11)
    (𝔞 main_arg15) (𝔞 main_arg16) (𝔞 main_arg17) (𝔞 main_arg18) (𝔞 main_arg19) (𝔞 main_arg20) := by
  have e0 : V7 m ρ c (Pipeline.arrRef spec3 0) = aggR (𝔞 main_arg4) (𝔞 main_arg5) (Cert.Model.hi0 (𝔞 main_arg1) (𝔞 main_arg10) (𝔞 main_arg11)) := by
    refine (ops3_v60 (W6 m ρ c)).trans ?_
    rw [kept6 m ρ c main_arg4 (by decide), kept6 m ρ c main_arg5 (by decide), hi0_at6 m ρ c]
  have e1 : V7 m ρ c (Pipeline.arrRef spec3 1) = invCol (N := 200000) (cmaxU (𝔞 main_arg5)) := invR_at7 m ρ c
  have e2 : V7 m ρ c (Pipeline.arrRef spec3 2) = aggF (𝔞 main_arg6) (𝔞 main_arg7) (Cert.Model.hu0 (𝔞 main_arg0) (𝔞 main_arg8) (𝔞 main_arg9)) := by
    refine (ops3_v71 (W6 m ρ c)).trans ?_
    rw [kept6 m ρ c main_arg6 (by decide), kept6 m ρ c main_arg7 (by decide), hu0_at6 m ρ c]
  have e3 : V7 m ρ c (Pipeline.arrRef spec3 3) = invCol (N := 200000) (cmaxU (𝔞 main_arg7)) := invF_at7 m ρ c
  have e4 : V7 m ρ c (Pipeline.arrRef spec3 4) = Cert.Model.hu0 (𝔞 main_arg0) (𝔞 main_arg8) (𝔞 main_arg9) := hu0_at7 m ρ c
  have e5 : V7 m ρ c (Pipeline.arrRef spec3 5) = slab (L := 2) (H := 128) (M := 128) 0 (𝔞 main_arg15) := by
    refine (ops3_v73 (W6 m ρ c)).trans ?_
    rw [kept6 m ρ c main_arg15 (by decide)]
    exact wslab0_eq _
  have e6 : V7 m ρ c (Pipeline.arrRef spec3 6) = rowL (L := 2) (M := 128) 0 (𝔞 main_arg16) := by
    refine (ops3_v84 (W6 m ρ c)).trans ?_
    rw [kept6 m ρ c main_arg16 (by decide)]
    exact brow0_eq _
  have e7 : V7 m ρ c (Pipeline.arrRef spec3 7) = slab (L := 2) (H := 128) (M := 128) 0 (𝔞 main_arg17) := by
    refine (ops3_v77 (W6 m ρ c)).trans ?_
    rw [kept6 m ρ c main_arg17 (by decide)]
    exact wslab0_eq _
  have e8 : V7 m ρ c (Pipeline.arrRef spec3 8) = slab (L := 2) (H := 128) (M := 128) 0 (𝔞 main_arg18) := by
    refine (ops3_v79 (W6 m ρ c)).trans ?_
    rw [kept6 m ρ c main_arg18 (by decide)]
    exact wslab0_eq _
  have e9 : V7 m ρ c (Pipeline.arrRef spec3 9) = rowL (L := 2) (M := 128) 0 (𝔞 main_arg19) := by
    refine (ops3_v85 (W6 m ρ c)).trans ?_
    rw [kept6 m ρ c main_arg19 (by decide)]
    exact brow0_eq _
  have e10 : V7 m ρ c (Pipeline.arrRef spec3 10) = slab (L := 2) (H := 128) (M := 128) 0 (𝔞 main_arg20) := by
    refine (ops3_v83 (W6 m ρ c)).trans ?_
    rw [kept6 m ρ c main_arg20 (by decide)]
    exact wslab0_eq _
  exact (W8_arr m ρ c 11).trans (final3_named c (V7 m ρ) _ _ _ _ _ _ _ _ _ _ _ e0 e1 e2 e3 e4 e5 e6 e7 e8 e9 e10)

theorem hu1_at9 : W9 m ρ c (↥main_v86) = Cert.Model.hu1 (aggR (𝔞 main_arg4) (𝔞 main_arg5)) (aggF (𝔞 main_arg6) (𝔞 main_arg7))
    (cmaxU (𝔞 main_arg5)) (cmaxU (𝔞 main_arg7))
    (𝔞 main_arg0) (𝔞 main_arg1) (𝔞 main_arg8) (𝔞 main_arg9) (𝔞 main_arg10) (𝔞 main_arg11)
    (𝔞 main_arg15) (𝔞 main_arg16) (𝔞 main_arg17) (𝔞 main_arg18) (𝔞 main_arg19) (𝔞 main_arg20) :=
  (keep4_ext (W8 m ρ c) main_v86 (by decide)).trans (hu1_at8 m ρ c)

/-! ## Layer 1 and the output projection -/

/-- The kernel program's result array is the model's output of the launch contents of the input arrays. -/
theorem out_at10 : W10 m ρ c (↥main_v124) = Cert.Model.out (aggI (𝔞 main_arg2) (𝔞 main_arg3)) (aggR (𝔞 main_arg4) (𝔞 main_arg5))
    (aggF (𝔞 main_arg6) (𝔞 main_arg7)) (cmaxI (𝔞 main_arg3)) (cmaxU (𝔞 main_arg5)) (cmaxU (𝔞 main_arg7))
    (𝔞 main_arg0) (𝔞 main_arg1) (𝔞 main_arg8) (𝔞 main_arg9) (𝔞 main_arg10) (𝔞 main_arg11) (𝔞 main_arg12) (𝔞 main_arg13) (𝔞 main_arg14)
    (𝔞 main_arg15) (𝔞 main_arg16) (𝔞 main_arg17) (𝔞 main_arg18) (𝔞 main_arg19) (𝔞 main_arg20) (𝔞 main_arg21) (𝔞 main_arg22) := by
  have e0 : V9 m ρ c (Pipeline.arrRef spec4 0) = aggR (𝔞 main_arg4) (𝔞 main_arg5) (Cert.Model.hi1 (aggI (𝔞 main_arg2) (𝔞 main_arg3)) (cmaxI (𝔞 main_arg3))
      (𝔞 main_arg0) (𝔞 main_arg1) (𝔞 main_arg8) (𝔞 main_arg9) (𝔞 main_arg10) (𝔞 main_arg11) (𝔞 main_arg12) (𝔞 main_arg13) (𝔞 main_arg14)) := by
    refine (ops4_v97 (W8 m ρ c)).trans ?_
    rw [kept8 m ρ c main_arg4 (by decide), kept8 m ρ c main_arg5 (by decide), hi1_at8 m ρ c]
  have e1 : V9 m ρ c (Pipeline.arrRef spec4 1) = invCol (N := 200000) (cmaxU (𝔞 main_arg5)) := invR_at9 m ρ c
  have e2 : V9 m ρ c (Pipeline.arrRef spec4 2) = aggF (𝔞 main_arg6) (𝔞 main_arg7) (Cert.Model.hu1 (aggR (𝔞 main_arg4) (𝔞 main_arg5)) (aggF (𝔞 main_arg6) (𝔞 main_arg7))
      (cmaxU (𝔞 main_arg5)) (cmaxU (𝔞 main_arg7))
      (𝔞 main_arg0) (𝔞 main_arg1) (𝔞 main_arg8) (𝔞 main_arg9) (𝔞 main_arg10) (𝔞 main_arg11)
      (𝔞 main_arg15) (𝔞 main_arg16) (𝔞 main_arg17) (𝔞 main_arg18) (𝔞 main_arg19) (𝔞 main_arg20)) := by
    refine (ops4_v108 (W8 m ρ c)).trans ?_
    rw [kept8 m ρ c main_arg6 (by decide), kept8 m ρ c main_arg7 (by decide), hu1_at8 m ρ c]
  have e3 : V9 m ρ c (Pipeline.arrRef spec4 3) = invCol (N := 200000) (cmaxU (𝔞 main_arg7)) := invF_at9 m ρ c
  have e4 : V9 m ρ c (Pipeline.arrRef spec4 4) = _ := hu1_at9 m ρ c
  have e5 : V9 m ρ c (Pipeline.arrRef spec4 5) = slab (L := 2) (H := 128) (M := 128) 1 (𝔞 main_arg15) := by
    refine (ops4_v110 (W8 m ρ c)).trans ?_
    rw [kept8 m ρ c main_arg15 (by decide)]
    exact wslab1_eq _
  have e6 : V9 m ρ c (Pipeline.arrRef spec4 6) = rowL (L := 2) (M := 128) 1 (𝔞 main_arg16) := by
    refine (ops4_v121 (W8 m ρ c)).trans ?_
    rw [kept8 m ρ c main_arg16 (by decide)]
    exact brow1_eq _
  have e7 : V9 m ρ c (Pipeline.arrRef spec4 7) = slab (L := 2) (H := 128) (M := 128) 1 (𝔞 main_arg17) := by
    refine (ops4_v114 (W8 m ρ c)).trans ?_
    rw [kept8 m ρ c main_arg17 (by decide)]
    exact wslab1_eq _
  have e8 : V9 m ρ c (Pipeline.arrRef spec4 8) = slab (L := 2) (H := 128) (M := 128) 1 (𝔞 main_arg18) := by
    refine (ops4_v116 (W8 m ρ c)).trans ?_
    rw [kept8 m ρ c main_arg18 (by decide)]
    exact wslab1_eq _
  have e9 : V9 m ρ c (Pipeline.arrRef spec4 9) = rowL (L := 2) (M := 128) 1 (𝔞 main_arg19) := by
    refine (ops4_v122 (W8 m ρ c)).trans ?_
    rw [kept8 m ρ c main_arg19 (by decide)]
    exact brow1_eq _
  have e10 : V9 m ρ c (Pipeline.arrRef spec4 10) = slab (L := 2) (H := 128) (M := 128) 1 (𝔞 main_arg20) := by
    refine (ops4_v120 (W8 m ρ c)).trans ?_
    rw [kept8 m ρ c main_arg20 (by decide)]
    exact wslab1_eq _
  have e11 : V9 m ρ c (Pipeline.arrRef spec4 11) = 𝔞 main_arg21 := kept9 m ρ c main_arg21 (by decide)
  have e12 : V9 m ρ c (Pipeline.arrRef spec4 12) = rowOf (𝔞 main_arg22) := by
    refine (ops4_v123 (W8 m ρ c)).trans ?_
    rw [kept8 m ρ c main_arg22 (by decide)]
    exact reshape_eq_rowOf _ _
  exact (W10_arr m ρ c 13).trans (final4_named c (V9 m ρ) _ _ _ _ _ _ _ _ _ _ _ _ _ e0 e1 e2 e3 e4 e5 e6 e7 e8 e9 e10 e11 e12)

end Cert.KernelIdeal.Chain

end
-- ==== Proof.RefOpen.lean ====
/-
  The reference network's dense stages over arbitrary operand arrays, as the host program spells them, read index by
  index: a product plus a bias vector laid along the rows is `dense`; the aggregate divided by the clamped count laid
  against its rows, times the neighbour weights, plus the bias, plus the root term is `sageAt` (dividing by c ≥ 1 is
  multiplying by the reciprocal column); comparing against the zero array and choosing between a value and the slope
  array times the value is the leaky rectifier; a slice of a stack reshaped to two axes is a slab, a slice of a matrix
  reshaped to a vector is a row; a count clamped below by one is at least one.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«178608_j31610959298705_2_alg».proof.Proof.Spec
import proofs.«178608_j31610959298705_2_alg».proof.Proof.LibDense
import proofs.«178608_j31610959298705_2_alg».proof.Proof.LibRowBias
import proofs.«178608_j31610959298705_2_alg».proof.Proof.LibColBcast

noncomputable section

namespace Cert.RefOpen

open Idealize.ShloMosaic Idealize.ShloMosaic.ValueIdx Cert.Spec Cert.LibRowBias

variable {N K H M L : ℕ}

/-- A product plus a bias vector laid along the rows, as the host spells it, is `dense` with the vector's row. -/
theorem dense_open (D : DotDims ⟨2, ![N, K]⟩ ⟨2, ![K, M]⟩ ⟨2, ![N, M]⟩) (hD : D = DotDims.plain N K M)
    (x : FVec Ideal ⟨2, ![N, K]⟩ .f32) (w : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1]) :
    addf (Host.dotGeneral D none x w) (broadcastInDim ⟨2, ![N, M]⟩ ![0, 1] h2 (broadcastInDim ⟨2, ![1, M]⟩ ![1] h1 b))
      = dense x w (rowOf b) := by
  subst hD
  funext i
  obtain ⟨p, q, rfl⟩ : ∃ (p : Fin N) (q : Fin M), i = ix2 p q := ⟨i 0, i 1, eq_ix2 i⟩
  rw [addf_apply, dense_ix2, rowOf_ix2]
  simp only [Host.dotGeneral]
  rw [Cert.LibDense.plain_dotGeneral_apply, bcast_row_apply]
  rfl

/-- One SAGE convolution as the host spells it: the aggregate divided by the clamped count laid against its rows,
    times the neighbour weights, plus the bias vector laid along the rows, plus the root term. The division by
    c(p) ≥ 1 is the multiplication by the reciprocal column. -/
theorem sage_open (D : DotDims ⟨2, ![N, H]⟩ ⟨2, ![H, M]⟩ ⟨2, ![N, M]⟩) (hD : D = DotDims.plain N H M)
    (agg xd : FVec Ideal ⟨2, ![N, H]⟩ .f32) (c : FVec Ideal ⟨1, ![N]⟩ .f32) (hc : ∀ j, (1 : EReal) ≤ c j)
    (wl wr : FVec Ideal ⟨2, ![H, M]⟩ .f32) (bl : FVec Ideal ⟨1, ![M]⟩ .f32)
    (g1 : (⟨1, ![N]⟩ : Shape).BroadcastsInDim ⟨2, ![N, 1]⟩ ![0])
    (g2 : (⟨2, ![N, 1]⟩ : Shape).BroadcastsInDim ⟨2, ![N, H]⟩ ![0, 1])
    (h1 : (⟨1, ![M]⟩ : Shape).BroadcastsInDim ⟨2, ![1, M]⟩ ![1])
    (h2 : (⟨2, ![1, M]⟩ : Shape).BroadcastsInDim ⟨2, ![N, M]⟩ ![0, 1]) (p : Fin N) (q : Fin M) :
    addf (addf (Host.dotGeneral D none
                  (Host.divf agg (broadcastInDim ⟨2, ![N, H]⟩ ![0, 1] g2 (broadcastInDim ⟨2, ![N, 1]⟩ ![0] g1 c))) wl)
               (broadcastInDim ⟨2, ![N, M]⟩ ![0, 1] h2 (broadcastInDim ⟨2, ![1, M]⟩ ![1] h1 bl)))
         (Host.dotGeneral D none xd wr) (ix2 p q)
      = sageAt agg (invCol c) xd wl (rowOf bl) wr p q := by
  subst hD
  rw [addf_apply, addf_apply]
  simp only [Host.dotGeneral]
  rw [Cert.LibDense.plain_dotGeneral_apply, Cert.LibDense.plain_dotGeneral_apply, bcast_row_apply]
  unfold sageAt lin
  rw [rowOf_ix2]
  refine congrArg₂ (· + ·) (congrArg₂ (· + ·) (Finset.sum_congr rfl fun k _ => ?_) rfl) rfl
  rw [scaled_invCol agg c hc p k, hostDivf_apply, Cert.LibColBcast.bcast_col_apply]

/-- The rectifier as the host spells it: compare against the zero array, keep or scale by the slope array. -/
theorem leaky_open {s : Shape} (y : FVec Ideal s .f32) (hb : (⟨0, ![]⟩ : Shape).BroadcastsInDim s ![]) (i : s.Idx) :
    select (cmpf .oge y (broadcastInDim s ![] hb (constant (F := Ideal) ⟨0, ![]⟩ .f32 0x00000000#32))) y
        (mulf (broadcastInDim s ![] hb (constant (F := Ideal) ⟨0, ![]⟩ .f32 0x3C23D70A#32)) y) i
      = leaky (y i) := by
  rw [select_apply, cmpf_apply, mulf_apply, broadcastInDim_scalar_apply, broadcastInDim_scalar_apply]
  rfl

/-- Matrix l of a stack, sliced out and reshaped to two axes. -/
theorem slab_open (l : Fin L) (o : ℕ) (ho : o = l.val) (x : (⟨3, ![L, H, M]⟩ : Shape).Idx → EReal)
    (hs : (⟨3, ![L, H, M]⟩ : Shape).Slices ![o, 0, 0] ⟨3, ![1, H, M]⟩)
    (hc : (⟨3, ![1, H, M]⟩ : Shape).ShapeCasts ⟨2, ![H, M]⟩) :
    shapeCast ⟨2, ![H, M]⟩ (extractStridedSlice ⟨3, ![1, H, M]⟩ ![o, 0, 0] x hs) hc = slab l x := by
  subst ho
  funext i
  obtain ⟨p, q, rfl⟩ : ∃ (p : Fin H) (q : Fin M), i = ix2 p q := ⟨i 0, i 1, eq_ix2 i⟩
  rw [shapeCast_1ab_ab_apply, slab_ix2]
  refine extractStridedSlice_apply _ x hs _ _ fun a => ?_
  match a with
  | ⟨0, _⟩ => rfl
  | ⟨1, _⟩ => exact (Nat.zero_add _).symm
  | ⟨2, _⟩ => exact (Nat.zero_add _).symm

/-- Row l of a matrix, sliced out and reshaped to a vector, as a one-row array. -/
theorem rowL_open (l : Fin L) (o : ℕ) (ho : o = l.val) (x : (⟨2, ![L, M]⟩ : Shape).Idx → EReal)
    (hs : (⟨2, ![L, M]⟩ : Shape).Slices ![o, 0] ⟨2, ![1, M]⟩)
    (hc : (⟨2, ![1, M]⟩ : Shape).ShapeCasts ⟨1, ![M]⟩) :
    rowOf (shapeCast ⟨1, ![M]⟩ (extractStridedSlice ⟨2, ![1, M]⟩ ![o, 0] x hs) hc) = rowL l x := by
  subst ho
  funext i
  obtain ⟨u, q, rfl⟩ : ∃ (u : Fin 1) (q : Fin M), i = ix2 u q := ⟨i 0, i 1, eq_ix2 i⟩
  rw [rowOf_ix2, shapeCast_1a_a_apply, rowL_ix2]
  refine extractStridedSlice_apply _ x hs _ _ fun a => ?_
  match a with
  | ⟨0, _⟩ => rfl
  | ⟨1, _⟩ => exact (Nat.zero_add _).symm

/-- A count clamped below by the single-precision one is at least one. -/
theorem one_le_clamped {s : Shape} (cnt : FVec Ideal s .f32) (hb : (⟨0, ![]⟩ : Shape).BroadcastsInDim s ![]) (j : s.Idx) :
    (1 : EReal) ≤ maximumf cnt (broadcastInDim s ![] hb (constant (F := Ideal) ⟨0, ![]⟩ .f32 0x3F800000#32)) j := by
  rw [maximumf_apply, broadcastInDim_scalar_apply, constant_apply, ofBits_one]
  exact le_max_right _ _

end Cert.RefOpen

end
-- ==== Proof.RefDense.lean ====
/-
  The reference's two input projections are the specification's `dense`: features times the input weights plus the
  bias vector laid along every row.
-/
import proofs.«178608_j31610959298705_2_alg».proof.Proof.Gen.ReferenceIdeal.Read
import proofs.«178608_j31610959298705_2_alg».proof.Proof.RefOpen

noncomputable section

namespace Cert.ReferenceIdeal.RefValue

open Cert.ReferenceIdeal Cert.ReferenceIdeal.Read Cert.Spec Cert.LibRowBias Idealize.ShloMosaic

/-- The user projection: x_user · W_in_user + b_in_user. -/
theorem hu0_eq (x0 : (⟨S200000x64, .f32⟩ : BufTy).Contents (Elt Ideal)) (x8 : (⟨S64x128, .f32⟩ : BufTy).Contents (Elt Ideal))
    (x9 : (⟨S128, .f32⟩ : BufTy).Contents (Elt Ideal)) :
    val_main_v3 (F := Ideal) x0 x8 x9 = dense x0 x8 (rowOf x9) := by
  unfold val_main_v3 val_main_v0 val_main_v2 val_main_v1
  exact Cert.RefOpen.dense_open _ rfl x0 x8 x9 _ _

/-- The item projection: x_item · W_in_item + b_in_item. -/
theorem hi0_eq (x1 : (⟨S100000x128, .f32⟩ : BufTy).Contents (Elt Ideal)) (x10 : (⟨S128x128, .f32⟩ : BufTy).Contents (Elt Ideal))
    (x11 : (⟨S128, .f32⟩ : BufTy).Contents (Elt Ideal)) :
    val_main_v7 (F := Ideal) x1 x10 x11 = dense x1 x10 (rowOf x11) := by
  unfold val_main_v7 val_main_v4 val_main_v6 val_main_v5
  exact Cert.RefOpen.dense_open _ rfl x1 x10 x11 _ _

end Cert.ReferenceIdeal.RefValue

end
-- ==== Proof.RefSage1.lean ====
/-
  The reference's item update of layer 0 is the specification's one-relation layer: user features gathered along
  the rating edges and summed per item, divided by the clamped in-degree, times the neighbour weights, plus the bias
  row, plus the items' own features times the root weights, then the leaky rectifier. The aggregate and the clamped
  count enter as they are; the weights are matrix 0 and row 0 of the stacked parameters.
-/
import proofs.«178608_j31610959298705_2_alg».proof.Proof.Gen.ReferenceIdeal.Read
import proofs.«178608_j31610959298705_2_alg».proof.Proof.RefOpen

noncomputable section

namespace Cert.ReferenceIdeal.RefValue

open Cert.ReferenceIdeal Cert.ReferenceIdeal.Read Cert.Spec Cert.LibRowBias Idealize.ShloMosaic Idealize.ShloMosaic.ValueIdx

variable (x0 : (⟨S200000x64, .f32⟩ : BufTy).Contents (Elt Ideal))
  (x1 : (⟨S100000x128, .f32⟩ : BufTy).Contents (Elt Ideal))
  (x2 : (⟨S1000000, .i32⟩ : BufTy).Contents (Elt Ideal))
  (x3 : (⟨S1000000, .i32⟩ : BufTy).Contents (Elt Ideal))
  (x8 : (⟨S64x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x12 : (⟨S2x128x128, .f32⟩ : BufTy).Contents (Elt Ideal))
  (x13 : (⟨S2x128, .f32⟩ : BufTy).Contents (Elt Ideal))
  (x14 : (⟨S2x128x128, .f32⟩ : BufTy).Contents (Elt Ideal))

/-- Layer 0 of the stacked neighbour weights of the rating relation. -/
theorem wl_rates0 : val_main_v9 (F := Ideal) x12 = slab 0 x12 := by
  unfold val_main_v9 val_main_v8
  exact Cert.RefOpen.slab_open (0 : Fin 2) 0 rfl x12 _ _

/-- Layer 0 of the stacked biases of the rating relation, as a row. -/
theorem bl_rates0 : rowOf (val_main_v11 (F := Ideal) x13) = rowL 0 x13 := by
  unfold val_main_v11 val_main_v10
  exact Cert.RefOpen.rowL_open (0 : Fin 2) 0 rfl x13 _ _

/-- Layer 0 of the stacked root weights of the rating relation. -/
theorem wr_rates0 : val_main_v13 (F := Ideal) x14 = slab 0 x14 := by
  unfold val_main_v13 val_main_v12
  exact Cert.RefOpen.slab_open (0 : Fin 2) 0 rfl x14 _ _

/-- The clamped in-degree of an item is at least one. -/
theorem cnt_rates0 (j : S100000.Idx) : (1 : EReal) ≤ val_main_v29 (F := Ideal) x3 j := by
  unfold val_main_v29 val_main_v28 val_main_cst_3
  exact Cert.RefOpen.one_le_clamped _ _ j

/-- The item update before the rectifier, at (p, q). -/
theorem hi1_lin (p : Fin 100000) (q : Fin 128) :
    val_main_v38 (F := Ideal) x0 x1 x2 x3 x8 x9 x10 x11 x12 x13 x14 (ix2 p q)
      = sageAt (val_main_v23 (F := Ideal) x0 x2 x3 x8 x9) (invCol (val_main_v29 (F := Ideal) x3)) (val_main_v7 (F := Ideal) x1 x10 x11)
          (slab 0 x12) (rowL 0 x13) (slab 0 x14) p q := by
  unfold val_main_v38 val_main_v36 val_main_v33 val_main_v32 val_main_v31 val_main_v30 val_main_v35 val_main_v34 val_main_v37
  refine (Cert.RefOpen.sage_open _ rfl _ _ _ (cnt_rates0 x3) _ _ _ _ _ _ _ p q).trans ?_
  rw [wl_rates0 x12, bl_rates0 x13, wr_rates0 x14]

/-- The items after layer 0. -/
theorem hi1_eq :
    val_main_v111 (F := Ideal) x0 x1 x2 x3 x8 x9 x10 x11 x12 x13 x14
      = sage1Act (val_main_v23 (F := Ideal) x0 x2 x3 x8 x9) (invCol (val_main_v29 (F := Ideal) x3)) (val_main_v7 (F := Ideal) x1 x10 x11)
          (slab 0 x12) (rowL 0 x13) (slab 0 x14) := by
  funext i
  obtain ⟨p, q, rfl⟩ : ∃ (p : Fin 100000) (q : Fin 128), i = ix2 p q := ⟨i 0, i 1, eq_ix2 i⟩
  unfold val_main_v111 val_main_v108 val_main_v110 val_main_v107 val_main_v109 val_main_cst_18 val_main_cst_19
  refine (Cert.RefOpen.leaky_open _ _ _).trans ?_
  exact congrArg leaky (hi1_lin x0 x1 x2 x3 x8 x9 x10 x11 x12 x13 x14 p q)

end Cert.ReferenceIdeal.RefValue

end
-- ==== Proof.RefSage2.lean ====
/-
  The reference's user update of layer 0 is the specification's two-relation layer: the convolution over the
  "rated by" edges (item features summed per user) plus the convolution over the "follows" edges (user features summed
  per user), both on the users' own features, then the leaky rectifier. Each aggregate and clamped count enters as it
  is; the weights are matrix 0 and row 0 of the stacked parameters.
-/
import proofs.«178608_j31610959298705_2_alg».proof.Proof.Gen.ReferenceIdeal.Read
import proofs.«178608_j31610959298705_2_alg».proof.Proof.RefOpen

noncomputable section

namespace Cert.ReferenceIdeal.RefValue

open Cert.ReferenceIdeal Cert.ReferenceIdeal.Read Cert.Spec Cert.LibRowBias Idealize.ShloMosaic Idealize.ShloMosaic.ValueIdx

variable (x0 : (⟨S200000x64, .f32⟩ : BufTy).Contents (Elt Ideal))
  (x1 : (⟨S100000x128, .f32⟩ : BufTy).Contents (Elt Ideal))
  (x4 : (⟨S1000000, .i32⟩ : BufTy).Contents (Elt Ideal))
  (x5 : (⟨S1000000, .i32⟩ : BufTy).Contents (Elt Ideal))
  (x6 : (⟨S1000000, .i32⟩ : BufTy).Contents (Elt Ideal))
  (x7 : (⟨S1000000, .i32⟩ : BufTy).Contents (Elt Ideal))
  (x8 : (⟨S64x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x15 : (⟨S2x128x128, .f32⟩ : BufTy).Contents (Elt Ideal))
  (x16 : (⟨S2x128, .f32⟩ : BufTy).Contents (Elt Ideal))
  (x17 : (⟨S2x128x128, .f32⟩ : BufTy).Contents (Elt Ideal))
  (x18 : (⟨S2x128x128, .f32⟩ : BufTy).Contents (Elt Ideal))
  (x19 : (⟨S2x128, .f32⟩ : BufTy).Contents (Elt Ideal))
  (x20 : (⟨S2x128x128, .f32⟩ : BufTy).Contents (Elt Ideal))

/-- Layer 0 of the stacked neighbour weights of the "rated by" relation. -/
theorem wl_rated0 : val_main_v40 (F := Ideal) x15 = slab 0 x15 := by
  unfold val_main_v40 val_main_v39
  exact Cert.RefOpen.slab_open (0 : Fin 2) 0 rfl x15 _ _

/-- Layer 0 of the stacked biases of the "rated by" relation, as a row. -/
theorem bl_rated0 : rowOf (val_main_v42 (F := Ideal) x16) = rowL 0 x16 := by
  unfold val_main_v42 val_main_v41
  exact Cert.RefOpen.rowL_open (0 : Fin 2) 0 rfl x16 _ _

/-- Layer 0 of the stacked root weights of the "rated by" relation. -/
theorem wr_rated0 : val_main_v44 (F := Ideal) x17 = slab 0 x17 := by
  unfold val_main_v44 val_main_v43
  exact Cert.RefOpen.slab_open (0 : Fin 2) 0 rfl x17 _ _

/-- The clamped number of items that rated a user is at least one. -/
theorem cnt_rated0 (j : S200000.Idx) : (1 : EReal) ≤ val_main_v60 (F := Ideal) x5 j := by
  unfold val_main_v60 val_main_v59 val_main_cst_9
  exact Cert.RefOpen.one_le_clamped _ _ j

/-- The convolution over the "rated by" edges in layer 0, at (p, q). -/
theorem sage_rated0 (p : Fin 200000) (q : Fin 128) :
    val_main_v69 (F := Ideal) x0 x1 x4 x5 x8 x9 x10 x11 x15 x16 x17 (ix2 p q)
      = sageAt (val_main_v54 (F := Ideal) x1 x4 x5 x10 x11) (invCol (val_main_v60 (F := Ideal) x5)) (val_main_v3 (F := Ideal) x0 x8 x9)
          (slab 0 x15) (rowL 0 x16) (slab 0 x17) p q := by
  unfold val_main_v69 val_main_v67 val_main_v64 val_main_v63 val_main_v62 val_main_v61 val_main_v66 val_main_v65 val_main_v68
  refine (Cert.RefOpen.sage_open _ rfl _ _ _ (cnt_rated0 x5) _ _ _ _ _ _ _ p q).trans ?_
  rw [wl_rated0 x15, bl_rated0 x16, wr_rated0 x17]

/-- Layer 0 of the stacked neighbour weights of the "follows" relation. -/
theorem wl_fol0 : val_main_v71 (F := Ideal) x18 = slab 0 x18 := by
  unfold val_main_v71 val_main_v70
  exact Cert.RefOpen.slab_open (0 : Fin 2) 0 rfl x18 _ _

/-- Layer 0 of the stacked biases of the "follows" relation, as a row. -/
theorem bl_fol0 : rowOf (val_main_v73 (F := Ideal) x19) = rowL 0 x19 := by
  unfold val_main_v73 val_main_v72
  exact Cert.RefOpen.rowL_open (0 : Fin 2) 0 rfl x19 _ _

/-- Layer 0 of the stacked root weights of the "follows" relation. -/
theorem wr_fol0 : val_main_v75 (F := Ideal) x20 = slab 0 x20 := by
  unfold val_main_v75 val_main_v74
  exact Cert.RefOpen.slab_open (0 : Fin 2) 0 rfl x20 _ _

/-- The clamped number of followers of a user is at least one. -/
theorem cnt_fol0 (j : S200000.Idx) : (1 : EReal) ≤ val_main_v91 (F := Ideal) x7 j := by
  unfold val_main_v91 val_main_v90 val_main_cst_15
  exact Cert.RefOpen.one_le_clamped _ _ j

/-- The convolution over the "follows" edges in layer 0, at (p, q). -/
theorem sage_fol0 (p : Fin 200000) (q : Fin 128) :
    val_main_v100 (F := Ideal) x0 x6 x7 x8 x9 x18 x19 x20 (ix2 p q)
      = sageAt (val_main_v85 (F := Ideal) x0 x6 x7 x8 x9) (invCol (val_main_v91 (F := Ideal) x7)) (val_main_v3 (F := Ideal) x0 x8 x9)
          (slab 0 x18) (rowL 0 x19) (slab 0 x20) p q := by
  unfold val_main_v100 val_main_v98 val_main_v95 val_main_v94 val_main_v93 val_main_v92 val_main_v97 val_main_v96 val_main_v99
  refine (Cert.RefOpen.sage_open _ rfl _ _ _ (cnt_fol0 x7) _ _ _ _ _ _ _ p q).trans ?_
  rw [wl_fol0 x18, bl_fol0 x19, wr_fol0 x20]

/-- The user update before the rectifier, at (p, q): the two convolutions summed. -/
theorem hu1_lin (p : Fin 200000) (q : Fin 128) :
    val_main_v101 (F := Ideal) x0 x1 x4 x5 x6 x7 x8 x9 x10 x11 x15 x16 x17 x18 x19 x20 (ix2 p q)
      = sage2At (val_main_v54 (F := Ideal) x1 x4 x5 x10 x11) (invCol (val_main_v60 (F := Ideal) x5)) (val_main_v85 (F := Ideal) x0 x6 x7 x8 x9) (invCol (val_main_v91 (F := Ideal) x7)) (val_main_v3 (F := Ideal) x0 x8 x9)
          (slab 0 x15) (rowL 0 x16) (slab 0 x17) (slab 0 x18) (rowL 0 x19) (slab 0 x20) p q := by
  unfold val_main_v101
  rw [addf_apply, sage_rated0, sage_fol0]
  rfl

/-- The users after layer 0. -/
theorem hu1_eq :
    val_main_v106 (F := Ideal) x0 x1 x4 x5 x6 x7 x8 x9 x10 x11 x15 x16 x17 x18 x19 x20
      = sage2Act (val_main_v54 (F := Ideal) x1 x4 x5 x10 x11) (invCol (val_main_v60 (F := Ideal) x5)) (val_main_v85 (F := Ideal) x0 x6 x7 x8 x9) (invCol (val_main_v91 (F := Ideal) x7)) (val_main_v3 (F := Ideal) x0 x8 x9)
          (slab 0 x15) (rowL 0 x16) (slab 0 x17) (slab 0 x18) (rowL 0 x19) (slab 0 x20) := by
  funext i
  obtain ⟨p, q, rfl⟩ : ∃ (p : Fin 200000) (q : Fin 128), i = ix2 p q := ⟨i 0, i 1, eq_ix2 i⟩
  unfold val_main_v106 val_main_v103 val_main_v105 val_main_v102 val_main_v104 val_main_cst_16 val_main_cst_17
  refine (Cert.RefOpen.leaky_open _ _ _).trans ?_
  exact congrArg leaky (hu1_lin x0 x1 x4 x5 x6 x7 x8 x9 x10 x11 x15 x16 x17 x18 x19 x20 p q)

end Cert.ReferenceIdeal.RefValue

end
-- ==== Proof.RefHead.lean ====
/-
  The reference's last layer and output head: the users' two-relation layer of layer 1 (no rectifier), on the users'
  layer-0 features, with the item aggregate built from the items' layer-0 features, followed by the output projection
  with its bias row. Each aggregate and clamped count enters as it is; the weights are matrix 1 and row 1 of the
  stacked parameters.
-/
import proofs.«178608_j31610959298705_2_alg».proof.Proof.Gen.ReferenceIdeal.Read
import proofs.«178608_j31610959298705_2_alg».proof.Proof.RefOpen

noncomputable section

namespace Cert.ReferenceIdeal.RefValue

open Cert.ReferenceIdeal Cert.ReferenceIdeal.Read Cert.Spec Cert.LibRowBias Idealize.ShloMosaic Idealize.ShloMosaic.ValueIdx

variable (x0 : (⟨S200000x64, .f32⟩ : BufTy).Contents (Elt Ideal))
  (x1 : (⟨S100000x128, .f32⟩ : BufTy).Contents (Elt Ideal))
  (x2 : (⟨S1000000, .i32⟩ : BufTy).Contents (Elt Ideal))
  (x3 : (⟨S1000000, .i32⟩ : BufTy).Contents (Elt Ideal))
  (x4 : (⟨S1000000, .i32⟩ : BufTy).Contents (Elt Ideal))
  (x5 : (⟨S1000000, .i32⟩ : BufTy).Contents (Elt Ideal))
  (x6 : (⟨S1000000, .i32⟩ : BufTy).Contents (Elt Ideal))
  (x7 : (⟨S1000000, .i32⟩ : BufTy).Contents (Elt Ideal))
  (x8 : (⟨S64x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x12 : (⟨S2x128x128, .f32⟩ : BufTy).Contents (Elt Ideal))
  (x13 : (⟨S2x128, .f32⟩ : BufTy).Contents (Elt Ideal))
  (x14 : (⟨S2x128x128, .f32⟩ : BufTy).Contents (Elt Ideal))
  (x15 : (⟨S2x128x128, .f32⟩ : BufTy).Contents (Elt Ideal))
  (x16 : (⟨S2x128, .f32⟩ : BufTy).Contents (Elt Ideal))
  (x17 : (⟨S2x128x128, .f32⟩ : BufTy).Contents (Elt Ideal))
  (x18 : (⟨S2x128x128, .f32⟩ : BufTy).Contents (Elt Ideal))
  (x19 : (⟨S2x128, .f32⟩ : BufTy).Contents (Elt Ideal))
  (x20 : (⟨S2x128x128, .f32⟩ : BufTy).Contents (Elt Ideal))
  (x21 : (⟨S128x16, .f32⟩ : BufTy).Contents (Elt Ideal))
  (x22 : (⟨S16, .f32⟩ : BufTy).Contents (Elt Ideal))

/-- Layer 1 of the stacked neighbour weights of the "rated by" relation. -/
theorem wl_rated1 : val_main_v144 (F := Ideal) x15 = slab 1 x15 := by
  unfold val_main_v144 val_main_v143
  exact Cert.RefOpen.slab_open (1 : Fin 2) 1 rfl x15 _ _

/-- Layer 1 of the stacked biases of the "rated by" relation, as a row. -/
theorem bl_rated1 : rowOf (val_main_v146 (F := Ideal) x16) = rowL 1 x16 := by
  unfold val_main_v146 val_main_v145
  exact Cert.RefOpen.rowL_open (1 : Fin 2) 1 rfl x16 _ _

/-- Layer 1 of the stacked root weights of the "rated by" relation. -/
theorem wr_rated1 : val_main_v148 (F := Ideal) x17 = slab 1 x17 := by
  unfold val_main_v148 val_main_v147
  exact Cert.RefOpen.slab_open (1 : Fin 2) 1 rfl x17 _ _

/-- The clamped number of items that rated a user is at least one. -/
theorem cnt_rated1 (j : S200000.Idx) : (1 : EReal) ≤ val_main_v164 (F := Ideal) x5 j := by
  unfold val_main_v164 val_main_v163 val_main_cst_31
  exact Cert.RefOpen.one_le_clamped _ _ j

/-- The convolution over the "rated by" edges in layer 1, at (p, q). -/
theorem sage_rated1 (p : Fin 200000) (q : Fin 128) :
    val_main_v173 (F := Ideal) x0 x1 x2 x3 x4 x5 x6 x7 x8 x9 x10 x11 x12 x13 x14 x15 x16 x17 x18 x19 x20 (ix2 p q)
      = sageAt (val_main_v158 (F := Ideal) x0 x1 x2 x3 x4 x5 x8 x9 x10 x11 x12 x13 x14) (invCol (val_main_v164 (F := Ideal) x5)) (val_main_v106 (F := Ideal) x0 x1 x4 x5 x6 x7 x8 x9 x10 x11 x15 x16 x17 x18 x19 x20)
          (slab 1 x15) (rowL 1 x16) (slab 1 x17) p q := by
  unfold val_main_v173 val_main_v171 val_main_v168 val_main_v167 val_main_v166 val_main_v165 val_main_v170 val_main_v169 val_main_v172
  refine (Cert.RefOpen.sage_open _ rfl _ _ _ (cnt_rated1 x5) _ _ _ _ _ _ _ p q).trans ?_
  rw [wl_rated1 x15, bl_rated1 x16, wr_rated1 x17]

/-- Layer 1 of the stacked neighbour weights of the "follows" relation. -/
theorem wl_fol1 : val_main_v175 (F := Ideal) x18 = slab 1 x18 := by
  unfold val_main_v175 val_main_v174
  exact Cert.RefOpen.slab_open (1 : Fin 2) 1 rfl x18 _ _

/-- Layer 1 of the stacked biases of the "follows" relation, as a row. -/
theorem bl_fol1 : rowOf (val_main_v177 (F := Ideal) x19) = rowL 1 x19 := by
  unfold val_main_v177 val_main_v176
  exact Cert.RefOpen.rowL_open (1 : Fin 2) 1 rfl x19 _ _

/-- Layer 1 of the stacked root weights of the "follows" relation. -/
theorem wr_fol1 : val_main_v179 (F := Ideal) x20 = slab 1 x20 := by
  unfold val_main_v179 val_main_v178
  exact Cert.RefOpen.slab_open (1 : Fin 2) 1 rfl x20 _ _

/-- The clamped number of followers of a user is at least one. -/
theorem cnt_fol1 (j : S200000.Idx) : (1 : EReal) ≤ val_main_v195 (F := Ideal) x7 j := by
  unfold val_main_v195 val_main_v194 val_main_cst_37
  exact Cert.RefOpen.one_le_clamped _ _ j

/-- The convolution over the "follows" edges in layer 1, at (p, q). -/
theorem sage_fol1 (p : Fin 200000) (q : Fin 128) :
    val_main_v204 (F := Ideal) x0 x1 x4 x5 x6 x7 x8 x9 x10 x11 x15 x16 x17 x18 x19 x20 (ix2 p q)
      = sageAt (val_main_v189 (F := Ideal) x0 x1 x4 x5 x6 x7 x8 x9 x10 x11 x15 x16 x17 x18 x19 x20) (invCol (val_main_v195 (F := Ideal) x7)) (val_main_v106 (F := Ideal) x0 x1 x4 x5 x6 x7 x8 x9 x10 x11 x15 x16 x17 x18 x19 x20)
          (slab 1 x18) (rowL 1 x19) (slab 1 x20) p q := by
  unfold val_main_v204 val_main_v202 val_main_v199 val_main_v198 val_main_v197 val_main_v196 val_main_v201 val_main_v200 val_main_v203
  refine (Cert.RefOpen.sage_open _ rfl _ _ _ (cnt_fol1 x7) _ _ _ _ _ _ _ p q).trans ?_
  rw [wl_fol1 x18, bl_fol1 x19, wr_fol1 x20]

/-- The users after layer 1 (no rectifier): the two convolutions summed. -/
theorem hu2_eq :
    val_main_v205 (F := Ideal) x0 x1 x2 x3 x4 x5 x6 x7 x8 x9 x10 x11 x12 x13 x14 x15 x16 x17 x18 x19 x20
      = sage2Lin (val_main_v158 (F := Ideal) x0 x1 x2 x3 x4 x5 x8 x9 x10 x11 x12 x13 x14) (invCol (val_main_v164 (F := Ideal) x5)) (val_main_v189 (F := Ideal) x0 x1 x4 x5 x6 x7 x8 x9 x10 x11 x15 x16 x17 x18 x19 x20) (invCol (val_main_v195 (F := Ideal) x7)) (val_main_v106 (F := Ideal) x0 x1 x4 x5 x6 x7 x8 x9 x10 x11 x15 x16 x17 x18 x19 x20)
          (slab 1 x15) (rowL 1 x16) (slab 1 x17) (slab 1 x18) (rowL 1 x19) (slab 1 x20) := by
  funext i
  obtain ⟨p, q, rfl⟩ : ∃ (p : Fin 200000) (q : Fin 128), i = ix2 p q := ⟨i 0, i 1, eq_ix2 i⟩
  unfold val_main_v205
  rw [addf_apply, sage_rated1, sage_fol1]
  rfl

/-- The reference's result: the output projection of the users after layer 1. -/
theorem out_eq :
    val_main_v209 (F := Ideal) x0 x1 x2 x3 x4 x5 x6 x7 x8 x9 x10 x11 x12 x13 x14 x15 x16 x17 x18 x19 x20 x21 x22
      = sage2Head (val_main_v158 (F := Ideal) x0 x1 x2 x3 x4 x5 x8 x9 x10 x11 x12 x13 x14) (invCol (val_main_v164 (F := Ideal) x5)) (val_main_v189 (F := Ideal) x0 x1 x4 x5 x6 x7 x8 x9 x10 x11 x15 x16 x17 x18 x19 x20) (invCol (val_main_v195 (F := Ideal) x7)) (val_main_v106 (F := Ideal) x0 x1 x4 x5 x6 x7 x8 x9 x10 x11 x15 x16 x17 x18 x19 x20)
          (slab 1 x15) (rowL 1 x16) (slab 1 x17) (slab 1 x18) (rowL 1 x19) (slab 1 x20) x21 (rowOf x22) := by
  unfold val_main_v209 val_main_v206 val_main_v208 val_main_v207
  refine (Cert.RefOpen.dense_open _ rfl _ x21 x22 _ _).trans ?_
  rw [hu2_eq x0 x1 x2 x3 x4 x5 x6 x7 x8 x9 x10 x11 x12 x13 x14 x15 x16 x17 x18 x19 x20]
  rfl

end Cert.ReferenceIdeal.RefValue

end
-- ==== Proof.RefModel.lean ====
/-
  The reference as the network model. The reference's gathers, scatter-adds and clamped counts are, operation for
  operation, the host operations of the kernel program on the same operands (a change of float format is the
  identity on extended reals), so each aggregate is the kernel program's aggregation function applied to the features
  it reads and each clamped count is the kernel program's; with the dense stages identified with the specification
  functions, the reference's result is the model's output at those aggregations and counts.
-/
import proofs.«178608_j31610959298705_2_alg».proof.Proof.Gen.ReferenceIdeal.Read
import proofs.«178608_j31610959298705_2_alg».proof.Proof.RefDense
import proofs.«178608_j31610959298705_2_alg».proof.Proof.RefSage1
import proofs.«178608_j31610959298705_2_alg».proof.Proof.RefSage2
import proofs.«178608_j31610959298705_2_alg».proof.Proof.RefHead
import proofs.«178608_j31610959298705_2_alg».proof.Proof.KerHost
import proofs.«178608_j31610959298705_2_alg».proof.Proof.Model

noncomputable section

namespace Cert.ReferenceIdeal.RefValue

open Cert.ReferenceIdeal Cert.ReferenceIdeal.Read Cert.Spec Cert.LibRowBias Idealize.ShloMosaic

variable (x0 : (⟨S200000x64, .f32⟩ : BufTy).Contents (Elt Ideal))
  (x1 : (⟨S100000x128, .f32⟩ : BufTy).Contents (Elt Ideal))
  (x2 : (⟨S1000000, .i32⟩ : BufTy).Contents (Elt Ideal))
  (x3 : (⟨S1000000, .i32⟩ : BufTy).Contents (Elt Ideal))
  (x4 : (⟨S1000000, .i32⟩ : BufTy).Contents (Elt Ideal))
  (x5 : (⟨S1000000, .i32⟩ : BufTy).Contents (Elt Ideal))
  (x6 : (⟨S1000000, .i32⟩ : BufTy).Contents (Elt Ideal))
  (x7 : (⟨S1000000, .i32⟩ : BufTy).Contents (Elt Ideal))
  (x8 : (⟨S64x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x12 : (⟨S2x128x128, .f32⟩ : BufTy).Contents (Elt Ideal))
  (x13 : (⟨S2x128, .f32⟩ : BufTy).Contents (Elt Ideal))
  (x14 : (⟨S2x128x128, .f32⟩ : BufTy).Contents (Elt Ideal))
  (x15 : (⟨S2x128x128, .f32⟩ : BufTy).Contents (Elt Ideal))
  (x16 : (⟨S2x128, .f32⟩ : BufTy).Contents (Elt Ideal))
  (x17 : (⟨S2x128x128, .f32⟩ : BufTy).Contents (Elt Ideal))
  (x18 : (⟨S2x128x128, .f32⟩ : BufTy).Contents (Elt Ideal))
  (x19 : (⟨S2x128, .f32⟩ : BufTy).Contents (Elt Ideal))
  (x20 : (⟨S2x128x128, .f32⟩ : BufTy).Contents (Elt Ideal))
  (x21 : (⟨S128x16, .f32⟩ : BufTy).Contents (Elt Ideal))
  (x22 : (⟨S16, .f32⟩ : BufTy).Contents (Elt Ideal))

/-- Layer 0: user rows along the rating edges, summed per item. -/
theorem aggI0_eq : val_main_v23 (F := Ideal) x0 x2 x3 x8 x9 = Cert.KernelIdeal.KerHost.aggI x2 x3 (val_main_v3 (F := Ideal) x0 x8 x9) := by
  unfold val_main_v23 val_main_v21 val_main_cst val_main_v22 val_main_v20 val_main_v19 val_main_v18 val_main_v15 val_main_v14 val_main_c val_main_v17 val_main_v16 val_main_c_0 Cert.KernelIdeal.KerHost.aggI Cert.KernelIdeal.KerHost.dstCol Cert.KernelIdeal.KerHost.normU
  generalize val_main_v3 (F := Ideal) x0 x8 x9 = h
  rfl

/-- Layer 0: item rows along the "rated by" edges, summed per user. -/
theorem aggR0_eq : val_main_v54 (F := Ideal) x1 x4 x5 x10 x11 = Cert.KernelIdeal.KerHost.aggR x4 x5 (val_main_v7 (F := Ideal) x1 x10 x11) := by
  unfold val_main_v54 val_main_v52 val_main_cst_6 val_main_v53 val_main_v51 val_main_v50 val_main_v49 val_main_v46 val_main_v45 val_main_c_4 val_main_v48 val_main_v47 val_main_c_5 Cert.KernelIdeal.KerHost.aggR Cert.KernelIdeal.KerHost.dstCol Cert.KernelIdeal.KerHost.normI
  generalize val_main_v7 (F := Ideal) x1 x10 x11 = h
  rfl

/-- Layer 0: user rows along the "follows" edges, summed per user. -/
theorem aggF0_eq : val_main_v85 (F := Ideal) x0 x6 x7 x8 x9 = Cert.KernelIdeal.KerHost.aggF x6 x7 (val_main_v3 (F := Ideal) x0 x8 x9) := by
  unfold val_main_v85 val_main_v83 val_main_cst_12 val_main_v84 val_main_v82 val_main_v81 val_main_v80 val_main_v77 val_main_v76 val_main_c_10 val_main_v79 val_main_v78 val_main_c_11 Cert.KernelIdeal.KerHost.aggF Cert.KernelIdeal.KerHost.dstCol Cert.KernelIdeal.KerHost.normU
  generalize val_main_v3 (F := Ideal) x0 x8 x9 = h
  rfl

/-- Layer 1: item rows along the "rated by" edges, summed per user. -/
theorem aggR1_eq : val_main_v158 (F := Ideal) x0 x1 x2 x3 x4 x5 x8 x9 x10 x11 x12 x13 x14 = Cert.KernelIdeal.KerHost.aggR x4 x5 (val_main_v111 (F := Ideal) x0 x1 x2 x3 x8 x9 x10 x11 x12 x13 x14) := by
  unfold val_main_v158 val_main_v156 val_main_cst_28 val_main_v157 val_main_v155 val_main_v154 val_main_v153 val_main_v150 val_main_v149 val_main_c_26 val_main_v152 val_main_v151 val_main_c_27 Cert.KernelIdeal.KerHost.aggR Cert.KernelIdeal.KerHost.dstCol Cert.KernelIdeal.KerHost.normI
  generalize val_main_v111 (F := Ideal) x0 x1 x2 x3 x8 x9 x10 x11 x12 x13 x14 = h
  rfl

/-- Layer 1: user rows along the "follows" edges, summed per user. -/
theorem aggF1_eq : val_main_v189 (F := Ideal) x0 x1 x4 x5 x6 x7 x8 x9 x10 x11 x15 x16 x17 x18 x19 x20 = Cert.KernelIdeal.KerHost.aggF x6 x7 (val_main_v106 (F := Ideal) x0 x1 x4 x5 x6 x7 x8 x9 x10 x11 x15 x16 x17 x18 x19 x20) := by
  unfold val_main_v189 val_main_v187 val_main_cst_34 val_main_v188 val_main_v186 val_main_v185 val_main_v184 val_main_v181 val_main_v180 val_main_c_32 val_main_v183 val_main_v182 val_main_c_33 Cert.KernelIdeal.KerHost.aggF Cert.KernelIdeal.KerHost.dstCol Cert.KernelIdeal.KerHost.normU
  generalize val_main_v106 (F := Ideal) x0 x1 x4 x5 x6 x7 x8 x9 x10 x11 x15 x16 x17 x18 x19 x20 = h
  rfl

/-- Layer 0: the clamped in-degree of the items. -/
theorem cI0_eq : val_main_v29 (F := Ideal) x3 = Cert.KernelIdeal.KerHost.cmaxI x3 := by
  unfold val_main_v29 val_main_v27 val_main_v25 val_main_cst_2 val_main_v26 val_main_v24 val_main_cst_1 val_main_v28 val_main_cst_3 Cert.KernelIdeal.KerHost.cmaxI Cert.KernelIdeal.KerHost.dstCol
  rfl

/-- Layer 0: the clamped number of items that rated a user. -/
theorem cR0_eq : val_main_v60 (F := Ideal) x5 = Cert.KernelIdeal.KerHost.cmaxU x5 := by
  unfold val_main_v60 val_main_v58 val_main_v56 val_main_cst_8 val_main_v57 val_main_v55 val_main_cst_7 val_main_v59 val_main_cst_9 Cert.KernelIdeal.KerHost.cmaxU Cert.KernelIdeal.KerHost.dstCol
  rfl

/-- Layer 0: the clamped number of followers of a user. -/
theorem cF0_eq : val_main_v91 (F := Ideal) x7 = Cert.KernelIdeal.KerHost.cmaxU x7 := by
  unfold val_main_v91 val_main_v89 val_main_v87 val_main_cst_14 val_main_v88 val_main_v86 val_main_cst_13 val_main_v90 val_main_cst_15 Cert.KernelIdeal.KerHost.cmaxU Cert.KernelIdeal.KerHost.dstCol
  rfl

/-- Layer 1: the clamped number of items that rated a user. -/
theorem cR1_eq : val_main_v164 (F := Ideal) x5 = Cert.KernelIdeal.KerHost.cmaxU x5 := by
  unfold val_main_v164 val_main_v162 val_main_v160 val_main_cst_30 val_main_v161 val_main_v159 val_main_cst_29 val_main_v163 val_main_cst_31 Cert.KernelIdeal.KerHost.cmaxU Cert.KernelIdeal.KerHost.dstCol
  rfl

/-- Layer 1: the clamped number of followers of a user. -/
theorem cF1_eq : val_main_v195 (F := Ideal) x7 = Cert.KernelIdeal.KerHost.cmaxU x7 := by
  unfold val_main_v195 val_main_v193 val_main_v191 val_main_cst_36 val_main_v192 val_main_v190 val_main_cst_35 val_main_v194 val_main_cst_37 Cert.KernelIdeal.KerHost.cmaxU Cert.KernelIdeal.KerHost.dstCol
  rfl

/-- The reference's result is the model's output at the kernel program's aggregations and clamped counts. -/
theorem ref_out :
    val_main_v209 (F := Ideal) x0 x1 x2 x3 x4 x5 x6 x7 x8 x9 x10 x11 x12 x13 x14 x15 x16 x17 x18 x19 x20 x21 x22
      = Cert.Model.out (Cert.KernelIdeal.KerHost.aggI x2 x3) (Cert.KernelIdeal.KerHost.aggR x4 x5) (Cert.KernelIdeal.KerHost.aggF x6 x7) (Cert.KernelIdeal.KerHost.cmaxI x3) (Cert.KernelIdeal.KerHost.cmaxU x5)
          (Cert.KernelIdeal.KerHost.cmaxU x7) x0 x1 x8 x9 x10 x11 x12 x13 x14 x15 x16 x17 x18 x19 x20 x21 x22 := by
  rw [out_eq, aggR1_eq, aggF1_eq, cR1_eq, cF1_eq, hu1_eq, hi1_eq, aggR0_eq, aggF0_eq, aggI0_eq, cR0_eq, cF0_eq, cI0_eq,
    hu0_eq, hi0_eq]
  rfl

end Cert.ReferenceIdeal.RefValue

end
-- ==== Proof.Final.lean ====
/-
  The five claims about the heterogeneous GraphSAGE kernel program and its reference.

  Both programs compute the same two-layer network on a graph of 200000 users and 100000 items with three edge lists
  of a million edges each. The inputs are projected to 128 features (x·W + b); a layer updates a node type by, for each
  relation into it, averaging the source features over the incoming edges (a gather of source rows, a sum into
  destination rows, a division by the in-degree clamped below at 1), applying the relation's neighbour weights and bias,
  adding the relation's root weights applied to the node's own features, and summing over the relations; the hidden
  layer applies the leaky rectifier, the last layer feeds a 128×16 output projection of the user features.

  The kernel program does the dense arithmetic in five row-blocked regions (4000 rows a block: the two projections,
  the item update, the user update, the last user update fused with the output projection) and leaves the gathers,
  the sums into destination rows and the reciprocal in-degrees to the host between them; the reference does everything
  as whole-array operations. At the exact instance floats are extended reals and a change of float format is the
  identity, so each region's block arithmetic is its stage of the whole arrays read row by row, the products into a
  zero accumulator are the same sums over the contraction index as the reference's, and the one difference between the
  two — the kernel multiplies the summed neighbour features by 1/c where the reference divides by c, c = max(count, 1) —
  is no difference on the extended reals, because c ≥ 1 is not zero. Both result arrays are therefore one function of
  the twenty-three arguments, the model's output; the aggregations and the clamped counts enter that function as the
  same host operations in both programs and are never opened.

  The two frames of the kernel program are its generated frame certificate at the two instances, the reference's frame
  is its run with the result dropped, and the exact reading of the kernel program rewrote nothing.
-/
import proofs.«178608_j31610959298705_2_alg».proof.Defs
import proofs.«178608_j31610959298705_2_alg».proof.Proof.Gen.Kernel.Frame
import proofs.«178608_j31610959298705_2_alg».proof.Proof.Chain
import proofs.«178608_j31610959298705_2_alg».proof.Proof.RefModel
import proofs.«178608_j31610959298705_2_alg».proof.Proof.Gen.Pre_finite_inputs
import proofs.«178608_j31610959298705_2_alg».proof.Proof.Gen.ReferenceIdeal.Run
import proofs.«178608_j31610959298705_2_alg».proof.Proof.Gen.ReferenceIdeal.Read

noncomputable section

open Idealize.ShloMosaic Idealize.ShloMosaic.TcCoe Idealize.SL.Sem

namespace Cert.Proof.Claims

open Cert.KernelIdeal.KerHost

section Result

open Cert.KernelIdeal

variable (m : (ℓ : Loc nD τ sig) → Buf (Elt Ideal) ℓ) (c : Dev nD)

set_option quotPrecheck false in
local notation "𝔞" j => m ((c.tc : Thread nD τ).loc j)

/-- The network's output as the model's function of one core's twenty-three argument arrays: the three neighbour
    aggregations and the three clamped in-degree vectors are the host operations of the edge lists, the rest is the
    dense arithmetic of Model. -/
def result : Buf (Elt Ideal) ((c.tc : Thread nD τ).loc main_v124) :=
  Cert.Model.out (aggI (𝔞 main_arg2) (𝔞 main_arg3)) (aggR (𝔞 main_arg4) (𝔞 main_arg5)) (aggF (𝔞 main_arg6) (𝔞 main_arg7))
    (cmaxI (𝔞 main_arg3)) (cmaxU (𝔞 main_arg5)) (cmaxU (𝔞 main_arg7))
    (𝔞 main_arg0) (𝔞 main_arg1) (𝔞 main_arg8) (𝔞 main_arg9) (𝔞 main_arg10) (𝔞 main_arg11) (𝔞 main_arg12) (𝔞 main_arg13)
    (𝔞 main_arg14) (𝔞 main_arg15) (𝔞 main_arg16) (𝔞 main_arg17) (𝔞 main_arg18) (𝔞 main_arg19) (𝔞 main_arg20) (𝔞 main_arg21)
    (𝔞 main_arg22)

end Result

/-- The word-level kernel program runs and leaves its arguments as launched. -/
theorem frame_p : Cert.frame_Kernel := fun m ρ _ => Cert.Kernel.Gen.frame m ρ

/-- So does the kernel program read at the exact instance. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact reading rewrote no operation of the kernel program. -/
theorem preserves : Cert.preserves_Kernel_KernelIdeal := trivial

/-- At the exact instance, from memories that agree on the twenty-three arguments, both programs end with the
    model's output of those arguments in their result arrays: the kernel program through its five regions and the
    host stretches between them, the reference through its whole-array operations. -/
theorem algebraic : Cert.algebraic_KernelIdeal_ReferenceIdeal := by
  intro m ρ m' ρ' _ hagree
  refine ⟨result m, ?_, ?_⟩
  · exact (θ_run Cert.KernelIdeal.defs _ _).mono (fun r h c =>
      ⟨(h c _ (Cert.KernelIdeal.Gen.mem_uc Cert.KernelIdeal.main_v124 (by decide))).trans (Cert.KernelIdeal.Chain.out_at10 m ρ c),
       (h c _ (Cert.KernelIdeal.Gen.mem_uc Cert.KernelIdeal.main_arg0 (by decide))).trans (Cert.KernelIdeal.Gen.W10_main_arg0 m ρ c),
       (h c _ (Cert.KernelIdeal.Gen.mem_uc Cert.KernelIdeal.main_arg1 (by decide))).trans (Cert.KernelIdeal.Gen.W10_main_arg1 m ρ c),
       (h c _ (Cert.KernelIdeal.Gen.mem_uc Cert.KernelIdeal.main_arg2 (by decide))).trans (Cert.KernelIdeal.Gen.W10_main_arg2 m ρ c),
       (h c _ (Cert.KernelIdeal.Gen.mem_uc Cert.KernelIdeal.main_arg3 (by decide))).trans (Cert.KernelIdeal.Gen.W10_main_arg3 m ρ c),
       (h c _ (Cert.KernelIdeal.Gen.mem_uc Cert.KernelIdeal.main_arg4 (by decide))).trans (Cert.KernelIdeal.Gen.W10_main_arg4 m ρ c),
       (h c _ (Cert.KernelIdeal.Gen.mem_uc Cert.KernelIdeal.main_arg5 (by decide))).trans (Cert.KernelIdeal.Gen.W10_main_arg5 m ρ c),
       (h c _ (Cert.KernelIdeal.Gen.mem_uc Cert.KernelIdeal.main_arg6 (by decide))).trans (Cert.KernelIdeal.Gen.W10_main_arg6 m ρ c),
       (h c _ (Cert.KernelIdeal.Gen.mem_uc Cert.KernelIdeal.main_arg7 (by decide))).trans (Cert.KernelIdeal.Gen.W10_main_arg7 m ρ c),
       (h c _ (Cert.KernelIdeal.Gen.mem_uc Cert.KernelIdeal.main_arg8 (by decide))).trans (Cert.KernelIdeal.Gen.W10_main_arg8 m ρ c),
       (h c _ (Cert.KernelIdeal.Gen.mem_uc Cert.KernelIdeal.main_arg9 (by decide))).trans (Cert.KernelIdeal.Gen.W10_main_arg9 m ρ c),
       (h c _ (Cert.KernelIdeal.Gen.mem_uc Cert.KernelIdeal.main_arg10 (by decide))).trans (Cert.KernelIdeal.Gen.W10_main_arg10 m ρ c),
       (h c _ (Cert.KernelIdeal.Gen.mem_uc Cert.KernelIdeal.main_arg11 (by decide))).trans (Cert.KernelIdeal.Gen.W10_main_arg11 m ρ c),
       (h c _ (Cert.KernelIdeal.Gen.mem_uc Cert.KernelIdeal.main_arg12 (by decide))).trans (Cert.KernelIdeal.Gen.W10_main_arg12 m ρ c),
       (h c _ (Cert.KernelIdeal.Gen.mem_uc Cert.KernelIdeal.main_arg13 (by decide))).trans (Cert.KernelIdeal.Gen.W10_main_arg13 m ρ c),
       (h c _ (Cert.KernelIdeal.Gen.mem_uc Cert.KernelIdeal.main_arg14 (by decide))).trans (Cert.KernelIdeal.Gen.W10_main_arg14 m ρ c),
       (h c _ (Cert.KernelIdeal.Gen.mem_uc Cert.KernelIdeal.main_arg15 (by decide))).trans (Cert.KernelIdeal.Gen.W10_main_arg15 m ρ c),
       (h c _ (Cert.KernelIdeal.Gen.mem_uc Cert.KernelIdeal.main_arg16 (by decide))).trans (Cert.KernelIdeal.Gen.W10_main_arg16 m ρ c),
       (h c _ (Cert.KernelIdeal.Gen.mem_uc Cert.KernelIdeal.main_arg17 (by decide))).trans (Cert.KernelIdeal.Gen.W10_main_arg17 m ρ c),
       (h c _ (Cert.KernelIdeal.Gen.mem_uc Cert.KernelIdeal.main_arg18 (by decide))).trans (Cert.KernelIdeal.Gen.W10_main_arg18 m ρ c),
       (h c _ (Cert.KernelIdeal.Gen.mem_uc Cert.KernelIdeal.main_arg19 (by decide))).trans (Cert.KernelIdeal.Gen.W10_main_arg19 m ρ c),
       (h c _ (Cert.KernelIdeal.Gen.mem_uc Cert.KernelIdeal.main_arg20 (by decide))).trans (Cert.KernelIdeal.Gen.W10_main_arg20 m ρ c),
       (h c _ (Cert.KernelIdeal.Gen.mem_uc Cert.KernelIdeal.main_arg21 (by decide))).trans (Cert.KernelIdeal.Gen.W10_main_arg21 m ρ c),
       (h c _ (Cert.KernelIdeal.Gen.mem_uc Cert.KernelIdeal.main_arg22 (by decide))).trans (Cert.KernelIdeal.Gen.W10_main_arg22 m ρ c)⟩)
      (Cert.KernelIdeal.RunValue.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22⟩ := hagree c
    refine (Cert.ReferenceIdeal.Read.val_main_v209_eq m' c).trans
      ((Cert.ReferenceIdeal.RefValue.ref_out _ _ _ _ _ _ _ _ _ _ _ _ _ _ _ _ _ _ _ _ _ _ _).trans ?_)
    unfold result
    rw [h0, h1, h2, h3, h4, h5, h6, h7, h8, h9, h10, h11, h12, h13, h14, h15, h16, h17, h18, h19, h20, h21, h22]

end Cert.Proof.Claims

end
-- ==== Proof.lean ====
/-
  The certificate of the heterogeneous GraphSAGE kernel program: the word-level program, its reading at the exact
  instance and the reference all run and leave their arguments unchanged; the exact reading rewrote no operation; and
  at the exact instance the kernel program and the reference, started from memories that agree on the twenty-three
  arguments, end with equal result arrays — both hold the network's output as one function of the arguments, the
  kernel's row-blocked regions and reciprocal in-degrees against the reference's whole-array operations and divisions.
  The claims are proved in Proof/Final.lean; the side conditions the programs state are the generated instances.
-/
import proofs.«178608_j31610959298705_2_alg».proof.Defs
import proofs.«178608_j31610959298705_2_alg».proof.Proof.Gen.Kernel
import proofs.«178608_j31610959298705_2_alg».proof.Proof.Gen.Kernel.Skeleton
import proofs.«178608_j31610959298705_2_alg».proof.Proof.Gen.Kernel.Launch
import proofs.«178608_j31610959298705_2_alg».proof.Proof.Gen.Kernel.Points
import proofs.«178608_j31610959298705_2_alg».proof.Proof.Gen.Kernel.Frame
import proofs.«178608_j31610959298705_2_alg».proof.Proof.Gen.KernelIdeal
import proofs.«178608_j31610959298705_2_alg».proof.Proof.Gen.KernelIdeal.Skeleton
import proofs.«178608_j31610959298705_2_alg».proof.Proof.Gen.KernelIdeal.Launch
import proofs.«178608_j31610959298705_2_alg».proof.Proof.Gen.KernelIdeal.Points
import proofs.«178608_j31610959298705_2_alg».proof.Proof.Gen.KernelIdeal.Frame
import proofs.«178608_j31610959298705_2_alg».proof.Proof.Gen.ReferenceIdeal
import proofs.«178608_j31610959298705_2_alg».proof.Proof.Gen.Pre_finite_inputs
import proofs.«178608_j31610959298705_2_alg».proof.Proof.Gen.ReferenceIdeal.Run
import proofs.«178608_j31610959298705_2_alg».proof.Proof.Gen.ReferenceIdeal.Read
import proofs.«178608_j31610959298705_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
